-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1200000 32) (main_arg2 : FVec F S64x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩

abbrev nBuf : Space → Nat
  | .hbm => 138
  | .vmem => 50
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S100000, .i32⟩
  | 13 => ⟨S1x1200000, .i32⟩
  | 14 => ⟨S1200000, .i32⟩
  | 15 => ⟨S1300000, .i32⟩
  | 16 => ⟨S1x1200000, .i32⟩
  | 17 => ⟨S1200000, .i32⟩
  | 18 => ⟨S1300000, .i32⟩
  | 19 => ⟨S_, .f32⟩
  | 20 => ⟨S1300000, .f32⟩
  | 21 => ⟨S_, .f32⟩
  | 22 => ⟨S100000, .f32⟩
  | 23 => ⟨S1300000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1300000, .i32⟩
  | 38 => ⟨S1300000, .i1⟩
  | 39 => ⟨S_, .i32⟩
  | 40 => ⟨S1300000, .i32⟩
  | 41 => ⟨S1300000, .i32⟩
  | 42 => ⟨S1300000, .i32⟩
  | 43 => ⟨S1300000x1, .i32⟩
  | 44 => ⟨S1300000, .f32⟩
  | 45 => ⟨S_, .i32⟩
  | 46 => ⟨S1300000, .i32⟩
  | 47 => ⟨S1300000, .i1⟩
  | 48 => ⟨S_, .i32⟩
  | 49 => ⟨S1300000, .i32⟩
  | 50 => ⟨S1300000, .i32⟩
  | 51 => ⟨S1300000, .i32⟩
  | 52 => ⟨S1300000x1, .i32⟩
  | 53 => ⟨S1300000, .f32⟩
  | 54 => ⟨S1300000, .f32⟩
  | 55 => ⟨S100000x64, .f32⟩
  | 56 => ⟨S_, .i32⟩
  | 57 => ⟨S1300000, .i32⟩
  | 58 => ⟨S1300000, .i1⟩
  | 59 => ⟨S_, .i32⟩
  | 60 => ⟨S1300000, .i32⟩
  | 61 => ⟨S1300000, .i32⟩
  | 62 => ⟨S1300000, .i32⟩
  | 63 => ⟨S1300000x1, .i32⟩
  | 64 => ⟨S1300000x64, .f32⟩
  | 65 => ⟨S1300000x1, .f32⟩
  | 66 => ⟨S1300000x64, .f32⟩
  | 67 => ⟨S1300000x64, .f32⟩
  | 68 => ⟨S_, .f32⟩
  | 69 => ⟨S100000x64, .f32⟩
  | 70 => ⟨S1300000x1, .i32⟩
  | 71 => ⟨S100000x64, .f32⟩
  | 72 => ⟨S1x64, .f32⟩
  | 73 => ⟨S100000x64, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S100000x64, .f32⟩
  | 87 => ⟨S100000x64, .f32⟩
  | 88 => ⟨S_, .i32⟩
  | 89 => ⟨S1300000, .i32⟩
  | 90 => ⟨S1300000, .i1⟩
  | 91 => ⟨S_, .i32⟩
  | 92 => ⟨S1300000, .i32⟩
  | 93 => ⟨S1300000, .i32⟩
  | 94 => ⟨S1300000, .i32⟩
  | 95 => ⟨S1300000x1, .i32⟩
  | 96 => ⟨S1300000x64, .f32⟩
  | 97 => ⟨S1300000x1, .f32⟩
  | 98 => ⟨S1300000x64, .f32⟩
  | 99 => ⟨S1300000x64, .f32⟩
  | 100 => ⟨S_, .f32⟩
  | 101 => ⟨S100000x64, .f32⟩
  | 102 => ⟨S1300000x1, .i32⟩
  | 103 => ⟨S100000x64, .f32⟩
  | 104 => ⟨S1x64, .f32⟩
  | 105 => ⟨S100000x64, .f32⟩
  | 106 => ⟨S1x64, .f32⟩
  | 107 => ⟨S1x64, .f32⟩
  | 108 => ⟨S_, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S100000x64, .f32⟩
  | 119 => ⟨S100000x64, .f32⟩
  | 120 => ⟨S_, .i32⟩
  | 121 => ⟨S1300000, .i32⟩
  | 122 => ⟨S1300000, .i1⟩
  | 123 => ⟨S_, .i32⟩
  | 124 => ⟨S1300000, .i32⟩
  | 125 => ⟨S1300000, .i32⟩
  | 126 => ⟨S1300000, .i32⟩
  | 127 => ⟨S1300000x1, .i32⟩
  | _ => ⟨S100000x64, .f32⟩

abbrev hbmTy0_1 (i : Nat) : BufTy := match i % 128 with
  | 0 => ⟨S1300000x64, .f32⟩
  | 1 => ⟨S1300000x1, .f32⟩
  | 2 => ⟨S1300000x64, .f32⟩
  | 3 => ⟨S1300000x64, .f32⟩
  | 4 => ⟨S_, .f32⟩
  | 5 => ⟨S100000x64, .f32⟩
  | 6 => ⟨S1300000x1, .i32⟩
  | 7 => ⟨S100000x64, .f32⟩
  | 8 => ⟨S1x64, .f32⟩
  | 9 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_v47_2 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_c_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72_0 : Ref sig .tc := ⟨.hbm, 105, rfl⟩
abbrev main_v72_1 : Ref sig .tc := ⟨.hbm, 106, rfl⟩
abbrev main_v72_2 : Ref sig .tc := ⟨.hbm, 107, rfl⟩
abbrev main_cst_15 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_c_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S10000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S10000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72_1) S1x64.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72_2) S1x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v72_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v81) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v97) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 181
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S100000, .i32⟩
  | 13 => ⟨S1x1200000, .i32⟩
  | 14 => ⟨S1200000, .i32⟩
  | 15 => ⟨S1300000, .i32⟩
  | 16 => ⟨S1x1200000, .i32⟩
  | 17 => ⟨S1200000, .i32⟩
  | 18 => ⟨S1300000, .i32⟩
  | 19 => ⟨S_, .f32⟩
  | 20 => ⟨S1300000, .f32⟩
  | 21 => ⟨S_, .f32⟩
  | 22 => ⟨S100000, .f32⟩
  | 23 => ⟨S1300000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1300000, .i32⟩
  | 38 => ⟨S1300000, .i1⟩
  | 39 => ⟨S_, .i32⟩
  | 40 => ⟨S1300000, .i32⟩
  | 41 => ⟨S1300000, .i32⟩
  | 42 => ⟨S1300000, .i32⟩
  | 43 => ⟨S1300000x1, .i32⟩
  | 44 => ⟨S1300000, .f32⟩
  | 45 => ⟨S_, .i32⟩
  | 46 => ⟨S1300000, .i32⟩
  | 47 => ⟨S1300000, .i1⟩
  | 48 => ⟨S_, .i32⟩
  | 49 => ⟨S1300000, .i32⟩
  | 50 => ⟨S1300000, .i32⟩
  | 51 => ⟨S1300000, .i32⟩
  | 52 => ⟨S1300000x1, .i32⟩
  | 53 => ⟨S1300000, .f32⟩
  | 54 => ⟨S1300000, .f32⟩
  | 55 => ⟨S100000x64, .f32⟩
  | 56 => ⟨S_, .i32⟩
  | 57 => ⟨S1300000, .i32⟩
  | 58 => ⟨S1300000, .i1⟩
  | 59 => ⟨S_, .i32⟩
  | 60 => ⟨S1300000, .i32⟩
  | 61 => ⟨S1300000, .i32⟩
  | 62 => ⟨S1300000, .i32⟩
  | 63 => ⟨S1300000x1, .i32⟩
  | 64 => ⟨S1300000x64, .f32⟩
  | 65 => ⟨S1300000x1, .f32⟩
  | 66 => ⟨S1300000x64, .f32⟩
  | 67 => ⟨S1300000x64, .f32⟩
  | 68 => ⟨S_, .f32⟩
  | 69 => ⟨S100000x64, .f32⟩
  | 70 => ⟨S1300000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S64, .f32⟩
  | 77 => ⟨S_, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S100000x64, .f32⟩
  | 84 => ⟨S_, .f32⟩
  | 85 => ⟨S64, .f32⟩
  | 86 => ⟨S_, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S100000x64, .f32⟩
  | 109 => ⟨S_, .i32⟩
  | 110 => ⟨S1300000, .i32⟩
  | 111 => ⟨S1300000, .i1⟩
  | 112 => ⟨S_, .i32⟩
  | 113 => ⟨S1300000, .i32⟩
  | 114 => ⟨S1300000, .i32⟩
  | 115 => ⟨S1300000, .i32⟩
  | 116 => ⟨S1300000x1, .i32⟩
  | 117 => ⟨S1300000x64, .f32⟩
  | 118 => ⟨S1300000x1, .f32⟩
  | 119 => ⟨S1300000x64, .f32⟩
  | 120 => ⟨S1300000x64, .f32⟩
  | 121 => ⟨S_, .f32⟩
  | 122 => ⟨S100000x64, .f32⟩
  | 123 => ⟨S1300000x1, .i32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S1x64, .f32⟩
  | 6 => ⟨S100000x64, .f32⟩
  | 7 => ⟨S100000x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S64, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S_, .i32⟩
  | 35 => ⟨S1300000, .i32⟩
  | 36 => ⟨S1300000, .i1⟩
  | 37 => ⟨S_, .i32⟩
  | 38 => ⟨S1300000, .i32⟩
  | 39 => ⟨S1300000, .i32⟩
  | 40 => ⟨S1300000, .i32⟩
  | 41 => ⟨S1300000x1, .i32⟩
  | 42 => ⟨S1300000x64, .f32⟩
  | 43 => ⟨S1300000x1, .f32⟩
  | 44 => ⟨S1300000x64, .f32⟩
  | 45 => ⟨S1300000x64, .f32⟩
  | 46 => ⟨S_, .f32⟩
  | 47 => ⟨S100000x64, .f32⟩
  | 48 => ⟨S1300000x1, .i32⟩
  | 49 => ⟨S100000x64, .f32⟩
  | 50 => ⟨S1x64, .f32⟩
  | 51 => ⟨S100000x64, .f32⟩
  | 52 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_cst_19 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_20 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_call2_cst : Ref sig .tc := ⟨.hbm, 158, rfl⟩
abbrev main_call2_v0 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_c_24 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_25 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.KHost.lean ====
/-
  What the host stretches between the kernel regions compute, as equations over an arbitrary valuation of the buffers:
  the neighbourhood aggregation (gather the source rows, scale by the edge weight, add into the target rows), the mean
  and the second-moment variance from the accumulated sums, and the reshapes of the per-feature parameters to rows.
-/
import proofs.«134326_j82703890251955_1_alg».proof.Proof.Gen.KernelIdeal.Launch
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Index normalisation of a gather: a negative node index counts from the end. -/
def wrap (v : (⟨S1300000, .i32⟩ : BufTy).Contents (Elt F)) : (⟨S1300000, .i32⟩ : BufTy).Contents (Elt F) :=
  select (cmpi .slt v (broadcastInDim S1300000 ![] bcast_S_S1300000 (constantI S_ 32 0#32)))
    (addi v (broadcastInDim S1300000 ![] bcast_S_S1300000 (constantI S_ 32 100000#32))) v

/-- The aggregation over the edge list with self-loops: row `dst e` of the result is the sum over the edges `e` into it of
    `weight e` times row `src e` of `h` (negative source indices wrap by the number of nodes, as the gather's index
    normalisation does). -/
def agg (src dst : (⟨S1300000, .i32⟩ : BufTy).Contents (Elt F)) (weight : (⟨S1300000, .f32⟩ : BufTy).Contents (Elt F))
    (h : (⟨S100000x64, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 dst)
    (mulf (Host.gather gather_S100000x64_S1300000x1_S1300000x64_1_0_n_n_0_1_164 h
        (broadcastInDim S1300000x1 ![0] bcast_S1300000_S1300000x1_0
          (wrap src)))
      (broadcastInDim S1300000x64 ![0, 1] bcast_S1300000x1_S1300000x64_0_1
        (broadcastInDim S1300000x1 ![0] bcast_S1300000_S1300000x1_0 weight)))

/-- A [1, 64] row of sums divided by the number of nodes. -/
def meanRow (s : (⟨S1x64, .f32⟩ : BufTy).Contents (Elt F)) : (⟨S1x64, .f32⟩ : BufTy).Contents (Elt F) :=
  Host.divf s (broadcastInDim S1x64 ![] bcast_S_S1x64 (constant S_ .f32 0x47C35000#32))

/-- The second-moment variance row: the mean of the squares minus the square of the mean. -/
def varRow (s sq : (⟨S1x64, .f32⟩ : BufTy).Contents (Elt F)) : (⟨S1x64, .f32⟩ : BufTy).Contents (Elt F) :=
  subf (meanRow sq) (mulf (meanRow s) (meanRow s))

/-- The source node of every edge: the first row of the edge list, then one self-loop per node. -/
def srcOf (e : (⟨S2x1200000, .i32⟩ : BufTy).Contents (Elt F)) : (⟨S1300000, .i32⟩ : BufTy).Contents (Elt F) :=
  concatenate S1300000 0 [⟨S1200000, shapeCast _ (extractStridedSlice S1x1200000 ![0, 0] e slices_S2x1200000_S1x1200000_0_0) shapeCasts_S1x1200000_S1200000⟩, ⟨S100000, iotaInDim S100000 32 0⟩] concatenates_S1200000_S100000_S1300000_d0

/-- The target node of every edge: the second row of the edge list, then one self-loop per node. -/
def dstOf (e : (⟨S2x1200000, .i32⟩ : BufTy).Contents (Elt F)) : (⟨S1300000, .i32⟩ : BufTy).Contents (Elt F) :=
  concatenate S1300000 0 [⟨S1200000, shapeCast _ (extractStridedSlice S1x1200000 ![1, 0] e slices_S2x1200000_S1x1200000_1_0) shapeCasts_S1x1200000_S1200000⟩, ⟨S100000, iotaInDim S100000 32 0⟩] concatenates_S1200000_S100000_S1300000_d0

/-- The in-degree of every node, self-loop included: one is added at the target of every edge. -/
def degOf (e : (⟨S2x1200000, .i32⟩ : BufTy).Contents (Elt F)) : (⟨S100000, .f32⟩ : BufTy).Contents (Elt F) :=
  Host.scatterAdd scatter_S100000_S1300000x1_S1300000_n_0_0_1
    (broadcastInDim S100000 ![] bcast_S_S100000 (constant S_ .f32 0x00000000#32))
    (broadcastInDim S1300000x1 ![0] bcast_S1300000_S1300000x1_0 (dstOf e))
    (broadcastInDim S1300000 ![] bcast_S_S1300000 (constant S_ .f32 0x3F800000#32))

/-- The inverse square root of the degree where the degree is positive, zero elsewhere. -/
def dinvOf (e : (⟨S2x1200000, .i32⟩ : BufTy).Contents (Elt F)) : (⟨S100000, .f32⟩ : BufTy).Contents (Elt F) :=
  select (cmpf .ogt (degOf e) (broadcastInDim S100000 ![] bcast_S_S100000 (constant S_ .f32 0x00000000#32)))
    (Host.rsqrt (maximumf (degOf e) (broadcastInDim S100000 ![] bcast_S_S100000 (constant S_ .f32 0x3F800000#32))))
    (broadcastInDim S100000 ![] bcast_S_S100000 (id (constant S_ .f32 0x00000000#32)))

/-- The weight of every edge: the product of the inverse square roots of the degrees of its two ends. -/
def weightFrom (src dst : (⟨S1300000, .i32⟩ : BufTy).Contents (Elt F)) (dinv : (⟨S100000, .f32⟩ : BufTy).Contents (Elt F)) :
    (⟨S1300000, .f32⟩ : BufTy).Contents (Elt F) :=
  mulf (Host.gather gather_S100000_S1300000x1_S1300000_n_0_n_n_0_1_1 dinv (broadcastInDim S1300000x1 ![0] bcast_S1300000_S1300000x1_0 (wrap src)))
    (Host.gather gather_S100000_S1300000x1_S1300000_n_0_n_n_0_1_1 dinv (broadcastInDim S1300000x1 ![0] bcast_S1300000_S1300000x1_0 (wrap dst)))

/-- The whole aggregation as a function of the edge list and the node features. -/
def aggOf (e : (⟨S2x1200000, .i32⟩ : BufTy).Contents (Elt F)) (h : (⟨S100000x64, .f32⟩ : BufTy).Contents (Elt F)) :
    (⟨S100000x64, .f32⟩ : BufTy).Contents (Elt F) :=
  agg (srcOf e) (dstOf e) (weightFrom (srcOf e) (dstOf e) (dinvOf e)) h

variable (W : Valuation τ sig (Elt F))

set_option maxHeartbeats 8000000 in
theorem dinv01 : StableHlo.after hostOps0_1 (StableHlo.after hostOps0 W) (Proc.devRef .tc main_v16) = dinvOf (W (Proc.devRef .tc main_arg1)) := by
  after_results; rfl
set_option maxHeartbeats 8000000 in
theorem weight02 : StableHlo.after hostOps0_2 W (Proc.devRef .tc main_v31)
    = weightFrom (W (Proc.devRef .tc main_v3)) (W (Proc.devRef .tc main_v6)) (W (Proc.devRef .tc main_v16)) := by
  after_results; rfl

set_option maxHeartbeats 8000000 in
theorem agg1 : StableHlo.after hostOps1 W (Proc.devRef .tc main_v45)
    = agg (W (Proc.devRef .tc main_v3)) (W (Proc.devRef .tc main_v6)) (W (Proc.devRef .tc main_v31)) (W (Proc.devRef .tc main_v32)) := by
  after_results; rfl

set_option maxHeartbeats 8000000 in
theorem bias1 : StableHlo.after hostOps1 W (Proc.devRef .tc main_v46)
    = shapeCast _ (W (Proc.devRef .tc main_arg3)) shapeCasts_S64_S1x64 := by
  after_results; rfl

set_option maxHeartbeats 8000000 in
theorem agg4 : StableHlo.after hostOps4 W (Proc.devRef .tc main_v70)
    = agg (W (Proc.devRef .tc main_v3)) (W (Proc.devRef .tc main_v6)) (W (Proc.devRef .tc main_v31)) (W (Proc.devRef .tc main_v57)) := by
  after_results; rfl

set_option maxHeartbeats 8000000 in
theorem bias4 : StableHlo.after hostOps4 W (Proc.devRef .tc main_v71)
    = shapeCast _ (W (Proc.devRef .tc main_arg7)) shapeCasts_S64_S1x64 := by
  after_results; rfl

set_option maxHeartbeats 8000000 in
theorem agg7 : StableHlo.after hostOps7 W (Proc.devRef .tc main_v95)
    = agg (W (Proc.devRef .tc main_v3)) (W (Proc.devRef .tc main_v6)) (W (Proc.devRef .tc main_v31)) (W (Proc.devRef .tc main_v82)) := by
  after_results; rfl

set_option maxHeartbeats 8000000 in
theorem bias7 : StableHlo.after hostOps7 W (Proc.devRef .tc main_v96)
    = shapeCast _ (W (Proc.devRef .tc main_arg11)) shapeCasts_S64_S1x64 := by
  after_results; rfl

set_option maxHeartbeats 8000000 in
theorem mean2 : StableHlo.after hostOps2 W (Proc.devRef .tc main_v49)
    = meanRow (W (Proc.devRef .tc main_v47_1)) := by
  after_results; rfl

set_option maxHeartbeats 8000000 in
theorem var2 : StableHlo.after hostOps2 W (Proc.devRef .tc main_v53)
    = varRow (W (Proc.devRef .tc main_v47_1)) (W (Proc.devRef .tc main_v47_2)) := by
  after_results; rfl

set_option maxHeartbeats 8000000 in
theorem scale2 : StableHlo.after hostOps2 W (Proc.devRef .tc main_v54)
    = shapeCast _ (W (Proc.devRef .tc main_arg4)) shapeCasts_S64_S1x64 := by
  after_results; rfl

set_option maxHeartbeats 8000000 in
theorem shift2 : StableHlo.after hostOps2 W (Proc.devRef .tc main_v55)
    = shapeCast _ (W (Proc.devRef .tc main_arg5)) shapeCasts_S64_S1x64 := by
  after_results; rfl

set_option maxHeartbeats 8000000 in
theorem mean5 : StableHlo.after hostOps5 W (Proc.devRef .tc main_v74)
    = meanRow (W (Proc.devRef .tc main_v72_1)) := by
  after_results; rfl

set_option maxHeartbeats 8000000 in
theorem var5 : StableHlo.after hostOps5 W (Proc.devRef .tc main_v78)
    = varRow (W (Proc.devRef .tc main_v72_1)) (W (Proc.devRef .tc main_v72_2)) := by
  after_results; rfl

set_option maxHeartbeats 8000000 in
theorem scale5 : StableHlo.after hostOps5 W (Proc.devRef .tc main_v79)
    = shapeCast _ (W (Proc.devRef .tc main_arg8)) shapeCasts_S64_S1x64 := by
  after_results; rfl

set_option maxHeartbeats 8000000 in
theorem shift5 : StableHlo.after hostOps5 W (Proc.devRef .tc main_v80)
    = shapeCast _ (W (Proc.devRef .tc main_arg9)) shapeCasts_S64_S1x64 := by
  after_results; rfl

set_option maxHeartbeats 8000000 in
theorem src0 : StableHlo.after hostOps0 W (Proc.devRef .tc main_v3) = srcOf (W (Proc.devRef .tc main_arg1)) := by
  after_results; rfl
set_option maxHeartbeats 8000000 in
theorem dst0 : StableHlo.after hostOps0 W (Proc.devRef .tc main_v6) = dstOf (W (Proc.devRef .tc main_arg1)) := by
  after_results; rfl

end Cert.KernelIdeal.HostValue

end
-- ==== Proof.Spec.lean ====
/-
  The layer functions of a three-layer graph convolution with batch normalisation, as index-by-index functions on the
  extended reals. Node features are arrays [100000, 64]; weights are [64, 64]; per-feature parameters and statistics
  are functions of the feature coordinate `Fin 64`.
-/
import Idealize.ShloMosaic.PureOps.Ideal
import Idealize.ShloMosaic.Lib.ValueIdx

noncomputable section

open scoped BigOperators

namespace GCN

open Idealize.ShloMosaic Idealize.ShloMosaic.ValueIdx

/-- Node features: one row of 64 features per node. -/
abbrev Nodes : Shape := ⟨2, ![100000, 64]⟩
/-- A square weight matrix. -/
abbrev Sq : Shape := ⟨2, ![64, 64]⟩
/-- One row of 64 features, kept with a leading axis of extent one. -/
abbrev Row : Shape := ⟨2, ![1, 64]⟩
/-- A vector of 64 features. -/
abbrev Feat : Shape := ⟨1, ![64]⟩

/-- The feature transform: entry (n, j) of `x · w` is the sum over k of x(n, k) · w(k, j). -/
def lin (x : Nodes.Idx → EReal) (w : Sq.Idx → EReal) : Nodes.Idx → EReal :=
  fun i => ∑ k : Fin 64, x (ix2 (i 0) k) * w (ix2 k (i 1))

/-- Add a per-feature bias to every node's row. -/
def addRow (a : Nodes.Idx → EReal) (b : Fin 64 → EReal) : Nodes.Idx → EReal :=
  fun i => a i + b (i 1)

/-- The sum of feature j over all nodes. -/
def colSum (a : Nodes.Idx → EReal) : Fin 64 → EReal :=
  fun j => ∑ r : Fin 100000, a (ix2 r j)

/-- The sum of the squares of feature j over all nodes. -/
def colSumSq (a : Nodes.Idx → EReal) : Fin 64 → EReal :=
  fun j => ∑ r : Fin 100000, a (ix2 r j) * a (ix2 r j)

/-- The stabiliser added to the variance: the binary32 value nearest 1e-5. -/
abbrev eps : EReal := Ideal.ofBits .f32 0x3727C5AC#32

/-- The zero the rectifier compares with. -/
abbrev zero : EReal := Ideal.ofBits .f32 0x00000000#32

/-- Normalise each feature by the given mean and variance, scale by g, shift by be, and rectify:
    max (g_j · (x − mean_j) · (var_j + eps)^(-1/2) + be_j, 0). -/
def normRelu (x : Nodes.Idx → EReal) (mean var g be : Fin 64 → EReal) : Nodes.Idx → EReal :=
  fun i => max (g (i 1) * (x i - mean (i 1)) * Ideal.rsqrt (var (i 1) + eps) + be (i 1)) zero

/-- A [1, 64] row read as a function of the feature coordinate. -/
def row (v : Row.Idx → EReal) : Fin 64 → EReal := fun j => v (ix2 0 j)

/-- A [64] vector read as a function of the feature coordinate. -/
def vec (v : Feat.Idx → EReal) : Fin 64 → EReal := fun j => v (ix1 j)

/-- The number of nodes, 100000, as the binary32 word both programs divide by. -/
abbrev count : EReal := Ideal.ofBits .f32 0x47C35000#32

/-- The mean of feature j over the nodes: the column sum divided by the number of nodes. -/
def meanOf (a : Nodes.Idx → EReal) : Fin 64 → EReal :=
  fun j => Ideal.div (colSum a j) count

/-- The variance of feature j as the mean of the squared deviations from the mean. -/
def varDev (a : Nodes.Idx → EReal) : Fin 64 → EReal :=
  fun j => Ideal.div (∑ r : Fin 100000, (a (ix2 r j) - meanOf a j) * (a (ix2 r j) - meanOf a j)) count

/-- The variance of feature j as the mean of the squares minus the square of the mean. -/
def varMom (a : Nodes.Idx → EReal) : Fin 64 → EReal :=
  fun j => Ideal.div (colSumSq a j) count - meanOf a j * meanOf a j

/-- The whole network, for a given neighbourhood aggregation `agg` (a function of a node-feature array) and a given
    way `var` of computing the per-feature variance: three times transform, aggregate, add the bias; after the first
    two, normalise over the nodes and rectify. -/
def net (agg : (Nodes.Idx → EReal) → (Nodes.Idx → EReal)) (var : (Nodes.Idx → EReal) → Fin 64 → EReal)
    (x : Nodes.Idx → EReal) (w1 : Sq.Idx → EReal) (b1 g1 be1 : Fin 64 → EReal)
    (w2 : Sq.Idx → EReal) (b2 g2 be2 : Fin 64 → EReal) (w3 : Sq.Idx → EReal) (b3 : Fin 64 → EReal) : Nodes.Idx → EReal :=
  let z1 := addRow (agg (lin x w1)) b1
  let h1 := normRelu z1 (meanOf z1) (var z1) g1 be1
  let z2 := addRow (agg (lin h1 w2)) b2
  let h2 := normRelu z2 (meanOf z2) (var z2) g2 be2
  addRow (agg (lin h2 w3)) b3

end GCN

end
-- ==== Proof.KRows.lean ====
/-
  Rows [1, 64] read as functions of the feature coordinate: a reshaped [64] vector is that vector; the row of sums divided
  by the number of nodes is the mean; the second-moment row is the mean of the squares minus the square of the mean.
-/
import proofs.«134326_j82703890251955_1_alg».proof.Proof.KHost
import proofs.«134326_j82703890251955_1_alg».proof.Proof.Spec
import Idealize.ShloMosaic.Lib.Pipeline.Value

noncomputable section

namespace Cert.KernelIdeal.HostValue

open Cert.KernelIdeal Cert.KernelIdeal.Gen Idealize.ShloMosaic Idealize.ShloMosaic.ValueIdx

theorem row_reshape (v : (⟨S64, .f32⟩ : BufTy).Contents (Elt Ideal)) :
    GCN.row (shapeCast S1x64 v shapeCasts_S64_S1x64) = GCN.vec v := by
  funext j
  show shapeCast S1x64 v shapeCasts_S64_S1x64 (ix2 0 j) = v (ix1 j)
  refine shapeCast_apply v shapeCasts_S64_S1x64 (ix2 0 j) (ix1 j) ?_
  rewrite [Shape.rowMajor_val_two, Shape.rowMajor_val_one]
  show j.val = 0 * 64 + j.val
  omega

theorem row_meanRow (s : (⟨S1x64, .f32⟩ : BufTy).Contents (Elt Ideal)) :
    GCN.row (meanRow (F := Ideal) s) = fun j => Ideal.div (s (ix2 0 j)) GCN.count := by
  funext j; rfl

theorem row_varRow (s sq : (⟨S1x64, .f32⟩ : BufTy).Contents (Elt Ideal)) :
    GCN.row (varRow (F := Ideal) s sq)
      = fun j => Ideal.div (sq (ix2 0 j)) GCN.count - Ideal.div (s (ix2 0 j)) GCN.count * Ideal.div (s (ix2 0 j)) GCN.count := by
  funext j; rfl

/-- From the accumulated column sums to the mean and the second-moment variance of an array. -/
theorem row_mean_of (z : GCN.Nodes.Idx → EReal) :
    GCN.row (meanRow (F := Ideal) (fun y => GCN.colSum z (y 1))) = GCN.meanOf z := by
  rw [row_meanRow]; rfl

theorem row_var_of (z : GCN.Nodes.Idx → EReal) :
    GCN.row (varRow (F := Ideal) (fun y => GCN.colSum z (y 1)) (fun y => GCN.colSumSq z (y 1))) = GCN.varMom z := by
  rw [row_varRow]; rfl

end Cert.KernelIdeal.HostValue

end
-- ==== Proof.KCarry.lean ====
/-
  Buffers that a stretch of host operations or a kernel region does not write keep their contents across it: each lemma
  walks one buffer back from a later boundary of the run to an earlier one.
-/
import proofs.«134326_j82703890251955_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem carry_v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem carry_v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem carry_v31_4_3 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem carry_v3_9_4 (c : Dev nD) : W9 m ρ c (Proc.devRef .tc main_v3) = W4 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v6_9_4 (c : Dev nD) : W9 m ρ c (Proc.devRef .tc main_v6) = W4 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v31_9_4 (c : Dev nD) : W9 m ρ c (Proc.devRef .tc main_v31) = W4 m ρ c (Proc.devRef .tc main_v31) :=
  calc W9 m ρ c (Proc.devRef .tc main_v31)
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_14_9 (c : Dev nD) : W14 m ρ c (Proc.devRef .tc main_v3) = W9 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v6_14_9 (c : Dev nD) : W14 m ρ c (Proc.devRef .tc main_v6) = W9 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v31_14_9 (c : Dev nD) : W14 m ρ c (Proc.devRef .tc main_v31) = W9 m ρ c (Proc.devRef .tc main_v31) :=
  calc W14 m ρ c (Proc.devRef .tc main_v31)
    _ = W13 m ρ c (Proc.devRef .tc main_v31) := W14_of_ne m ρ c main_v31 (by decide)
    _ = W12 m ρ c (Proc.devRef .tc main_v31) := W13_of_ne m ρ c main_v31 (by decide)
    _ = W11 m ρ c (Proc.devRef .tc main_v31) := StableHlo.after_of_forall_not_mem (b := Proc.devRef .tc main_v31) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v31) := W11_of_ne m ρ c main_v31 (by decide)
    _ = W9 m ρ c (Proc.devRef .tc main_v31) := StableHlo.after_of_forall_not_mem (b := Proc.devRef .tc main_v31) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg2_3_0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg4_6_0 (c : Dev nD) : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg5_6_0 (c : Dev nD) : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg6_8_0 (c : Dev nD) : W8 m ρ c (Proc.devRef .tc main_arg6) = W0 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg7_9_0 (c : Dev nD) : W9 m ρ c (Proc.devRef .tc main_arg7) = W0 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg8_11_0 (c : Dev nD) : W11 m ρ c (Proc.devRef .tc main_arg8) = W0 m ρ c (Proc.devRef .tc main_arg8) :=
  calc W11 m ρ c (Proc.devRef .tc main_arg8)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg9_11_0 (c : Dev nD) : W11 m ρ c (Proc.devRef .tc main_arg9) = W0 m ρ c (Proc.devRef .tc main_arg9) :=
  calc W11 m ρ c (Proc.devRef .tc main_arg9)
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg10_13_0 (c : Dev nD) : W13 m ρ c (Proc.devRef .tc main_arg10) = W0 m ρ c (Proc.devRef .tc main_arg10) :=
  calc W13 m ρ c (Proc.devRef .tc main_arg10)
    _ = W12 m ρ c (Proc.devRef .tc main_arg10) := W13_of_ne m ρ c main_arg10 (by decide)
    _ = W11 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg11_14_0 (c : Dev nD) : W14 m ρ c (Proc.devRef .tc main_arg11) = W0 m ρ c (Proc.devRef .tc main_arg11) :=
  calc W14 m ρ c (Proc.devRef .tc main_arg11)
    _ = W13 m ρ c (Proc.devRef .tc main_arg11) := W14_of_ne m ρ c main_arg11 (by decide)
    _ = W12 m ρ c (Proc.devRef .tc main_arg11) := W13_of_ne m ρ c main_arg11 (by decide)
    _ = W11 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v47_0_7_6 (c : Dev nD) : W7 m ρ c (Proc.devRef .tc main_v47_0) = W6 m ρ c (Proc.devRef .tc main_v47_0) :=
  calc W7 m ρ c (Proc.devRef .tc main_v47_0)
    _ = W6 m ρ c (Proc.devRef .tc main_v47_0) := StableHlo.after_of_forall_not_mem (b := Proc.devRef .tc main_v47_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v72_0_12_11 (c : Dev nD) : W12 m ρ c (Proc.devRef .tc main_v72_0) = W11 m ρ c (Proc.devRef .tc main_v72_0) :=
  calc W12 m ρ c (Proc.devRef .tc main_v72_0)
    _ = W11 m ρ c (Proc.devRef .tc main_v72_0) := StableHlo.after_of_forall_not_mem (b := Proc.devRef .tc main_v72_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_3_1 (c : Dev nD) : W3 m ρ c (Proc.devRef .tc main_v3) = W1 m ρ c (Proc.devRef .tc main_v3) :=
  calc W3 m ρ c (Proc.devRef .tc main_v3)
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v6_3_1 (c : Dev nD) : W3 m ρ c (Proc.devRef .tc main_v6) = W1 m ρ c (Proc.devRef .tc main_v6) :=
  calc W3 m ρ c (Proc.devRef .tc main_v6)
    _ = W2 m ρ c (Proc.devRef .tc main_v6) := StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.RegionLin.lean ====
/-
  The three feature-transform regions (the first, second and third matmul of the network): after each region's run its
  output array is, index by index, the product of the node array and the weight matrix the region finds,
  entry (n, j) = sum over k of x(n, k) · w(k, j). Each of the ten grid points multiplies one block of 10000 node rows by
  the whole weight matrix and writes the block back; the ten blocks tile the 100000 rows.
-/
import proofs.«134326_j82703890251955_1_alg».proof.Proof.Gen.KernelIdeal.Frame
import proofs.«134326_j82703890251955_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## A block product at an index

The three matmul regions multiply a [10000, 64] block of node rows by the whole [64, 64] weight matrix into a zero
accumulator. On the extended reals the product at (p, q) is the sum over the contracted coordinate k of
x(p, k) · w(k, q); the operand indices of the dot at contraction index k are (p, k) and (k, q). -/

theorem lhs_coord0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_coord1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_coord0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_coord1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000, 64] block times a [64, 64] block into a zero accumulator, at entry (p, q): the sum over k of the
    products a(p, k) · b(k, q). -/
theorem blockProduct_apply (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_coord0 _ _
    | ⟨1, _⟩ => exact (lhs_coord1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_coord0 _ _).trans hk
    | ⟨1, _⟩ => exact rhs_coord1 _ _)
  rw [el, er]

/-- The zero offsets of a whole-buffer access, however spelt. -/
theorem zeroOffsets : (![0, 0] : Fin 2 → Nat) = fun _ => 0 := funext fun a => by fin_cases a <;> rfl

/-! ## Region 0: the first feature transform, from blocks to the array -/

/-- Region 0's payload at (p, q): rounding the operands to bf16 changes nothing on the extended reals. -/
theorem pay0_apply (x0 : Vec Ideal S10000x64 .f32) (x1 : Vec Ideal S64x64 .f32) (p : Fin 10000) (q : Fin 64) :
    Gen.k0_pay1 x0 x1 (ix2 p q) = ∑ k : Fin 64, x0 (ix2 p k) * x1 (ix2 k q) := by
  unfold Gen.k0_pay1
  exact blockProduct_apply _ _ p q

/-- The index maps of region 0, decided over its ten grid points: the node blocks (windows 0 and 2) sit at row
    block t, the weight block is the whole matrix. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node block at point t, entry (p, k), is row 10000·t + p of the node array. -/
theorem nodeBlock0 (c : Dev nD) (t : Fin cfg0.N) (p : Fin 10000) (k : Fin 64) (r : Fin 100000)
    (hr : r.val = t.val * 10000 + p.val) :
    Gen.iblk0 V c 0 t (ix2 p k) = (V c (Pipeline.arrRef spec0 0) : S100000x64.Idx → EReal) (ix2 r k) := by
  obtain ⟨e0, e1, -⟩ := blockIndex0 t
  show (V c (Pipeline.arrRef spec0 0) : S100000x64.Idx → EReal) (((cfg0.win 0).blk t).view.emb (ix2 p k)) = _
  refine congrArg _ (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- The weight block at every point is the whole weight matrix. -/
theorem weightBlock0 (c : Dev nD) (t : Fin cfg0.N) (k q : Fin 64) :
    Gen.iblk0 V c 1 t (ix2 k q) = (V c (Pipeline.arrRef spec0 1) : S64x64.Idx → EReal) (ix2 k q) := by
  obtain ⟨-, -, e0, e1, -⟩ := blockIndex0 t
  show (V c (Pipeline.arrRef spec0 1) : S64x64.Idx → EReal) (((cfg0.win 1).blk t).view.emb (ix2 k q)) = _
  refine congrArg _ (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- What point t writes back is block t of the feature transform of the arrays the region finds. -/
theorem flushedLin0 (c : Dev nD) (t : Fin cfg0.N) :
    (Gen.dat0 V c).flushed 2 t = ((cfg0.win 2).blk t).view.read (Elt Ideal)
      (GCN.lin (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero zeroOffsets]
  simp only [View.ld_unit_zero (S := S10000x64) zeroOffsets, View.ld_unit_zero (S := S64x64) zeroOffsets]
  refine funext fun (j : S10000x64.Idx) => ?_
  obtain ⟨p, q, rfl⟩ : ∃ (p : Fin 10000) (q : Fin 64), j = ix2 p q := ⟨j 0, j 1, eq_ix2 j⟩
  obtain ⟨-, -, -, -, e0, e1⟩ := blockIndex0 t
  have hN : t.val < 10 := lt_of_lt_of_eq t.isLt Gen.N_0
  show Gen.k0_pay1 (Gen.iblk0 V c 0 t) (Gen.iblk0 V c 1 t) (ix2 p q)
    = GCN.lin (V c (Pipeline.arrRef spec0 0)) (V c (Pipeline.arrRef spec0 1)) (((cfg0.win 2).blk t).view.emb (ix2 p q))
  refine (pay0_apply (Gen.iblk0 V c 0 t) (Gen.iblk0 V c 1 t) p q).trans ?_
  have hemb : ((cfg0.win 2).blk t).view.emb (ix2 p q) = (ix2 (⟨t.val * 10000 + p.val, by omega⟩ : Fin 100000) q : S100000x64.Idx) := by
    refine funext fun a => Fin.ext ?_
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hemb]
  unfold GCN.lin
  refine Finset.sum_congr rfl fun k _ => ?_
  rw [nodeBlock0 V c t p k ⟨t.val * 10000 + p.val, by omega⟩ rfl, weightBlock0 V c t k q]

/-- An index of the node array is in point t's block iff each coordinate is in the block's range. -/
theorem memBlock0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Row r lies in the block of point r / 10000: the ten blocks cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from Gen.N_0]; omega⟩
  obtain ⟨-, -, -, -, e0, e1⟩ := blockIndex0 t
  have ht : t.val = (i 0).val / 10000 := rfl
  refine ⟨t, Gen.flush0_2 t, ?_⟩
  rw [memBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- REGION 0: the output array after the run is the feature transform of the node array by the weight matrix. -/
theorem lin0 (c : Dev nD) :
    (Gen.dat0 V c).arrAt 2 cfg0.N = GCN.lin (V c (Pipeline.arrRef spec0 0)) (V c (Pipeline.arrRef spec0 1)) :=
  (Gen.dat0 V c).arrAt_eq_of_cover 2 _ (fun t _ => flushedLin0 V c t) cover0

/-! ## Region 3: the second feature transform, from blocks to the array -/

/-- Region 3's payload at (p, q): rounding the operands to bf16 changes nothing on the extended reals. -/
theorem pay3_apply (x0 : Vec Ideal S10000x64 .f32) (x1 : Vec Ideal S64x64 .f32) (p : Fin 10000) (q : Fin 64) :
    Gen.k3_pay1 x0 x1 (ix2 p q) = ∑ k : Fin 64, x0 (ix2 p k) * x1 (ix2 k q) := by
  unfold Gen.k3_pay1
  rw [shapeCast_self]
  exact blockProduct_apply _ _ p q

/-- The index maps of region 3, decided over its ten grid points: the node blocks (windows 0 and 2) sit at row
    block t, the weight block is the whole matrix. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The node block at point t, entry (p, k), is row 10000·t + p of the node array. -/
theorem nodeBlock3 (c : Dev nD) (t : Fin cfg3.N) (p : Fin 10000) (k : Fin 64) (r : Fin 100000)
    (hr : r.val = t.val * 10000 + p.val) :
    Gen.iblk3 V c 0 t (ix2 p k) = (V c (Pipeline.arrRef spec3 0) : S100000x64.Idx → EReal) (ix2 r k) := by
  obtain ⟨e0, e1, -⟩ := blockIndex3 t
  show (V c (Pipeline.arrRef spec3 0) : S100000x64.Idx → EReal) (((cfg3.win 0).blk t).view.emb (ix2 p k)) = _
  refine congrArg _ (funext fun a => Fin.ext ?_)
  match a with
  | ⟨0, _⟩ => show win3_0.index t (0 : Fin 2) * 10000 + 1 * p.val = r.val; omega
  | ⟨1, _⟩ => show win3_0.index t (1 : Fin 2) * 64 + 1 * k.val = k.val; omega

/-- The weight block at every point is the whole weight matrix. -/
theorem weightBlock3 (c : Dev nD) (t : Fin cfg3.N) (k q : Fin 64) :
    Gen.iblk3 V c 1 t (ix2 k q) = (V c (Pipeline.arrRef spec3 1) : S64x64.Idx → EReal) (ix2 k q) := by
  obtain ⟨-, -, e0, e1, -⟩ := blockIndex3 t
  show (V c (Pipeline.arrRef spec3 1) : S64x64.Idx → EReal) (((cfg3.win 1).blk t).view.emb (ix2 k q)) = _
  refine congrArg _ (funext fun a => Fin.ext ?_)
  match a with
  | ⟨0, _⟩ => show win3_1.index t (0 : Fin 2) * 64 + 1 * k.val = k.val; omega
  | ⟨1, _⟩ => show win3_1.index t (1 : Fin 2) * 64 + 1 * q.val = q.val; omega

/-- What point t writes back is block t of the feature transform of the arrays the region finds. -/
theorem flushedLin3 (c : Dev nD) (t : Fin cfg3.N) :
    (Gen.dat3 V c).flushed 2 t = ((cfg3.win 2).blk t).view.read (Elt Ideal)
      (GCN.lin (V c (Pipeline.arrRef spec3 0)) (V c (Pipeline.arrRef spec3 1))) := by
  show (cfg3.win 2).cut (grid3.coords t) ((Gen.dat3 V c).after 2 t) = _
  rw [Gen.after3_2]
  unfold Gen.out3_2
  rw [View.canon_unit_zero zeroOffsets]
  simp only [View.ld_unit_zero (S := S10000x64) zeroOffsets, View.ld_unit_zero (S := S64x64) zeroOffsets]
  refine funext fun (j : S10000x64.Idx) => ?_
  obtain ⟨p, q, rfl⟩ : ∃ (p : Fin 10000) (q : Fin 64), j = ix2 p q := ⟨j 0, j 1, eq_ix2 j⟩
  obtain ⟨-, -, -, -, e0, e1⟩ := blockIndex3 t
  have hN : t.val < 10 := lt_of_lt_of_eq t.isLt Gen.N_3
  show Gen.k3_pay1 (Gen.iblk3 V c 0 t) (Gen.iblk3 V c 1 t) (ix2 p q)
    = GCN.lin (V c (Pipeline.arrRef spec3 0)) (V c (Pipeline.arrRef spec3 1)) (((cfg3.win 2).blk t).view.emb (ix2 p q))
  refine (pay3_apply (Gen.iblk3 V c 0 t) (Gen.iblk3 V c 1 t) p q).trans ?_
  have hemb : ((cfg3.win 2).blk t).view.emb (ix2 p q) = (ix2 (⟨t.val * 10000 + p.val, by omega⟩ : Fin 100000) q : S100000x64.Idx) := by
    refine funext fun a => Fin.ext ?_
    match a with
    | ⟨0, _⟩ => show win3_2.index t (0 : Fin 2) * 10000 + 1 * p.val = t.val * 10000 + p.val; omega
    | ⟨1, _⟩ => show win3_2.index t (1 : Fin 2) * 64 + 1 * q.val = q.val; omega
  rw [hemb]
  unfold GCN.lin
  refine Finset.sum_congr rfl fun k _ => ?_
  rw [nodeBlock3 V c t p k ⟨t.val * 10000 + p.val, by omega⟩ rfl, weightBlock3 V c t k q]

/-- An index of the node array is in point t's block iff each coordinate is in the block's range. -/
theorem memBlock3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v57).slice (win3_2.rect t)).set ↔ _
  rw [View.set_slice_whole, Rect.mem_set_unit]
  exact Iff.rfl

/-- Row r lies in the block of point r / 10000: the ten blocks cover the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by rw [show cfg3.N = 10 from Gen.N_3]; omega⟩
  obtain ⟨-, -, -, -, e0, e1⟩ := blockIndex3 t
  have ht : t.val = (i 0).val / 10000 := rfl
  refine ⟨t, Gen.flush3_2 t, ?_⟩
  rw [memBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- REGION 3: the output array after the run is the feature transform of the node array by the weight matrix. -/
theorem lin3 (c : Dev nD) :
    (Gen.dat3 V c).arrAt 2 cfg3.N = GCN.lin (V c (Pipeline.arrRef spec3 0)) (V c (Pipeline.arrRef spec3 1)) :=
  (Gen.dat3 V c).arrAt_eq_of_cover 2 _ (fun t _ => flushedLin3 V c t) cover3

/-! ## Region 6: the third feature transform, from blocks to the array -/

/-- Region 6's payload at (p, q): rounding the operands to bf16 changes nothing on the extended reals. -/
theorem pay6_apply (x0 : Vec Ideal S10000x64 .f32) (x1 : Vec Ideal S64x64 .f32) (p : Fin 10000) (q : Fin 64) :
    Gen.k6_pay1 x0 x1 (ix2 p q) = ∑ k : Fin 64, x0 (ix2 p k) * x1 (ix2 k q) := by
  unfold Gen.k6_pay1
  rw [shapeCast_self]
  exact blockProduct_apply _ _ p q

/-- The index maps of region 6, decided over its ten grid points: the node blocks (windows 0 and 2) sit at row
    block t, the weight block is the whole matrix. -/
theorem blockIndex6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The node block at point t, entry (p, k), is row 10000·t + p of the node array. -/
theorem nodeBlock6 (c : Dev nD) (t : Fin cfg6.N) (p : Fin 10000) (k : Fin 64) (r : Fin 100000)
    (hr : r.val = t.val * 10000 + p.val) :
    Gen.iblk6 V c 0 t (ix2 p k) = (V c (Pipeline.arrRef spec6 0) : S100000x64.Idx → EReal) (ix2 r k) := by
  obtain ⟨e0, e1, -⟩ := blockIndex6 t
  show (V c (Pipeline.arrRef spec6 0) : S100000x64.Idx → EReal) (((cfg6.win 0).blk t).view.emb (ix2 p k)) = _
  refine congrArg _ (funext fun a => Fin.ext ?_)
  match a with
  | ⟨0, _⟩ => show win6_0.index t (0 : Fin 2) * 10000 + 1 * p.val = r.val; omega
  | ⟨1, _⟩ => show win6_0.index t (1 : Fin 2) * 64 + 1 * k.val = k.val; omega

/-- The weight block at every point is the whole weight matrix. -/
theorem weightBlock6 (c : Dev nD) (t : Fin cfg6.N) (k q : Fin 64) :
    Gen.iblk6 V c 1 t (ix2 k q) = (V c (Pipeline.arrRef spec6 1) : S64x64.Idx → EReal) (ix2 k q) := by
  obtain ⟨-, -, e0, e1, -⟩ := blockIndex6 t
  show (V c (Pipeline.arrRef spec6 1) : S64x64.Idx → EReal) (((cfg6.win 1).blk t).view.emb (ix2 k q)) = _
  refine congrArg _ (funext fun a => Fin.ext ?_)
  match a with
  | ⟨0, _⟩ => show win6_1.index t (0 : Fin 2) * 64 + 1 * k.val = k.val; omega
  | ⟨1, _⟩ => show win6_1.index t (1 : Fin 2) * 64 + 1 * q.val = q.val; omega

/-- What point t writes back is block t of the feature transform of the arrays the region finds. -/
theorem flushedLin6 (c : Dev nD) (t : Fin cfg6.N) :
    (Gen.dat6 V c).flushed 2 t = ((cfg6.win 2).blk t).view.read (Elt Ideal)
      (GCN.lin (V c (Pipeline.arrRef spec6 0)) (V c (Pipeline.arrRef spec6 1))) := by
  show (cfg6.win 2).cut (grid6.coords t) ((Gen.dat6 V c).after 2 t) = _
  rw [Gen.after6_2]
  unfold Gen.out6_2
  rw [View.canon_unit_zero zeroOffsets]
  simp only [View.ld_unit_zero (S := S10000x64) zeroOffsets, View.ld_unit_zero (S := S64x64) zeroOffsets]
  refine funext fun (j : S10000x64.Idx) => ?_
  obtain ⟨p, q, rfl⟩ : ∃ (p : Fin 10000) (q : Fin 64), j = ix2 p q := ⟨j 0, j 1, eq_ix2 j⟩
  obtain ⟨-, -, -, -, e0, e1⟩ := blockIndex6 t
  have hN : t.val < 10 := lt_of_lt_of_eq t.isLt Gen.N_6
  show Gen.k6_pay1 (Gen.iblk6 V c 0 t) (Gen.iblk6 V c 1 t) (ix2 p q)
    = GCN.lin (V c (Pipeline.arrRef spec6 0)) (V c (Pipeline.arrRef spec6 1)) (((cfg6.win 2).blk t).view.emb (ix2 p q))
  refine (pay6_apply (Gen.iblk6 V c 0 t) (Gen.iblk6 V c 1 t) p q).trans ?_
  have hemb : ((cfg6.win 2).blk t).view.emb (ix2 p q) = (ix2 (⟨t.val * 10000 + p.val, by omega⟩ : Fin 100000) q : S100000x64.Idx) := by
    refine funext fun a => Fin.ext ?_
    match a with
    | ⟨0, _⟩ => show win6_2.index t (0 : Fin 2) * 10000 + 1 * p.val = t.val * 10000 + p.val; omega
    | ⟨1, _⟩ => show win6_2.index t (1 : Fin 2) * 64 + 1 * q.val = q.val; omega
  rw [hemb]
  unfold GCN.lin
  refine Finset.sum_congr rfl fun k _ => ?_
  rw [nodeBlock6 V c t p k ⟨t.val * 10000 + p.val, by omega⟩ rfl, weightBlock6 V c t k q]

/-- An index of the node array is in point t's block iff each coordinate is in the block's range. -/
theorem memBlock6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v82).slice (win6_2.rect t)).set ↔ _
  rw [View.set_slice_whole, Rect.mem_set_unit]
  exact Iff.rfl

/-- Row r lies in the block of point r / 10000: the ten blocks cover the array. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  let t : Fin cfg6.N := ⟨(i 0).val / 10000, by rw [show cfg6.N = 10 from Gen.N_6]; omega⟩
  obtain ⟨-, -, -, -, e0, e1⟩ := blockIndex6 t
  have ht : t.val = (i 0).val / 10000 := rfl
  refine ⟨t, Gen.flush6_2 t, ?_⟩
  rw [memBlock6]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- REGION 6: the output array after the run is the feature transform of the node array by the weight matrix. -/
theorem lin6 (c : Dev nD) :
    (Gen.dat6 V c).arrAt 2 cfg6.N = GCN.lin (V c (Pipeline.arrRef spec6 0)) (V c (Pipeline.arrRef spec6 1)) :=
  (Gen.dat6 V c).arrAt_eq_of_cover 2 _ (fun t _ => flushedLin6 V c t) cover6

end Cert.KernelIdeal.RegionValue

end
-- ==== Proof.RegionNorm.lean ====
/-
  The two batch-normalisation regions (after the first and the second layer): after each region's run its output array
  is, index by index, the node array the region finds normalised per feature by the mean and variance rows, scaled and
  shifted by the g and be rows, and rectified: entry (n, j) = max (g(j) · (x(n, j) − mean(j)) · (var(j) + eps)^(-1/2) + be(j), 0).
  Each of the ten grid points treats one block of 10000 node rows against the four whole [1, 64] rows and writes the block
  back; the ten blocks tile the 100000 rows.
-/
import proofs.«134326_j82703890251955_1_alg».proof.Proof.Gen.KernelIdeal.Frame
import proofs.«134326_j82703890251955_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeroOffsetsN : (![0, 0] : Fin 2 → Nat) = fun _ => 0 := funext fun a => by fin_cases a <;> rfl

/-! ## Region 2: the first normalisation and rectifier, from blocks to the array -/

/-- The payload at (p, q): with the mean, variance, scale and shift rows broadcast over the 10000 rows of the block,
    max (g(q) · (x(p, q) − mean(q)) · (var(q) + eps)^(-1/2) + be(q), 0). The shape casts are to the same shapes. -/
theorem pay2_apply (x0 : Vec Ideal S10000x64 .f32) (mu va g be : Vec Ideal S1x64 .f32) (p : Fin 10000) (q : Fin 64) :
    Gen.k2_pay1 x0 mu va g be (ix2 p q)
      = max (g (ix2 (0 : Fin 1) q) * (x0 (ix2 p q) - mu (ix2 (0 : Fin 1) q)) * Ideal.rsqrt (va (ix2 (0 : Fin 1) q) + GCN.eps)
          + be (ix2 (0 : Fin 1) q)) GCN.zero := by
  have hb (y : Vec Ideal S1x64 .f32) : broadcastTo S10000x64 y Gen.broadcasts_S1x64_S10000x64 (ix2 p q) = y (ix2 (0 : Fin 1) q) :=
    broadcastTo_1b_ab_apply y _ p q
  unfold Gen.k2_pay1
  simp only [shapeCast_self, maximumf_apply, addf_apply, mulf_apply, subf_apply, hb, broadcast_apply]
  rfl

/-- The same with the five loaded values named: what the block-read lemmas supply at a grid point. -/
theorem pay2_of_eq (x0 : Vec Ideal S10000x64 .f32) (mu va g be : Vec Ideal S1x64 .f32) (p : Fin 10000) (q : Fin 64)
    (a m v s b : EReal) (hx : x0 (ix2 p q) = a) (hm : mu (ix2 (0 : Fin 1) q) = m) (hv : va (ix2 (0 : Fin 1) q) = v)
    (hg : g (ix2 (0 : Fin 1) q) = s) (hb : be (ix2 (0 : Fin 1) q) = b) :
    Gen.k2_pay1 x0 mu va g be (ix2 p q) = max (s * (a - m) * Ideal.rsqrt (v + GCN.eps) + b) GCN.zero := by
  rw [pay2_apply, hx, hm, hv, hg, hb]

/-- The index maps of region 2, decided over its ten grid points: the node blocks (windows 0 and 5) sit at row
    block t, each of the four parameter blocks is its whole row. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The node block at point t, entry (p, k), is row 10000·t + p of the node array. -/
theorem nodeBlock2 (c : Dev nD) (t : Fin cfg2.N) (p : Fin 10000) (k : Fin 64) (r : Fin 100000)
    (hr : r.val = t.val * 10000 + p.val) :
    Gen.iblk2 V c 0 t (ix2 p k) = (V c (Pipeline.arrRef spec2 0) : S100000x64.Idx → EReal) (ix2 r k) := by
  obtain ⟨e0, e1, -⟩ := blockIndex2 t
  show (V c (Pipeline.arrRef spec2 0) : S100000x64.Idx → EReal) (((cfg2.win 0).blk t).view.emb (ix2 p k)) = _
  refine congrArg _ (funext fun a => Fin.ext ?_)
  match a with
  | ⟨0, _⟩ => show win2_0.index t (0 : Fin 2) * 10000 + 1 * p.val = r.val; omega
  | ⟨1, _⟩ => show win2_0.index t (1 : Fin 2) * 64 + 1 * k.val = k.val; omega

/-- The mean block at every point is the whole [1, 64] row. -/
theorem rowBlock2_1 (c : Dev nD) (t : Fin cfg2.N) (q : Fin 64) :
    Gen.iblk2 V c 1 t (ix2 (0 : Fin 1) q) = (V c (Pipeline.arrRef spec2 1) : S1x64.Idx → EReal) (ix2 (0 : Fin 1) q) := by
  have e := blockIndex2 t
  show (V c (Pipeline.arrRef spec2 1) : S1x64.Idx → EReal) (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

/-- The variance block at every point is the whole [1, 64] row. -/
theorem rowBlock2_2 (c : Dev nD) (t : Fin cfg2.N) (q : Fin 64) :
    Gen.iblk2 V c 2 t (ix2 (0 : Fin 1) q) = (V c (Pipeline.arrRef spec2 2) : S1x64.Idx → EReal) (ix2 (0 : Fin 1) q) := by
  have e := blockIndex2 t
  show (V c (Pipeline.arrRef spec2 2) : S1x64.Idx → EReal) (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The scale block at every point is the whole [1, 64] row. -/
theorem rowBlock2_3 (c : Dev nD) (t : Fin cfg2.N) (q : Fin 64) :
    Gen.iblk2 V c 3 t (ix2 (0 : Fin 1) q) = (V c (Pipeline.arrRef spec2 3) : S1x64.Idx → EReal) (ix2 (0 : Fin 1) q) := by
  have e := blockIndex2 t
  show (V c (Pipeline.arrRef spec2 3) : S1x64.Idx → EReal) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-- The shift block at every point is the whole [1, 64] row. -/
theorem rowBlock2_4 (c : Dev nD) (t : Fin cfg2.N) (q : Fin 64) :
    Gen.iblk2 V c 4 t (ix2 (0 : Fin 1) q) = (V c (Pipeline.arrRef spec2 4) : S1x64.Idx → EReal) (ix2 (0 : Fin 1) q) := by
  have e := blockIndex2 t
  show (V c (Pipeline.arrRef spec2 4) : S1x64.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

set_option maxHeartbeats 1000000 in
/-- What point t writes back is block t of the normalised and rectified node array, of the arrays the region finds. -/
theorem flushedNorm2 (c : Dev nD) (t : Fin cfg2.N) :
    (Gen.dat2 V c).flushed 5 t = ((cfg2.win 5).blk t).view.read (Elt Ideal)
      (GCN.normRelu (V c (Pipeline.arrRef spec2 0)) (GCN.row (V c (Pipeline.arrRef spec2 1))) (GCN.row (V c (Pipeline.arrRef spec2 2)))
        (GCN.row (V c (Pipeline.arrRef spec2 3))) (GCN.row (V c (Pipeline.arrRef spec2 4)))) := by
  show (cfg2.win 5).cut (grid2.coords t) ((Gen.dat2 V c).after 5 t) = _
  rw [Gen.after2_5]
  unfold Gen.out2_5
  rw [View.canon_unit_zero zeroOffsetsN]
  simp only [View.ld_unit_zero (S := S10000x64) zeroOffsetsN, View.ld_unit_zero (S := S1x64) zeroOffsetsN]
  refine funext fun (j : S10000x64.Idx) => ?_
  obtain ⟨p, q, rfl⟩ : ∃ (p : Fin 10000) (q : Fin 64), j = ix2 p q := ⟨j 0, j 1, eq_ix2 j⟩
  have e := blockIndex2 t
  have hN : t.val < 10 := lt_of_lt_of_eq t.isLt Gen.N_2
  show Gen.k2_pay1 (Gen.iblk2 V c 0 t) (Gen.iblk2 V c 1 t) (Gen.iblk2 V c 2 t) (Gen.iblk2 V c 3 t) (Gen.iblk2 V c 4 t) (ix2 p q)
    = GCN.normRelu (V c (Pipeline.arrRef spec2 0)) (GCN.row (V c (Pipeline.arrRef spec2 1))) (GCN.row (V c (Pipeline.arrRef spec2 2)))
        (GCN.row (V c (Pipeline.arrRef spec2 3))) (GCN.row (V c (Pipeline.arrRef spec2 4))) (((cfg2.win 5).blk t).view.emb (ix2 p q))
  have hemb : ((cfg2.win 5).blk t).view.emb (ix2 p q) = (ix2 (⟨t.val * 10000 + p.val, by omega⟩ : Fin 100000) q : S100000x64.Idx) := by
    refine funext fun a => Fin.ext ?_
    match a with
    | ⟨0, _⟩ => show win2_5.index t (0 : Fin 2) * 10000 + 1 * p.val = t.val * 10000 + p.val; omega
    | ⟨1, _⟩ => show win2_5.index t (1 : Fin 2) * 64 + 1 * q.val = q.val; omega
  rw [hemb]
  exact pay2_of_eq (Gen.iblk2 V c 0 t) (Gen.iblk2 V c 1 t) (Gen.iblk2 V c 2 t) (Gen.iblk2 V c 3 t) (Gen.iblk2 V c 4 t) p q _ _ _ _ _
    (nodeBlock2 V c t p q ⟨t.val * 10000 + p.val, by omega⟩ rfl) (rowBlock2_1 V c t q) (rowBlock2_2 V c t q)
    (rowBlock2_3 V c t q) (rowBlock2_4 V c t q)

/-- An index of the node array is in point t's block iff each coordinate is in the block's range. -/
theorem memBlock2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v56).slice (win2_5.rect t)).set ↔ _
  rw [View.set_slice_whole, Rect.mem_set_unit]
  exact Iff.rfl

/-- Row r lies in the block of point r / 10000: the ten blocks cover the array. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 10000, by rw [show cfg2.N = 10 from Gen.N_2]; omega⟩
  have e := blockIndex2 t
  have ht : t.val = (i 0).val / 10000 := rfl
  refine ⟨t, Gen.flush2_5 t, ?_⟩
  rw [memBlock2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- REGION 2: the output array after the run is the node array the region finds, normalised feature by feature with the
    mean, variance, scale and shift rows it finds, and rectified. -/
theorem norm2 (c : Dev nD) :
    (Gen.dat2 V c).arrAt 5 cfg2.N = GCN.normRelu (V c (Pipeline.arrRef spec2 0)) (GCN.row (V c (Pipeline.arrRef spec2 1)))
      (GCN.row (V c (Pipeline.arrRef spec2 2))) (GCN.row (V c (Pipeline.arrRef spec2 3))) (GCN.row (V c (Pipeline.arrRef spec2 4))) :=
  (Gen.dat2 V c).arrAt_eq_of_cover 5 _ (fun t _ => flushedNorm2 V c t) cover2

/-! ## Region 5: the second normalisation and rectifier, from blocks to the array -/

/-- The payload at (p, q): with the mean, variance, scale and shift rows broadcast over the 10000 rows of the block,
    max (g(q) · (x(p, q) − mean(q)) · (var(q) + eps)^(-1/2) + be(q), 0). The shape casts are to the same shapes. -/
theorem pay5_apply (x0 : Vec Ideal S10000x64 .f32) (mu va g be : Vec Ideal S1x64 .f32) (p : Fin 10000) (q : Fin 64) :
    Gen.k5_pay1 x0 mu va g be (ix2 p q)
      = max (g (ix2 (0 : Fin 1) q) * (x0 (ix2 p q) - mu (ix2 (0 : Fin 1) q)) * Ideal.rsqrt (va (ix2 (0 : Fin 1) q) + GCN.eps)
          + be (ix2 (0 : Fin 1) q)) GCN.zero := by
  have hb (y : Vec Ideal S1x64 .f32) : broadcastTo S10000x64 y Gen.broadcasts_S1x64_S10000x64 (ix2 p q) = y (ix2 (0 : Fin 1) q) :=
    broadcastTo_1b_ab_apply y _ p q
  unfold Gen.k5_pay1
  simp only [shapeCast_self, maximumf_apply, addf_apply, mulf_apply, subf_apply, hb, broadcast_apply]
  rfl

/-- The same with the five loaded values named: what the block-read lemmas supply at a grid point. -/
theorem pay5_of_eq (x0 : Vec Ideal S10000x64 .f32) (mu va g be : Vec Ideal S1x64 .f32) (p : Fin 10000) (q : Fin 64)
    (a m v s b : EReal) (hx : x0 (ix2 p q) = a) (hm : mu (ix2 (0 : Fin 1) q) = m) (hv : va (ix2 (0 : Fin 1) q) = v)
    (hg : g (ix2 (0 : Fin 1) q) = s) (hb : be (ix2 (0 : Fin 1) q) = b) :
    Gen.k5_pay1 x0 mu va g be (ix2 p q) = max (s * (a - m) * Ideal.rsqrt (v + GCN.eps) + b) GCN.zero := by
  rw [pay5_apply, hx, hm, hv, hg, hb]

/-- The index maps of region 5, decided over its ten grid points: the node blocks (windows 0 and 5) sit at row
    block t, each of the four parameter blocks is its whole row. -/
theorem blockIndex5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The node block at point t, entry (p, k), is row 10000·t + p of the node array. -/
theorem nodeBlock5 (c : Dev nD) (t : Fin cfg5.N) (p : Fin 10000) (k : Fin 64) (r : Fin 100000)
    (hr : r.val = t.val * 10000 + p.val) :
    Gen.iblk5 V c 0 t (ix2 p k) = (V c (Pipeline.arrRef spec5 0) : S100000x64.Idx → EReal) (ix2 r k) := by
  obtain ⟨e0, e1, -⟩ := blockIndex5 t
  show (V c (Pipeline.arrRef spec5 0) : S100000x64.Idx → EReal) (((cfg5.win 0).blk t).view.emb (ix2 p k)) = _
  refine congrArg _ (funext fun a => Fin.ext ?_)
  match a with
  | ⟨0, _⟩ => show win5_0.index t (0 : Fin 2) * 10000 + 1 * p.val = r.val; omega
  | ⟨1, _⟩ => show win5_0.index t (1 : Fin 2) * 64 + 1 * k.val = k.val; omega

/-- The mean block at every point is the whole [1, 64] row. -/
theorem rowBlock5_1 (c : Dev nD) (t : Fin cfg5.N) (q : Fin 64) :
    Gen.iblk5 V c 1 t (ix2 (0 : Fin 1) q) = (V c (Pipeline.arrRef spec5 1) : S1x64.Idx → EReal) (ix2 (0 : Fin 1) q) := by
  have e := blockIndex5 t
  show (V c (Pipeline.arrRef spec5 1) : S1x64.Idx → EReal) (((cfg5.win 1).blk t).view.emb (ix2 (0 : Fin 1) q)) = _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * q.val = q.val; omega

/-- The variance block at every point is the whole [1, 64] row. -/
theorem rowBlock5_2 (c : Dev nD) (t : Fin cfg5.N) (q : Fin 64) :
    Gen.iblk5 V c 2 t (ix2 (0 : Fin 1) q) = (V c (Pipeline.arrRef spec5 2) : S1x64.Idx → EReal) (ix2 (0 : Fin 1) q) := by
  have e := blockIndex5 t
  show (V c (Pipeline.arrRef spec5 2) : S1x64.Idx → EReal) (((cfg5.win 2).blk t).view.emb (ix2 (0 : Fin 1) q)) = _
  refine congrArg _ (funext fun a => Fin.ext ?_)
  match a with
  | ⟨0, _⟩ => show win5_2.index t (0 : Fin 2) * 1 + 1 * 0 = 0; omega
  | ⟨1, _⟩ => show win5_2.index t (1 : Fin 2) * 64 + 1 * q.val = q.val; omega

/-- The scale block at every point is the whole [1, 64] row. -/
theorem rowBlock5_3 (c : Dev nD) (t : Fin cfg5.N) (q : Fin 64) :
    Gen.iblk5 V c 3 t (ix2 (0 : Fin 1) q) = (V c (Pipeline.arrRef spec5 3) : S1x64.Idx → EReal) (ix2 (0 : Fin 1) q) := by
  have e := blockIndex5 t
  show (V c (Pipeline.arrRef spec5 3) : S1x64.Idx → EReal) (((cfg5.win 3).blk t).view.emb (ix2 (0 : Fin 1) q)) = _
  refine congrArg _ (funext fun a => Fin.ext ?_)
  match a with
  | ⟨0, _⟩ => show win5_3.index t (0 : Fin 2) * 1 + 1 * 0 = 0; omega
  | ⟨1, _⟩ => show win5_3.index t (1 : Fin 2) * 64 + 1 * q.val = q.val; omega

/-- The shift block at every point is the whole [1, 64] row. -/
theorem rowBlock5_4 (c : Dev nD) (t : Fin cfg5.N) (q : Fin 64) :
    Gen.iblk5 V c 4 t (ix2 (0 : Fin 1) q) = (V c (Pipeline.arrRef spec5 4) : S1x64.Idx → EReal) (ix2 (0 : Fin 1) q) := by
  have e := blockIndex5 t
  show (V c (Pipeline.arrRef spec5 4) : S1x64.Idx → EReal) (((cfg5.win 4).blk t).view.emb (ix2 (0 : Fin 1) q)) = _
  refine congrArg _ (funext fun a => Fin.ext ?_)
  match a with
  | ⟨0, _⟩ => show win5_4.index t (0 : Fin 2) * 1 + 1 * 0 = 0; omega
  | ⟨1, _⟩ => show win5_4.index t (1 : Fin 2) * 64 + 1 * q.val = q.val; omega

set_option maxHeartbeats 1000000 in
/-- What point t writes back is block t of the normalised and rectified node array, of the arrays the region finds. -/
theorem flushedNorm5 (c : Dev nD) (t : Fin cfg5.N) :
    (Gen.dat5 V c).flushed 5 t = ((cfg5.win 5).blk t).view.read (Elt Ideal)
      (GCN.normRelu (V c (Pipeline.arrRef spec5 0)) (GCN.row (V c (Pipeline.arrRef spec5 1))) (GCN.row (V c (Pipeline.arrRef spec5 2)))
        (GCN.row (V c (Pipeline.arrRef spec5 3))) (GCN.row (V c (Pipeline.arrRef spec5 4)))) := by
  show (cfg5.win 5).cut (grid5.coords t) ((Gen.dat5 V c).after 5 t) = _
  rw [Gen.after5_5]
  unfold Gen.out5_5
  rw [View.canon_unit_zero zeroOffsetsN]
  simp only [View.ld_unit_zero (S := S10000x64) zeroOffsetsN, View.ld_unit_zero (S := S1x64) zeroOffsetsN]
  refine funext fun (j : S10000x64.Idx) => ?_
  obtain ⟨p, q, rfl⟩ : ∃ (p : Fin 10000) (q : Fin 64), j = ix2 p q := ⟨j 0, j 1, eq_ix2 j⟩
  have e := blockIndex5 t
  have hN : t.val < 10 := lt_of_lt_of_eq t.isLt Gen.N_5
  show Gen.k5_pay1 (Gen.iblk5 V c 0 t) (Gen.iblk5 V c 1 t) (Gen.iblk5 V c 2 t) (Gen.iblk5 V c 3 t) (Gen.iblk5 V c 4 t) (ix2 p q)
    = GCN.normRelu (V c (Pipeline.arrRef spec5 0)) (GCN.row (V c (Pipeline.arrRef spec5 1))) (GCN.row (V c (Pipeline.arrRef spec5 2)))
        (GCN.row (V c (Pipeline.arrRef spec5 3))) (GCN.row (V c (Pipeline.arrRef spec5 4))) (((cfg5.win 5).blk t).view.emb (ix2 p q))
  have hemb : ((cfg5.win 5).blk t).view.emb (ix2 p q) = (ix2 (⟨t.val * 10000 + p.val, by omega⟩ : Fin 100000) q : S100000x64.Idx) := by
    refine funext fun a => Fin.ext ?_
    match a with
    | ⟨0, _⟩ => show win5_5.index t (0 : Fin 2) * 10000 + 1 * p.val = t.val * 10000 + p.val; omega
    | ⟨1, _⟩ => show win5_5.index t (1 : Fin 2) * 64 + 1 * q.val = q.val; omega
  rw [hemb]
  exact pay5_of_eq (Gen.iblk5 V c 0 t) (Gen.iblk5 V c 1 t) (Gen.iblk5 V c 2 t) (Gen.iblk5 V c 3 t) (Gen.iblk5 V c 4 t) p q _ _ _ _ _
    (nodeBlock5 V c t p q ⟨t.val * 10000 + p.val, by omega⟩ rfl) (rowBlock5_1 V c t q) (rowBlock5_2 V c t q)
    (rowBlock5_3 V c t q) (rowBlock5_4 V c t q)

/-- An index of the node array is in point t's block iff each coordinate is in the block's range. -/
theorem memBlock5 (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v81).slice (win5_5.rect t)).set ↔ _
  rw [View.set_slice_whole, Rect.mem_set_unit]
  exact Iff.rfl

/-- Row r lies in the block of point r / 10000: the ten blocks cover the array. -/
theorem cover5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  let t : Fin cfg5.N := ⟨(i 0).val / 10000, by rw [show cfg5.N = 10 from Gen.N_5]; omega⟩
  have e := blockIndex5 t
  have ht : t.val = (i 0).val / 10000 := rfl
  refine ⟨t, Gen.flush5_5 t, ?_⟩
  rw [memBlock5]
  intro a
  match a with
  | ⟨0, _⟩ => show win5_5.index t (0 : Fin 2) * 10000 ≤ (i 0).val ∧ (i 0).val < win5_5.index t (0 : Fin 2) * 10000 + 10000; omega
  | ⟨1, _⟩ => show win5_5.index t (1 : Fin 2) * 64 ≤ (i 1).val ∧ (i 1).val < win5_5.index t (1 : Fin 2) * 64 + 64; omega

/-- REGION 5: the output array after the run is the node array the region finds, normalised feature by feature with the
    mean, variance, scale and shift rows it finds, and rectified. -/
theorem norm5 (c : Dev nD) :
    (Gen.dat5 V c).arrAt 5 cfg5.N = GCN.normRelu (V c (Pipeline.arrRef spec5 0)) (GCN.row (V c (Pipeline.arrRef spec5 1)))
      (GCN.row (V c (Pipeline.arrRef spec5 2))) (GCN.row (V c (Pipeline.arrRef spec5 3))) (GCN.row (V c (Pipeline.arrRef spec5 4))) :=
  (Gen.dat5 V c).arrAt_eq_of_cover 5 _ (fun t _ => flushedNorm5 V c t) cover5

end Cert.KernelIdeal.RegionValue

end
-- ==== Proof.RegionBias.lean ====
/-
  The last region of the network, the bias add of the third layer: after its run the output array is, index by index,
  the node array the region finds plus the [1, 64] bias row, entry (n, j) = a(n, j) + b(j). Each of the ten grid points
  adds the row to one block of 10000 node rows and writes the block back; the ten blocks tile the 100000 rows.
-/
import proofs.«134326_j82703890251955_1_alg».proof.Proof.Gen.KernelIdeal.Frame
import proofs.«134326_j82703890251955_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access, however spelt. -/
theorem zeroOffsetsB : (![0, 0] : Fin 2 → Nat) = fun _ => 0 := funext fun a => by fin_cases a <;> rfl

/-! ## Region 7: the bias add, from blocks to the array -/

/-- The payload at (p, q): the node entry plus the bias row's entry at q (the row is broadcast over the 10000 rows of
    the block; the shape casts are to the same shapes). -/
theorem pay7_apply (x0 : Vec Ideal S10000x64 .f32) (x1 : Vec Ideal S1x64 .f32) (p : Fin 10000) (q : Fin 64) :
    Gen.k7_pay1 x0 x1 (ix2 p q) = x0 (ix2 p q) + x1 (ix2 (0 : Fin 1) q) := by
  unfold Gen.k7_pay1
  rw [shapeCast_self, shapeCast_self, addf_apply]
  exact congrArg (x0 (ix2 p q) + ·) (broadcastTo_1b_ab_apply x1 _ p q)

/-- The index maps of region 7, decided over its ten grid points: the node blocks (windows 0 and 2) sit at row
    block t, the bias block is the whole row. -/
theorem blockIndex7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The node block at point t, entry (p, k), is row 10000·t + p of the node array. -/
theorem nodeBlock7 (c : Dev nD) (t : Fin cfg7.N) (p : Fin 10000) (k : Fin 64) (r : Fin 100000)
    (hr : r.val = t.val * 10000 + p.val) :
    Gen.iblk7 V c 0 t (ix2 p k) = (V c (Pipeline.arrRef spec7 0) : S100000x64.Idx → EReal) (ix2 r k) := by
  obtain ⟨e0, e1, -⟩ := blockIndex7 t
  show (V c (Pipeline.arrRef spec7 0) : S100000x64.Idx → EReal) (((cfg7.win 0).blk t).view.emb (ix2 p k)) = _
  refine congrArg _ (funext fun a => Fin.ext ?_)
  match a with
  | ⟨0, _⟩ => show win7_0.index t (0 : Fin 2) * 10000 + 1 * p.val = r.val; omega
  | ⟨1, _⟩ => show win7_0.index t (1 : Fin 2) * 64 + 1 * k.val = k.val; omega

/-- The bias block at every point is the whole [1, 64] row. -/
theorem rowBlock7_1 (c : Dev nD) (t : Fin cfg7.N) (q : Fin 64) :
    Gen.iblk7 V c 1 t (ix2 (0 : Fin 1) q) = (V c (Pipeline.arrRef spec7 1) : S1x64.Idx → EReal) (ix2 (0 : Fin 1) q) := by
  have e := blockIndex7 t
  show (V c (Pipeline.arrRef spec7 1) : S1x64.Idx → EReal) (((cfg7.win 1).blk t).view.emb (ix2 (0 : Fin 1) q)) = _
  refine congrArg _ (funext fun a => Fin.ext ?_)
  match a with
  | ⟨0, _⟩ => show win7_1.index t (0 : Fin 2) * 1 + 1 * 0 = 0; omega
  | ⟨1, _⟩ => show win7_1.index t (1 : Fin 2) * 64 + 1 * q.val = q.val; omega

/-- What point t writes back is block t of "the node array plus the bias row" of the arrays the region finds. -/
theorem flushedBias7 (c : Dev nD) (t : Fin cfg7.N) :
    (Gen.dat7 V c).flushed 2 t = ((cfg7.win 2).blk t).view.read (Elt Ideal)
      (GCN.addRow (V c (Pipeline.arrRef spec7 0)) (GCN.row (V c (Pipeline.arrRef spec7 1)))) := by
  show (cfg7.win 2).cut (grid7.coords t) ((Gen.dat7 V c).after 2 t) = _
  rw [Gen.after7_2]
  unfold Gen.out7_2
  rw [View.canon_unit_zero zeroOffsetsB]
  simp only [View.ld_unit_zero (S := S10000x64) zeroOffsetsB, View.ld_unit_zero (S := S1x64) zeroOffsetsB]
  refine funext fun (j : S10000x64.Idx) => ?_
  obtain ⟨p, q, rfl⟩ : ∃ (p : Fin 10000) (q : Fin 64), j = ix2 p q := ⟨j 0, j 1, eq_ix2 j⟩
  obtain ⟨-, -, -, -, e0, e1⟩ := blockIndex7 t
  have hN : t.val < 10 := lt_of_lt_of_eq t.isLt Gen.N_7
  show Gen.k7_pay1 (Gen.iblk7 V c 0 t) (Gen.iblk7 V c 1 t) (ix2 p q)
    = GCN.addRow (V c (Pipeline.arrRef spec7 0)) (GCN.row (V c (Pipeline.arrRef spec7 1))) (((cfg7.win 2).blk t).view.emb (ix2 p q))
  refine (pay7_apply (Gen.iblk7 V c 0 t) (Gen.iblk7 V c 1 t) p q).trans ?_
  have hemb : ((cfg7.win 2).blk t).view.emb (ix2 p q) = (ix2 (⟨t.val * 10000 + p.val, by omega⟩ : Fin 100000) q : S100000x64.Idx) := by
    refine funext fun a => Fin.ext ?_
    match a with
    | ⟨0, _⟩ => show win7_2.index t (0 : Fin 2) * 10000 + 1 * p.val = t.val * 10000 + p.val; omega
    | ⟨1, _⟩ => show win7_2.index t (1 : Fin 2) * 64 + 1 * q.val = q.val; omega
  rw [hemb, nodeBlock7 V c t p q ⟨t.val * 10000 + p.val, by omega⟩ rfl, rowBlock7_1 V c t q]
  rfl

/-- An index of the node array is in point t's block iff each coordinate is in the block's range. -/
theorem memBlock7 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v97).slice (win7_2.rect t)).set ↔ _
  rw [View.set_slice_whole, Rect.mem_set_unit]
  exact Iff.rfl

/-- Row r lies in the block of point r / 10000: the ten blocks cover the array. -/
theorem cover7 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  let t : Fin cfg7.N := ⟨(i 0).val / 10000, by rw [show cfg7.N = 10 from Gen.N_7]; omega⟩
  have e := blockIndex7 t
  have ht : t.val = (i 0).val / 10000 := rfl
  refine ⟨t, Gen.flush7_2 t, ?_⟩
  rw [memBlock7]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- REGION 7: the output array after the run is the node array the region finds plus its bias row, row by row. -/
theorem bias7 (c : Dev nD) :
    (Gen.dat7 V c).arrAt 2 cfg7.N = GCN.addRow (V c (Pipeline.arrRef spec7 0)) (GCN.row (V c (Pipeline.arrRef spec7 1))) :=
  (Gen.dat7 V c).arrAt_eq_of_cover 2 _ (fun t _ => flushedBias7 V c t) cover7

end Cert.KernelIdeal.RegionValue

end
-- ==== Proof.RegionStats.lean ====
/-
  The statistics-and-bias region of the first layer. Its grid has ten points; point t reads rows 10000·t … 10000·t + 9999
  of the aggregated array [100000, 64] and the bias row [1, 64]. It writes the biased rows (aggregated entry plus the
  bias of its feature) to the same rows of the first output, and adds the block's column sums and column sums of
  squares into two [1, 64] accumulators that are zeroed at point 0, carried from point to point, and written back after
  the last point. Over the extended reals addition is commutative and associative with 0 neutral, so after the run the
  accumulators hold the sums over all 100000 rows, with no finiteness needed.
-/
import proofs.«134326_j82703890251955_1_alg».proof.Proof.Gen.KernelIdeal.Frame
import proofs.«134326_j82703890251955_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionValue

open Cert.KernelIdeal Cert.KernelIdeal.Gen

namespace Stats1

section Pieces
variable {F : FTy → Type} [FloatOps F]

theorem hz2 : (![0, 0] : Fin 2 → Nat) = fun _ => 0 := funext fun a => by fin_cases a <;> rfl

theorem out_A_2 (c : Dev nD) (i : grid1.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : cond1_0 i) (x0 : Vec F S10000x64 .f32) (x1 : Vec F S1x64 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero hz2]
  simp only [View.readAt_eq_ld, h1.read_unread, h2.read_unread, View.ld_unit_zero (S := S10000x64) hz2, View.ld_unit_zero (S := S1x64) hz2]

theorem out_B_2 (c : Dev nD) (i : grid1.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : ¬cond1_0 i) (x0 : Vec F S10000x64 .f32) (x1 : Vec F S1x64 .f32) (xo3 xo4 : Vec F S1x64 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero hz2]
  simp only [View.readAt_eq_ld, h1.read_unread, h2.read_unread, View.ld_unit_zero (S := S10000x64) hz2, View.ld_unit_zero (S := S1x64) hz2]

theorem out_A_3 (c : Dev nD) (i : grid1.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : cond1_0 i) (x0 : Vec F S10000x64 .f32) (x1 : Vec F S1x64 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x64) hz2, View.readCov_unit_zero (S := S1x64) _ hz2]
  simp only [View.readAt_eq_ld, h1.read_unread, h2.read_unread, View.ld_unit_zero (S := S10000x64) hz2, View.ld_unit_zero (S := S1x64) hz2]

theorem out_B_3 (c : Dev nD) (i : grid1.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : ¬cond1_0 i) (x0 : Vec F S10000x64 .f32) (x1 : Vec F S1x64 .f32) (xo3 xo4 : Vec F S1x64 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero hz2]
  simp only [View.readAt_eq_ld, h1.read_unread, h2.read_unread, h4.read_unread, View.ld_unit_zero (S := S10000x64) hz2, View.ld_unit_zero (S := S1x64) hz2]

theorem out_A_4 (c : Dev nD) (i : grid1.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : cond1_0 i) (x0 : Vec F S10000x64 .f32) (x1 : Vec F S1x64 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x64) hz2, View.readCov_unit_zero (S := S1x64) _ hz2]
  simp only [View.readAt_eq_ld, h1.read_unread, h2.read_unread, View.ld_unit_zero (S := S10000x64) hz2, View.ld_unit_zero (S := S1x64) hz2]

theorem out_B_4 (c : Dev nD) (i : grid1.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : ¬cond1_0 i) (x0 : Vec F S10000x64 .f32) (x1 : Vec F S1x64 .f32) (xo3 xo4 : Vec F S1x64 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero hz2]
  simp only [View.readAt_eq_ld, h1.read_unread, h2.read_unread, h5.read_unread, View.ld_unit_zero (S := S10000x64) hz2, View.ld_unit_zero (S := S1x64) hz2]

end Pieces

/-! ## The body's arithmetic at an index, on the extended reals -/

section Payloads

/-- The biased block: entry (r, j) is the aggregated entry plus the bias of feature j. -/
theorem pay3_apply (x : Vec Ideal S10000x64 .f32) (b : Vec Ideal S1x64 .f32) (r : Fin 10000) (j : Fin 64) :
    k1_pay3 (F := Ideal) x b (ix2 r j) = x (ix2 r j) + b (ix2 (0 : Fin 1) j) := by
  unfold k1_pay3
  simp only [shapeCast_self]
  exact congrArg (fun z => x (ix2 r j) + z) (broadcastTo_1b_ab_apply b _ r j)

/-- A sum over the rows of a [10000, 64] block, read at feature j. -/
theorem rowsum_apply (src : FVec Ideal S10000x64 .f32) (h : S10000x64.Reduces [0] S64) (hφ : FKind.Formats .f32)
    (hacc : (0x00000000#32 : BitVec 32) = FKind.add.neutral .f32 hφ) (j : Fin 64) :
    multiReduction (F := Ideal) .add [0] S64 src 0x00000000#32 h hφ hacc (ix1 j) = ∑ r : Fin 10000, src (ix2 r j) := by
  refine (Ideal.multiReduction_add_single src 0x00000000#32 h hφ hacc (ix1 j)).trans ?_
  refine Finset.sum_congr rfl fun k _ => congrArg src ?_
  funext a
  match a with
  | ⟨0, _⟩ => rfl
  | ⟨1, _⟩ => rfl

/-- The running column sum after a block: what it held plus the block's column sum. -/
theorem pay4_apply (x : Vec Ideal S10000x64 .f32) (b acc : Vec Ideal S1x64 .f32) (j : Fin 64) :
    k1_pay4 (F := Ideal) x b acc (ix2 (0 : Fin 1) j)
      = acc (ix2 (0 : Fin 1) j) + ∑ r : Fin 10000, k1_pay3 (F := Ideal) x b (ix2 r j) := by
  unfold k1_pay4
  simp only [shapeCast_self]
  refine congrArg (fun z => acc (ix2 (0 : Fin 1) j) + z) ?_
  refine (shapeCast_a_1a_apply _ _ (0 : Fin 1) j).trans ?_
  exact rowsum_apply _ _ _ _ j

/-- The running column sum of squares after a block: what it held plus the block's column sum of squares. -/
theorem pay5_apply (x : Vec Ideal S10000x64 .f32) (b acc : Vec Ideal S1x64 .f32) (j : Fin 64) :
    k1_pay5 (F := Ideal) x b acc (ix2 (0 : Fin 1) j)
      = acc (ix2 (0 : Fin 1) j)
        + ∑ r : Fin 10000, k1_pay3 (F := Ideal) x b (ix2 r j) * k1_pay3 (F := Ideal) x b (ix2 r j) := by
  unfold k1_pay5
  simp only [shapeCast_self]
  refine congrArg (fun z => acc (ix2 (0 : Fin 1) j) + z) ?_
  refine (shapeCast_a_1a_apply _ _ (0 : Fin 1) j).trans ?_
  exact rowsum_apply _ _ _ _ j

/-- The accumulators' reset value is zero. -/
theorem pay1_apply (j : Fin 64) : k1_pay1 (F := Ideal) (ix2 (0 : Fin 1) j) = 0 := by
  unfold k1_pay1
  show Ideal.ofBits .f32 0x00000000#32 = 0
  exact Ideal.ofBits_zero_f32

theorem pay2_apply (j : Fin 64) : k1_pay2 (F := Ideal) (ix2 (0 : Fin 1) j) = 0 := by
  unfold k1_pay2
  show Ideal.ofBits .f32 0x00000000#32 = 0
  exact Ideal.ofBits_zero_f32

end Payloads

/-! ## Splitting the 100000 rows into ten blocks of 10000 -/

section Blocks

/-- A sum over all rows is the sum over the ten blocks of the sums over each block's rows. -/
theorem sum_blocks (g : Fin 100000 → EReal) :
    ∑ p : Fin 100000, g p
      = ∑ s ∈ Finset.range 10,
          if h : s < 10 then ∑ r : Fin 10000, g ⟨r.val + 10000 * s, by have := r.isLt; omega⟩ else 0 := by
  have e1 : ∑ p : Fin 100000, g p
      = ∑ s : Fin 10, ∑ r : Fin 10000, g ⟨r.val + 10000 * s.val, by have := r.isLt; have := s.isLt; omega⟩ := by
    rw [← Fintype.sum_prod_type' (fun (s : Fin 10) (r : Fin 10000) =>
      g ⟨r.val + 10000 * s.val, by have := r.isLt; have := s.isLt; omega⟩)]
    exact (Fintype.sum_equiv (finProdFinEquiv (m := 10) (n := 10000)) _ _ (fun x => rfl)).symm
  exact e1.trans (Finset.sum_fin_eq_sum_range _)

/-- The sum of feature j over the rows of block s (zero past the tenth block). -/
def blockSum (f : GCN.Nodes.Idx → EReal) (s : ℕ) (j : Fin 64) : EReal :=
  if h : s < 10 then ∑ r : Fin 10000, f (ix2 (⟨r.val + 10000 * s, by have := r.isLt; omega⟩ : Fin 100000) j) else 0

/-- The sum of the squares of feature j over the rows of block s (zero past the tenth block). -/
def blockSumSq (f : GCN.Nodes.Idx → EReal) (s : ℕ) (j : Fin 64) : EReal :=
  if h : s < 10 then ∑ r : Fin 10000, f (ix2 (⟨r.val + 10000 * s, by have := r.isLt; omega⟩ : Fin 100000) j)
    * f (ix2 (⟨r.val + 10000 * s, by have := r.isLt; omega⟩ : Fin 100000) j) else 0

theorem colSum_eq_blocks (f : GCN.Nodes.Idx → EReal) (j : Fin 64) :
    GCN.colSum f j = ∑ s ∈ Finset.range 10, blockSum f s j :=
  sum_blocks (fun p => f (ix2 p j))

theorem colSumSq_eq_blocks (f : GCN.Nodes.Idx → EReal) (j : Fin 64) :
    GCN.colSumSq f j = ∑ s ∈ Finset.range 10, blockSumSq f s j :=
  sum_blocks (fun p => f (ix2 p j) * f (ix2 p j))

end Blocks

/-! ## Region 1: the arrays after the run -/

section Region1
variable (V : (c : Dev nD) → (b : Ref sig .tc) → Buf (Elt Ideal) ((c : Thread nD τ).loc b))

/-- The biased array: the aggregated array with the bias row added to every node's row. -/
abbrev biasedArr (c : Dev nD) : GCN.Nodes.Idx → EReal :=
  GCN.addRow (V c (Pipeline.arrRef spec1 0)) (GCN.row (V c (Pipeline.arrRef spec1 1)))

/-- The block indices of the five windows at every grid point: windows 0 and 2 move down the rows with the point,
    the bias row and the two accumulators stay at block (0, 0). -/
theorem win_idx : ∀ t : Fin cfg1.N, win1_0.index t 0 = t.val ∧ win1_0.index t 1 = 0 ∧ win1_1.index t 0 = 0 ∧ win1_1.index t 1 = 0
    ∧ win1_2.index t 0 = t.val ∧ win1_2.index t 1 = 0 ∧ win1_3.index t 0 = 0 ∧ win1_3.index t 1 = 0
    ∧ win1_4.index t 0 = 0 ∧ win1_4.index t 1 = 0 :=
  (by decide +kernel : ∀ t : Fin grid1.N, _)

/-- Block t of the aggregated array holds rows 10000·t … 10000·t + 9999. -/
theorem iblk0_apply (c : Dev nD) (t : Fin cfg1.N) (r : Fin 10000) (j : Fin 64) (p : Fin 100000)
    (hp : p.val = 10000 * t.val + r.val) :
    (iblk1 V c 0 t : Vec Ideal S10000x64 .f32) (ix2 r j) = V c (Pipeline.arrRef spec1 0) (ix2 p j) := by
  unfold iblk1
  rw [View.read_apply]
  show V c (Pipeline.arrRef spec1 0) _ = V c (Pipeline.arrRef spec1 0) _
  congr 1
  funext a
  apply Fin.ext
  match a with
  | ⟨0, _⟩ => show win1_0.index t 0 * 10000 + 1 * r.val = p.val; rw [(win_idx t).1, hp]; omega
  | ⟨1, _⟩ => show win1_0.index t 1 * 64 + 1 * j.val = j.val; rw [(win_idx t).2.1]; omega

/-- The bias row's block is the bias row at every point. -/
theorem iblk1_apply (c : Dev nD) (t : Fin cfg1.N) (j : Fin 64) :
    (iblk1 V c 1 t : Vec Ideal S1x64 .f32) (ix2 (0 : Fin 1) j) = V c (Pipeline.arrRef spec1 1) (ix2 (0 : Fin 1) j) := by
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [(win_idx t).2.2.1]
  | ⟨1, _⟩ => show win1_1.index t 1 * 64 + 1 * j.val = j.val; rw [(win_idx t).2.2.2.1]; omega

/-- The biased block at point t, entry (r, j), is the biased array at row 10000·t + r. -/
theorem biased_block (c : Dev nD) (t : Fin cfg1.N) (r : Fin 10000) (j : Fin 64) (p : Fin 100000)
    (hp : p.val = 10000 * t.val + r.val) :
    k1_pay3 (F := Ideal) (iblk1 V c 0 t) (iblk1 V c 1 t) (ix2 r j) = biasedArr V c (ix2 p j) := by
  rw [pay3_apply, iblk0_apply V c t r j p hp, iblk1_apply V c t j]
  rfl

/-- Window 2's buffer after any point holds the biased block. -/
theorem outs_biased (c : Dev nD) (t : Fin cfg1.N) :
    (outsAt1 V c t.val t.isLt).1 = k1_pay3 (F := Ideal) (iblk1 V c 0 t) (iblk1 V c 1 t) := by
  by_cases h0 : t.val % 10 = 0
  · rw [outsAt1_A V c t h0]
    dsimp only
    exact out_A_2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact out_B_2 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- What point t writes back through window 2 is block t of the biased array. -/
theorem flushed2_eq (c : Dev nD) (t : Fin cfg1.N) :
    (dat1 V c).flushed 2 t = ((cfg1.win 2).blk t).view.read (Elt Ideal) (biasedArr V c) := by
  show (cfg1.win 2).cut (grid1.coords t) ((dat1 V c).after 2 t) = _
  rw [after1_2, outs_biased]
  funext y
  have key : ∀ (y : S10000x64.Idx) (i : S100000x64.Idx), (i 0).val = 10000 * t.val + (y 0).val → (i 1).val = (y 1).val →
      k1_pay3 (F := Ideal) (iblk1 V c 0 t) (iblk1 V c 1 t) y = biasedArr V c i := by
    intro y i h0 h1
    obtain ⟨r, j, rfl⟩ : ∃ (r : Fin 10000) (j : Fin 64), y = ix2 r j := ⟨y 0, y 1, eq_ix2 y⟩
    obtain ⟨p, q, rfl⟩ : ∃ (p : Fin 100000) (q : Fin 64), i = ix2 p q := ⟨i 0, i 1, eq_ix2 i⟩
    obtain rfl : q = j := Fin.ext h1
    exact biased_block V c t r q p h0
  refine key y _ ?_ ?_
  · show win1_2.index t 0 * 10000 + 1 * (y 0).val = 10000 * t.val + (y 0).val
    rw [(win_idx t).2.2.2.2.1]; omega
  · show win1_2.index t 1 * 64 + 1 * (y 1).val = (y 1).val
    rw [(win_idx t).2.2.2.2.2.1]; omega

/-- An index of the array is in point t's block of window 2 iff each coordinate is in the block's range. -/
theorem mem_blk2 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47_0).slice (win1_2.rect t)).set ↔ _
  rw [View.set_slice_whole, Rect.mem_set_unit]
  exact Iff.rfl

/-- After the run the first output array holds the biased array: the ten row blocks tile it. -/
theorem _root_.Cert.KernelIdeal.RegionValue.biased1 (c : Dev nD) : (dat1 V c).arrAt 2 cfg1.N
    = GCN.addRow (V c (Pipeline.arrRef spec1 0)) (GCN.row (V c (Pipeline.arrRef spec1 1))) :=
  (dat1 V c).arrAt_eq_of_cover 2 (biasedArr V c) (fun t _ => flushed2_eq V c t) fun i => by
    have hi0 : (i 0).val < 100000 := (i 0).isLt
    have hi1 : (i 1).val < 64 := (i 1).isLt
    have hN : cfg1.N = 10 := N_1
    have ht : (i 0).val / 10000 < cfg1.N := by rw [hN]; omega
    refine ⟨⟨(i 0).val / 10000, ht⟩, flush1_2 _, ?_⟩
    rw [mem_blk2]
    intro a
    match a with
    | ⟨0, _⟩ =>
      show win1_2.index ⟨(i 0).val / 10000, ht⟩ 0 * 10000 ≤ (i 0).val
        ∧ (i 0).val < win1_2.index ⟨(i 0).val / 10000, ht⟩ 0 * 10000 + 10000
      rw [(win_idx ⟨(i 0).val / 10000, ht⟩).2.2.2.2.1]
      show (i 0).val / 10000 * 10000 ≤ (i 0).val ∧ (i 0).val < (i 0).val / 10000 * 10000 + 10000
      omega
    | ⟨1, _⟩ =>
      show win1_2.index ⟨(i 0).val / 10000, ht⟩ 1 * 64 ≤ (i 1).val
        ∧ (i 1).val < win1_2.index ⟨(i 0).val / 10000, ht⟩ 1 * 64 + 64
      rw [(win_idx ⟨(i 0).val / 10000, ht⟩).2.2.2.2.2.1]
      omega

/-! ### The two accumulators -/

/-- The column sum of the biased block at point t is the biased array's block sum number t. -/
theorem block_sum_at (c : Dev nD) (t : Fin cfg1.N) (j : Fin 64) :
    ∑ r : Fin 10000, k1_pay3 (F := Ideal) (iblk1 V c 0 t) (iblk1 V c 1 t) (ix2 r j) = blockSum (biasedArr V c) t.val j := by
  have hN : cfg1.N = 10 := N_1
  have ht : t.val < 10 := by have := t.isLt; omega
  unfold blockSum
  rw [dif_pos ht]
  exact Finset.sum_congr rfl fun r _ => biased_block V c t r j _ (by show r.val + 10000 * t.val = 10000 * t.val + r.val; omega)

/-- The column sum of squares of the biased block at point t is the biased array's block sum of squares number t. -/
theorem block_sumsq_at (c : Dev nD) (t : Fin cfg1.N) (j : Fin 64) :
    ∑ r : Fin 10000, k1_pay3 (F := Ideal) (iblk1 V c 0 t) (iblk1 V c 1 t) (ix2 r j)
        * k1_pay3 (F := Ideal) (iblk1 V c 0 t) (iblk1 V c 1 t) (ix2 r j)
      = blockSumSq (biasedArr V c) t.val j := by
  have hN : cfg1.N = 10 := N_1
  have ht : t.val < 10 := by have := t.isLt; omega
  unfold blockSumSq
  rw [dif_pos ht]
  refine Finset.sum_congr rfl fun r _ => ?_
  have e := biased_block V c t r j ⟨r.val + 10000 * t.val, by have := r.isLt; omega⟩
    (by show r.val + 10000 * t.val = 10000 * t.val + r.val; omega)
  rw [e]

/-- At the first point the sum accumulator is zeroed and then holds the first block sum. -/
theorem acc3_A (c : Dev nD) (t : Fin cfg1.N) (h0 : t.val % 10 = 0) (j : Fin 64) :
    (outsAt1 V c t.val t.isLt).2.1 (ix2 (0 : Fin 1) j) = blockSum (biasedArr V c) t.val j := by
  rw [outsAt1_A V c t h0]
  dsimp only
  refine (congrFun (out_A_3 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) (ix2 (0 : Fin 1) j)).trans ?_
  rw [pay4_apply, pay1_apply, zero_add, block_sum_at]

/-- At a later point the sum accumulator holds what the point before left plus this point's block sum. -/
theorem acc3_B (c : Dev nD) (t : Fin cfg1.N) (h0 : ¬t.val % 10 = 0) (j : Fin 64) :
    (outsAt1 V c t.val t.isLt).2.1 (ix2 (0 : Fin 1) j)
      = (outsAt1 V c (t.val - 1) (Nat.lt_of_le_of_lt (Nat.sub_le _ _) t.isLt)).2.1 (ix2 (0 : Fin 1) j)
        + blockSum (biasedArr V c) t.val j := by
  rw [outsAt1_B V c t h0]
  dsimp only
  refine (congrFun (out_B_3 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) j)).trans ?_
  rw [pay4_apply, block_sum_at]

/-- At the first point the sum-of-squares accumulator is zeroed and then holds the first block sum of squares. -/
theorem acc4_A (c : Dev nD) (t : Fin cfg1.N) (h0 : t.val % 10 = 0) (j : Fin 64) :
    (outsAt1 V c t.val t.isLt).2.2 (ix2 (0 : Fin 1) j) = blockSumSq (biasedArr V c) t.val j := by
  rw [outsAt1_A V c t h0]
  dsimp only
  refine (congrFun (out_A_4 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) (ix2 (0 : Fin 1) j)).trans ?_
  rw [pay5_apply, pay2_apply, zero_add, block_sumsq_at]

/-- At a later point it holds what the point before left plus this point's block sum of squares. -/
theorem acc4_B (c : Dev nD) (t : Fin cfg1.N) (h0 : ¬t.val % 10 = 0) (j : Fin 64) :
    (outsAt1 V c t.val t.isLt).2.2 (ix2 (0 : Fin 1) j)
      = (outsAt1 V c (t.val - 1) (Nat.lt_of_le_of_lt (Nat.sub_le _ _) t.isLt)).2.2 (ix2 (0 : Fin 1) j)
        + blockSumSq (biasedArr V c) t.val j := by
  rw [outsAt1_B V c t h0]
  dsimp only
  refine (congrFun (out_B_4 (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) j)).trans ?_
  rw [pay5_apply, block_sumsq_at]

/-- After point n the sum accumulator holds the sum of the block sums of blocks 0 … n: by induction on the point. -/
theorem acc3_eq (c : Dev nD) : ∀ (n : ℕ) (h : n < cfg1.N) (j : Fin 64),
    (outsAt1 V c n h).2.1 (ix2 (0 : Fin 1) j) = ∑ s ∈ Finset.range (n + 1), blockSum (biasedArr V c) s j
  | 0, h, j => by
    rw [Finset.sum_range_one]
    exact acc3_A V c ⟨0, h⟩ rfl j
  | n + 1, h, j => by
    have hN : cfg1.N = 10 := N_1
    have hB : ¬(⟨n + 1, h⟩ : Fin cfg1.N).val % 10 = 0 := by dsimp only; omega
    rw [Finset.sum_range_succ, ← acc3_eq c n (Nat.lt_of_succ_lt h) j]
    exact acc3_B V c ⟨n + 1, h⟩ hB j

/-- After point n the sum-of-squares accumulator holds the sum of the block sums of squares of blocks 0 … n. -/
theorem acc4_eq (c : Dev nD) : ∀ (n : ℕ) (h : n < cfg1.N) (j : Fin 64),
    (outsAt1 V c n h).2.2 (ix2 (0 : Fin 1) j) = ∑ s ∈ Finset.range (n + 1), blockSumSq (biasedArr V c) s j
  | 0, h, j => by
    rw [Finset.sum_range_one]
    exact acc4_A V c ⟨0, h⟩ rfl j
  | n + 1, h, j => by
    have hN : cfg1.N = 10 := N_1
    have hB : ¬(⟨n + 1, h⟩ : Fin cfg1.N).val % 10 = 0 := by dsimp only; omega
    rw [Finset.sum_range_succ, ← acc4_eq c n (Nat.lt_of_succ_lt h) j]
    exact acc4_B V c ⟨n + 1, h⟩ hB j

/-- What the last point writes back through window 3 is the whole [1, 64] array of column sums: stated for any
    array G that holds them. -/
theorem flushed3_of (c : Dev nD) (t : Fin cfg1.N) (hf : (cfg1.win 3).flush t = true) (G : S1x64.Idx → EReal)
    (hG : ∀ q : Fin 64, G (ix2 (0 : Fin 1) q) = GCN.colSum (biasedArr V c) q) :
    (dat1 V c).flushed 3 t = ((cfg1.win 3).blk t).view.read (Elt Ideal) G := by
  have hN : cfg1.N = 10 := N_1
  have h9 : t.val + 1 = 10 := by have := (flush1_3 t).mp hf; have := t.isLt; omega
  show (cfg1.win 3).cut (grid1.coords t) ((dat1 V c).after 3 t) = _
  rw [after1_3]
  have key : ∀ (y i : S1x64.Idx), (i 1).val = (y 1).val → (outsAt1 V c t.val t.isLt).2.1 y = G i := by
    intro y i h1
    obtain ⟨u, j, rfl⟩ : ∃ (u : Fin 1) (j : Fin 64), y = ix2 u j := ⟨y 0, y 1, eq_ix2 y⟩
    obtain ⟨u', q, rfl⟩ : ∃ (u' : Fin 1) (q : Fin 64), i = ix2 u' q := ⟨i 0, i 1, eq_ix2 i⟩
    obtain rfl : q = j := Fin.ext h1
    obtain rfl : u = 0 := Subsingleton.elim _ _
    obtain rfl : u' = 0 := Subsingleton.elim _ _
    rw [hG, acc3_eq V c t.val t.isLt q, colSum_eq_blocks, h9]
  funext y
  refine key y _ ?_
  show win1_3.index t 1 * 64 + 1 * (y 1).val = (y 1).val
  obtain ⟨-, -, -, -, -, -, e30, e31, e40, e41⟩ := win_idx t
  rw [e31]; omega

/-- An index of the [1, 64] array is in point t's block of window 3 iff each coordinate is in the block's range. -/
theorem mem_blk3 (t : Fin cfg1.N) (i : S1x64.Idx) :
    i ∈ ((cfg1.win 3).blk t).view.set ↔ ∀ a : Fin 2, win1_3.index t a * S1x64.size a ≤ (i a).val
      ∧ (i a).val < win1_3.index t a * S1x64.size a + S1x64.size a := by
  show i ∈ ((View.whole main_v47_1).slice (win1_3.rect t)).set ↔ _
  rw [View.set_slice_whole, Rect.mem_set_unit]
  exact Iff.rfl

/-- After the run the second output array holds, at feature j, the sum over all nodes of the biased entries. -/
theorem _root_.Cert.KernelIdeal.RegionValue.sum1 (c : Dev nD) : (dat1 V c).arrAt 3 cfg1.N
    = fun y => GCN.colSum (GCN.addRow (V c (Pipeline.arrRef spec1 0)) (GCN.row (V c (Pipeline.arrRef spec1 1)))) (y 1) :=
  (dat1 V c).arrAt_eq_of_cover 3 (fun y : GCN.Row.Idx => GCN.colSum (biasedArr V c) (y 1))
    (fun t hf => flushed3_of V c t hf _ (fun q => rfl)) fun i => by
    have hi0 : (i 0).val < 1 := (i 0).isLt
    have hi1 : (i 1).val < 64 := (i 1).isLt
    refine ⟨t1_9, (flush1_3 t1_9).mpr rfl, ?_⟩
    rw [mem_blk3]
    obtain ⟨-, -, -, -, -, -, e30, e31, e40, e41⟩ := win_idx t1_9
    intro a
    match a with
    | ⟨0, _⟩ =>
      show win1_3.index t1_9 0 * 1 ≤ (i 0).val ∧ (i 0).val < win1_3.index t1_9 0 * 1 + 1
      rw [e30]; omega
    | ⟨1, _⟩ =>
      show win1_3.index t1_9 1 * 64 ≤ (i 1).val ∧ (i 1).val < win1_3.index t1_9 1 * 64 + 64
      rw [e31]; omega

/-- What the last point writes back through window 4 is the whole [1, 64] array of column sums of squares: stated for any
    array G that holds them. -/
theorem flushed4_of (c : Dev nD) (t : Fin cfg1.N) (hf : (cfg1.win 4).flush t = true) (G : S1x64.Idx → EReal)
    (hG : ∀ q : Fin 64, G (ix2 (0 : Fin 1) q) = GCN.colSumSq (biasedArr V c) q) :
    (dat1 V c).flushed 4 t = ((cfg1.win 4).blk t).view.read (Elt Ideal) G := by
  have hN : cfg1.N = 10 := N_1
  have h9 : t.val + 1 = 10 := by have := (flush1_4 t).mp hf; have := t.isLt; omega
  show (cfg1.win 4).cut (grid1.coords t) ((dat1 V c).after 4 t) = _
  rw [after1_4]
  have key : ∀ (y i : S1x64.Idx), (i 1).val = (y 1).val → (outsAt1 V c t.val t.isLt).2.2 y = G i := by
    intro y i h1
    obtain ⟨u, j, rfl⟩ : ∃ (u : Fin 1) (j : Fin 64), y = ix2 u j := ⟨y 0, y 1, eq_ix2 y⟩
    obtain ⟨u', q, rfl⟩ : ∃ (u' : Fin 1) (q : Fin 64), i = ix2 u' q := ⟨i 0, i 1, eq_ix2 i⟩
    obtain rfl : q = j := Fin.ext h1
    obtain rfl : u = 0 := Subsingleton.elim _ _
    obtain rfl : u' = 0 := Subsingleton.elim _ _
    rw [hG, acc4_eq V c t.val t.isLt q, colSumSq_eq_blocks, h9]
  funext y
  refine key y _ ?_
  show win1_4.index t 1 * 64 + 1 * (y 1).val = (y 1).val
  obtain ⟨-, -, -, -, -, -, e30, e31, e40, e41⟩ := win_idx t
  rw [e41]; omega

/-- An index of the [1, 64] array is in point t's block of window 4 iff each coordinate is in the block's range. -/
theorem mem_blk4 (t : Fin cfg1.N) (i : S1x64.Idx) :
    i ∈ ((cfg1.win 4).blk t).view.set ↔ ∀ a : Fin 2, win1_4.index t a * S1x64.size a ≤ (i a).val
      ∧ (i a).val < win1_4.index t a * S1x64.size a + S1x64.size a := by
  show i ∈ ((View.whole main_v47_2).slice (win1_4.rect t)).set ↔ _
  rw [View.set_slice_whole, Rect.mem_set_unit]
  exact Iff.rfl

/-- After the run the third output array holds, at feature j, the sum over all nodes of the squares of the biased entries. -/
theorem _root_.Cert.KernelIdeal.RegionValue.sumsq1 (c : Dev nD) : (dat1 V c).arrAt 4 cfg1.N
    = fun y => GCN.colSumSq (GCN.addRow (V c (Pipeline.arrRef spec1 0)) (GCN.row (V c (Pipeline.arrRef spec1 1)))) (y 1) :=
  (dat1 V c).arrAt_eq_of_cover 4 (fun y : GCN.Row.Idx => GCN.colSumSq (biasedArr V c) (y 1))
    (fun t hf => flushed4_of V c t hf _ (fun q => rfl)) fun i => by
    have hi0 : (i 0).val < 1 := (i 0).isLt
    have hi1 : (i 1).val < 64 := (i 1).isLt
    refine ⟨t1_9, (flush1_4 t1_9).mpr rfl, ?_⟩
    rw [mem_blk4]
    obtain ⟨-, -, -, -, -, -, e30, e31, e40, e41⟩ := win_idx t1_9
    intro a
    match a with
    | ⟨0, _⟩ =>
      show win1_4.index t1_9 0 * 1 ≤ (i 0).val ∧ (i 0).val < win1_4.index t1_9 0 * 1 + 1
      rw [e40]; omega
    | ⟨1, _⟩ =>
      show win1_4.index t1_9 1 * 64 ≤ (i 1).val ∧ (i 1).val < win1_4.index t1_9 1 * 64 + 64
      rw [e41]; omega

end Region1

end Stats1

end Cert.KernelIdeal.RegionValue

end
-- ==== Proof.RegionStats4.lean ====
/-
  The statistics-and-bias region of the second layer. Its grid has ten points; point t reads rows 10000·t … 10000·t + 9999
  of the aggregated array [100000, 64] and the bias row [1, 64]. It writes the biased rows (aggregated entry plus the
  bias of its feature) to the same rows of the first output, and adds the block's column sums and column sums of
  squares into two [1, 64] accumulators that are zeroed at point 0, carried from point to point, and written back after
  the last point. Over the extended reals addition is commutative and associative with 0 neutral, so after the run the
  accumulators hold the sums over all 100000 rows, with no finiteness needed.
-/
import proofs.«134326_j82703890251955_1_alg».proof.Proof.Gen.KernelIdeal.Frame
import proofs.«134326_j82703890251955_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionValue

open Cert.KernelIdeal Cert.KernelIdeal.Gen

namespace Stats4

section Pieces
variable {F : FTy → Type} [FloatOps F]

theorem hz2 : (![0, 0] : Fin 2 → Nat) = fun _ => 0 := funext fun a => by fin_cases a <;> rfl

theorem out_A_2 (c : Dev nD) (i : grid4.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : cond4_0 i) (x0 : Vec F S10000x64 .f32) (x1 : Vec F S1x64 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  rw [View.canon_unit_zero hz2]
  simp only [View.readAt_eq_ld, h1.read_unread, h2.read_unread, View.ld_unit_zero (S := S10000x64) hz2, View.ld_unit_zero (S := S1x64) hz2]

theorem out_B_2 (c : Dev nD) (i : grid4.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : ¬cond4_0 i) (x0 : Vec F S10000x64 .f32) (x1 : Vec F S1x64 .f32) (xo3 xo4 : Vec F S1x64 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero hz2]
  simp only [View.readAt_eq_ld, h1.read_unread, h2.read_unread, View.ld_unit_zero (S := S10000x64) hz2, View.ld_unit_zero (S := S1x64) hz2]

theorem out_A_3 (c : Dev nD) (i : grid4.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : cond4_0 i) (x0 : Vec F S10000x64 .f32) (x1 : Vec F S1x64 .f32) :
    out4_A_3 c i a1 h1 a2 h2 a3 h3 a4 h4 a5 h5 hc x0 x1 = k4_pay4 x0 x1 k4_pay1 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x64) hz2, View.readCov_unit_zero (S := S1x64) _ hz2]
  simp only [View.readAt_eq_ld, h1.read_unread, h2.read_unread, View.ld_unit_zero (S := S10000x64) hz2, View.ld_unit_zero (S := S1x64) hz2]

theorem out_B_3 (c : Dev nD) (i : grid4.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : ¬cond4_0 i) (x0 : Vec F S10000x64 .f32) (x1 : Vec F S1x64 .f32) (xo3 xo4 : Vec F S1x64 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  rw [View.canon_unit_zero hz2]
  simp only [View.readAt_eq_ld, h1.read_unread, h2.read_unread, h4.read_unread, View.ld_unit_zero (S := S10000x64) hz2, View.ld_unit_zero (S := S1x64) hz2]

theorem out_A_4 (c : Dev nD) (i : grid4.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : cond4_0 i) (x0 : Vec F S10000x64 .f32) (x1 : Vec F S1x64 .f32) :
    out4_A_4 c i a1 h1 a2 h2 a3 h3 a4 h4 a5 h5 hc x0 x1 = k4_pay5 x0 x1 k4_pay2 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x64) hz2, View.readCov_unit_zero (S := S1x64) _ hz2]
  simp only [View.readAt_eq_ld, h1.read_unread, h2.read_unread, View.ld_unit_zero (S := S10000x64) hz2, View.ld_unit_zero (S := S1x64) hz2]

theorem out_B_4 (c : Dev nD) (i : grid4.Coords) (a1 : Memref sig .tc .vmem S10000x64 .f32) (h1 : a1.IsWhole)
    (a2 : Memref sig .tc .vmem S1x64 .f32) (h2 : a2.IsWhole) (a3 : Memref sig .tc .vmem S10000x64 .f32) (h3 : a3.IsWhole)
    (a4 : Memref sig .tc .vmem S1x64 .f32) (h4 : a4.IsWhole) (a5 : Memref sig .tc .vmem S1x64 .f32) (h5 : a5.IsWhole)
    (hc : ¬cond4_0 i) (x0 : Vec F S10000x64 .f32) (x1 : Vec F S1x64 .f32) (xo3 xo4 : Vec F S1x64 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  rw [View.canon_unit_zero hz2]
  simp only [View.readAt_eq_ld, h1.read_unread, h2.read_unread, h5.read_unread, View.ld_unit_zero (S := S10000x64) hz2, View.ld_unit_zero (S := S1x64) hz2]

end Pieces

/-! ## The body's arithmetic at an index, on the extended reals -/

section Payloads

/-- The biased block: entry (r, j) is the aggregated entry plus the bias of feature j. -/
theorem pay3_apply (x : Vec Ideal S10000x64 .f32) (b : Vec Ideal S1x64 .f32) (r : Fin 10000) (j : Fin 64) :
    k4_pay3 (F := Ideal) x b (ix2 r j) = x (ix2 r j) + b (ix2 (0 : Fin 1) j) := by
  unfold k4_pay3
  simp only [shapeCast_self]
  exact congrArg (fun z => x (ix2 r j) + z) (broadcastTo_1b_ab_apply b _ r j)

/-- A sum over the rows of a [10000, 64] block, read at feature j. -/
theorem rowsum_apply (src : FVec Ideal S10000x64 .f32) (h : S10000x64.Reduces [0] S64) (hφ : FKind.Formats .f32)
    (hacc : (0x00000000#32 : BitVec 32) = FKind.add.neutral .f32 hφ) (j : Fin 64) :
    multiReduction (F := Ideal) .add [0] S64 src 0x00000000#32 h hφ hacc (ix1 j) = ∑ r : Fin 10000, src (ix2 r j) := by
  refine (Ideal.multiReduction_add_single src 0x00000000#32 h hφ hacc (ix1 j)).trans ?_
  refine Finset.sum_congr rfl fun k _ => congrArg src ?_
  funext a
  match a with
  | ⟨0, _⟩ => rfl
  | ⟨1, _⟩ => rfl

/-- The running column sum after a block: what it held plus the block's column sum. -/
theorem pay4_apply (x : Vec Ideal S10000x64 .f32) (b acc : Vec Ideal S1x64 .f32) (j : Fin 64) :
    k4_pay4 (F := Ideal) x b acc (ix2 (0 : Fin 1) j)
      = acc (ix2 (0 : Fin 1) j) + ∑ r : Fin 10000, k4_pay3 (F := Ideal) x b (ix2 r j) := by
  unfold k4_pay4
  simp only [shapeCast_self]
  refine congrArg (fun z => acc (ix2 (0 : Fin 1) j) + z) ?_
  refine (shapeCast_a_1a_apply _ _ (0 : Fin 1) j).trans ?_
  exact rowsum_apply _ _ _ _ j

/-- The running column sum of squares after a block: what it held plus the block's column sum of squares. -/
theorem pay5_apply (x : Vec Ideal S10000x64 .f32) (b acc : Vec Ideal S1x64 .f32) (j : Fin 64) :
    k4_pay5 (F := Ideal) x b acc (ix2 (0 : Fin 1) j)
      = acc (ix2 (0 : Fin 1) j)
        + ∑ r : Fin 10000, k4_pay3 (F := Ideal) x b (ix2 r j) * k4_pay3 (F := Ideal) x b (ix2 r j) := by
  unfold k4_pay5
  simp only [shapeCast_self]
  refine congrArg (fun z => acc (ix2 (0 : Fin 1) j) + z) ?_
  refine (shapeCast_a_1a_apply _ _ (0 : Fin 1) j).trans ?_
  exact rowsum_apply _ _ _ _ j

/-- The accumulators' reset value is zero. -/
theorem pay1_apply (j : Fin 64) : k4_pay1 (F := Ideal) (ix2 (0 : Fin 1) j) = 0 := by
  unfold k4_pay1
  show Ideal.ofBits .f32 0x00000000#32 = 0
  exact Ideal.ofBits_zero_f32

theorem pay2_apply (j : Fin 64) : k4_pay2 (F := Ideal) (ix2 (0 : Fin 1) j) = 0 := by
  unfold k4_pay2
  show Ideal.ofBits .f32 0x00000000#32 = 0
  exact Ideal.ofBits_zero_f32

end Payloads

/-! ## Splitting the 100000 rows into ten blocks of 10000 -/

section Blocks

/-- A sum over all rows is the sum over the ten blocks of the sums over each block's rows. -/
theorem sum_blocks (g : Fin 100000 → EReal) :
    ∑ p : Fin 100000, g p
      = ∑ s ∈ Finset.range 10,
          if h : s < 10 then ∑ r : Fin 10000, g ⟨r.val + 10000 * s, by have := r.isLt; omega⟩ else 0 := by
  have e1 : ∑ p : Fin 100000, g p
      = ∑ s : Fin 10, ∑ r : Fin 10000, g ⟨r.val + 10000 * s.val, by have := r.isLt; have := s.isLt; omega⟩ := by
    rw [← Fintype.sum_prod_type' (fun (s : Fin 10) (r : Fin 10000) =>
      g ⟨r.val + 10000 * s.val, by have := r.isLt; have := s.isLt; omega⟩)]
    exact (Fintype.sum_equiv (finProdFinEquiv (m := 10) (n := 10000)) _ _ (fun x => rfl)).symm
  exact e1.trans (Finset.sum_fin_eq_sum_range _)

/-- The sum of feature j over the rows of block s (zero past the tenth block). -/
def blockSum (f : GCN.Nodes.Idx → EReal) (s : ℕ) (j : Fin 64) : EReal :=
  if h : s < 10 then ∑ r : Fin 10000, f (ix2 (⟨r.val + 10000 * s, by have := r.isLt; omega⟩ : Fin 100000) j) else 0

/-- The sum of the squares of feature j over the rows of block s (zero past the tenth block). -/
def blockSumSq (f : GCN.Nodes.Idx → EReal) (s : ℕ) (j : Fin 64) : EReal :=
  if h : s < 10 then ∑ r : Fin 10000, f (ix2 (⟨r.val + 10000 * s, by have := r.isLt; omega⟩ : Fin 100000) j)
    * f (ix2 (⟨r.val + 10000 * s, by have := r.isLt; omega⟩ : Fin 100000) j) else 0

theorem colSum_eq_blocks (f : GCN.Nodes.Idx → EReal) (j : Fin 64) :
    GCN.colSum f j = ∑ s ∈ Finset.range 10, blockSum f s j :=
  sum_blocks (fun p => f (ix2 p j))

theorem colSumSq_eq_blocks (f : GCN.Nodes.Idx → EReal) (j : Fin 64) :
    GCN.colSumSq f j = ∑ s ∈ Finset.range 10, blockSumSq f s j :=
  sum_blocks (fun p => f (ix2 p j) * f (ix2 p j))

end Blocks

/-! ## Region 4: the arrays after the run -/

section Region4
variable (V : (c : Dev nD) → (b : Ref sig .tc) → Buf (Elt Ideal) ((c : Thread nD τ).loc b))

/-- The biased array: the aggregated array with the bias row added to every node's row. -/
abbrev biasedArr (c : Dev nD) : GCN.Nodes.Idx → EReal :=
  GCN.addRow (V c (Pipeline.arrRef spec4 0)) (GCN.row (V c (Pipeline.arrRef spec4 1)))

/-- The block indices of the five windows at every grid point: windows 0 and 2 move down the rows with the point,
    the bias row and the two accumulators stay at block (0, 0). -/
theorem win_idx : ∀ t : Fin cfg4.N, win4_0.index t 0 = t.val ∧ win4_0.index t 1 = 0 ∧ win4_1.index t 0 = 0 ∧ win4_1.index t 1 = 0
    ∧ win4_2.index t 0 = t.val ∧ win4_2.index t 1 = 0 ∧ win4_3.index t 0 = 0 ∧ win4_3.index t 1 = 0
    ∧ win4_4.index t 0 = 0 ∧ win4_4.index t 1 = 0 :=
  (by decide +kernel : ∀ t : Fin grid4.N, _)

/-- Block t of the aggregated array holds rows 10000·t … 10000·t + 9999. -/
theorem iblk0_apply (c : Dev nD) (t : Fin cfg4.N) (r : Fin 10000) (j : Fin 64) (p : Fin 100000)
    (hp : p.val = 10000 * t.val + r.val) :
    (iblk4 V c 0 t : Vec Ideal S10000x64 .f32) (ix2 r j) = V c (Pipeline.arrRef spec4 0) (ix2 p j) := by
  unfold iblk4
  rw [View.read_apply]
  show V c (Pipeline.arrRef spec4 0) _ = V c (Pipeline.arrRef spec4 0) _
  congr 1
  funext a
  apply Fin.ext
  match a with
  | ⟨0, _⟩ => show win4_0.index t 0 * 10000 + 1 * r.val = p.val; rw [(win_idx t).1, hp]; omega
  | ⟨1, _⟩ => show win4_0.index t 1 * 64 + 1 * j.val = j.val; rw [(win_idx t).2.1]; omega

/-- The bias row's block is the bias row at every point. -/
theorem iblk1_apply (c : Dev nD) (t : Fin cfg4.N) (j : Fin 64) :
    (iblk4 V c 1 t : Vec Ideal S1x64 .f32) (ix2 (0 : Fin 1) j) = V c (Pipeline.arrRef spec4 1) (ix2 (0 : Fin 1) j) := by
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * 0 = 0; rw [(win_idx t).2.2.1]
  | ⟨1, _⟩ => show win4_1.index t 1 * 64 + 1 * j.val = j.val; rw [(win_idx t).2.2.2.1]; omega

/-- The biased block at point t, entry (r, j), is the biased array at row 10000·t + r. -/
theorem biased_block (c : Dev nD) (t : Fin cfg4.N) (r : Fin 10000) (j : Fin 64) (p : Fin 100000)
    (hp : p.val = 10000 * t.val + r.val) :
    k4_pay3 (F := Ideal) (iblk4 V c 0 t) (iblk4 V c 1 t) (ix2 r j) = biasedArr V c (ix2 p j) := by
  rw [pay3_apply, iblk0_apply V c t r j p hp, iblk1_apply V c t j]
  rfl

/-- Window 2's buffer after any point holds the biased block. -/
theorem outs_biased (c : Dev nD) (t : Fin cfg4.N) :
    (outsAt4 V c t.val t.isLt).1 = k4_pay3 (F := Ideal) (iblk4 V c 0 t) (iblk4 V c 1 t) := by
  by_cases h0 : t.val % 10 = 0
  · rw [outsAt4_A V c t h0]
    dsimp only
    exact out_A_2 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · rw [outsAt4_B V c t h0]
    dsimp only
    exact out_B_2 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2

/-- What point t writes back through window 2 is block t of the biased array. -/
theorem flushed2_eq (c : Dev nD) (t : Fin cfg4.N) :
    (dat4 V c).flushed 2 t = ((cfg4.win 2).blk t).view.read (Elt Ideal) (biasedArr V c) := by
  show (cfg4.win 2).cut (grid4.coords t) ((dat4 V c).after 2 t) = _
  rw [after4_2, outs_biased]
  funext y
  have key : ∀ (y : S10000x64.Idx) (i : S100000x64.Idx), (i 0).val = 10000 * t.val + (y 0).val → (i 1).val = (y 1).val →
      k4_pay3 (F := Ideal) (iblk4 V c 0 t) (iblk4 V c 1 t) y = biasedArr V c i := by
    intro y i h0 h1
    obtain ⟨r, j, rfl⟩ : ∃ (r : Fin 10000) (j : Fin 64), y = ix2 r j := ⟨y 0, y 1, eq_ix2 y⟩
    obtain ⟨p, q, rfl⟩ : ∃ (p : Fin 100000) (q : Fin 64), i = ix2 p q := ⟨i 0, i 1, eq_ix2 i⟩
    obtain rfl : q = j := Fin.ext h1
    exact biased_block V c t r q p h0
  refine key y _ ?_ ?_
  · show win4_2.index t 0 * 10000 + 1 * (y 0).val = 10000 * t.val + (y 0).val
    rw [(win_idx t).2.2.2.2.1]; omega
  · show win4_2.index t 1 * 64 + 1 * (y 1).val = (y 1).val
    rw [(win_idx t).2.2.2.2.2.1]; omega

/-- An index of the array is in point t's block of window 2 iff each coordinate is in the block's range. -/
theorem mem_blk2 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v72_0).slice (win4_2.rect t)).set ↔ _
  rw [View.set_slice_whole, Rect.mem_set_unit]
  exact Iff.rfl

/-- After the run the first output array holds the biased array: the ten row blocks tile it. -/
theorem _root_.Cert.KernelIdeal.RegionValue.biased4 (c : Dev nD) : (dat4 V c).arrAt 2 cfg4.N
    = GCN.addRow (V c (Pipeline.arrRef spec4 0)) (GCN.row (V c (Pipeline.arrRef spec4 1))) :=
  (dat4 V c).arrAt_eq_of_cover 2 (biasedArr V c) (fun t _ => flushed2_eq V c t) fun i => by
    have hi0 : (i 0).val < 100000 := (i 0).isLt
    have hi1 : (i 1).val < 64 := (i 1).isLt
    have hN : cfg4.N = 10 := N_4
    have ht : (i 0).val / 10000 < cfg4.N := by rw [hN]; omega
    refine ⟨⟨(i 0).val / 10000, ht⟩, flush4_2 _, ?_⟩
    rw [mem_blk2]
    intro a
    match a with
    | ⟨0, _⟩ =>
      show win4_2.index ⟨(i 0).val / 10000, ht⟩ 0 * 10000 ≤ (i 0).val
        ∧ (i 0).val < win4_2.index ⟨(i 0).val / 10000, ht⟩ 0 * 10000 + 10000
      rw [(win_idx ⟨(i 0).val / 10000, ht⟩).2.2.2.2.1]
      show (i 0).val / 10000 * 10000 ≤ (i 0).val ∧ (i 0).val < (i 0).val / 10000 * 10000 + 10000
      omega
    | ⟨1, _⟩ =>
      show win4_2.index ⟨(i 0).val / 10000, ht⟩ 1 * 64 ≤ (i 1).val
        ∧ (i 1).val < win4_2.index ⟨(i 0).val / 10000, ht⟩ 1 * 64 + 64
      rw [(win_idx ⟨(i 0).val / 10000, ht⟩).2.2.2.2.2.1]
      omega

/-! ### The two accumulators -/

/-- The column sum of the biased block at point t is the biased array's block sum number t. -/
theorem block_sum_at (c : Dev nD) (t : Fin cfg4.N) (j : Fin 64) :
    ∑ r : Fin 10000, k4_pay3 (F := Ideal) (iblk4 V c 0 t) (iblk4 V c 1 t) (ix2 r j) = blockSum (biasedArr V c) t.val j := by
  have hN : cfg4.N = 10 := N_4
  have ht : t.val < 10 := by have := t.isLt; omega
  unfold blockSum
  rw [dif_pos ht]
  exact Finset.sum_congr rfl fun r _ => biased_block V c t r j _ (by show r.val + 10000 * t.val = 10000 * t.val + r.val; omega)

/-- The column sum of squares of the biased block at point t is the biased array's block sum of squares number t. -/
theorem block_sumsq_at (c : Dev nD) (t : Fin cfg4.N) (j : Fin 64) :
    ∑ r : Fin 10000, k4_pay3 (F := Ideal) (iblk4 V c 0 t) (iblk4 V c 1 t) (ix2 r j)
        * k4_pay3 (F := Ideal) (iblk4 V c 0 t) (iblk4 V c 1 t) (ix2 r j)
      = blockSumSq (biasedArr V c) t.val j := by
  have hN : cfg4.N = 10 := N_4
  have ht : t.val < 10 := by have := t.isLt; omega
  unfold blockSumSq
  rw [dif_pos ht]
  refine Finset.sum_congr rfl fun r _ => ?_
  have e := biased_block V c t r j ⟨r.val + 10000 * t.val, by have := r.isLt; omega⟩
    (by show r.val + 10000 * t.val = 10000 * t.val + r.val; omega)
  rw [e]

/-- At the first point the sum accumulator is zeroed and then holds the first block sum. -/
theorem acc3_A (c : Dev nD) (t : Fin cfg4.N) (h0 : t.val % 10 = 0) (j : Fin 64) :
    (outsAt4 V c t.val t.isLt).2.1 (ix2 (0 : Fin 1) j) = blockSum (biasedArr V c) t.val j := by
  rw [outsAt4_A V c t h0]
  dsimp only
  refine (congrFun (out_A_3 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) (ix2 (0 : Fin 1) j)).trans ?_
  rw [pay4_apply, pay1_apply, zero_add, block_sum_at]

/-- At a later point the sum accumulator holds what the point before left plus this point's block sum. -/
theorem acc3_B (c : Dev nD) (t : Fin cfg4.N) (h0 : ¬t.val % 10 = 0) (j : Fin 64) :
    (outsAt4 V c t.val t.isLt).2.1 (ix2 (0 : Fin 1) j)
      = (outsAt4 V c (t.val - 1) (Nat.lt_of_le_of_lt (Nat.sub_le _ _) t.isLt)).2.1 (ix2 (0 : Fin 1) j)
        + blockSum (biasedArr V c) t.val j := by
  rw [outsAt4_B V c t h0]
  dsimp only
  refine (congrFun (out_B_3 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) j)).trans ?_
  rw [pay4_apply, block_sum_at]

/-- At the first point the sum-of-squares accumulator is zeroed and then holds the first block sum of squares. -/
theorem acc4_A (c : Dev nD) (t : Fin cfg4.N) (h0 : t.val % 10 = 0) (j : Fin 64) :
    (outsAt4 V c t.val t.isLt).2.2 (ix2 (0 : Fin 1) j) = blockSumSq (biasedArr V c) t.val j := by
  rw [outsAt4_A V c t h0]
  dsimp only
  refine (congrFun (out_A_4 (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) (ix2 (0 : Fin 1) j)).trans ?_
  rw [pay5_apply, pay2_apply, zero_add, block_sumsq_at]

/-- At a later point it holds what the point before left plus this point's block sum of squares. -/
theorem acc4_B (c : Dev nD) (t : Fin cfg4.N) (h0 : ¬t.val % 10 = 0) (j : Fin 64) :
    (outsAt4 V c t.val t.isLt).2.2 (ix2 (0 : Fin 1) j)
      = (outsAt4 V c (t.val - 1) (Nat.lt_of_le_of_lt (Nat.sub_le _ _) t.isLt)).2.2 (ix2 (0 : Fin 1) j)
        + blockSumSq (biasedArr V c) t.val j := by
  rw [outsAt4_B V c t h0]
  dsimp only
  refine (congrFun (out_B_4 (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) j)).trans ?_
  rw [pay5_apply, block_sumsq_at]

/-- After point n the sum accumulator holds the sum of the block sums of blocks 0 … n: by induction on the point. -/
theorem acc3_eq (c : Dev nD) : ∀ (n : ℕ) (h : n < cfg4.N) (j : Fin 64),
    (outsAt4 V c n h).2.1 (ix2 (0 : Fin 1) j) = ∑ s ∈ Finset.range (n + 1), blockSum (biasedArr V c) s j
  | 0, h, j => by
    rw [Finset.sum_range_one]
    exact acc3_A V c ⟨0, h⟩ rfl j
  | n + 1, h, j => by
    have hN : cfg4.N = 10 := N_4
    have hB : ¬(⟨n + 1, h⟩ : Fin cfg4.N).val % 10 = 0 := by dsimp only; omega
    rw [Finset.sum_range_succ, ← acc3_eq c n (Nat.lt_of_succ_lt h) j]
    exact acc3_B V c ⟨n + 1, h⟩ hB j

/-- After point n the sum-of-squares accumulator holds the sum of the block sums of squares of blocks 0 … n. -/
theorem acc4_eq (c : Dev nD) : ∀ (n : ℕ) (h : n < cfg4.N) (j : Fin 64),
    (outsAt4 V c n h).2.2 (ix2 (0 : Fin 1) j) = ∑ s ∈ Finset.range (n + 1), blockSumSq (biasedArr V c) s j
  | 0, h, j => by
    rw [Finset.sum_range_one]
    exact acc4_A V c ⟨0, h⟩ rfl j
  | n + 1, h, j => by
    have hN : cfg4.N = 10 := N_4
    have hB : ¬(⟨n + 1, h⟩ : Fin cfg4.N).val % 10 = 0 := by dsimp only; omega
    rw [Finset.sum_range_succ, ← acc4_eq c n (Nat.lt_of_succ_lt h) j]
    exact acc4_B V c ⟨n + 1, h⟩ hB j

/-- What the last point writes back through window 3 is the whole [1, 64] array of column sums: stated for any
    array G that holds them. -/
theorem flushed3_of (c : Dev nD) (t : Fin cfg4.N) (hf : (cfg4.win 3).flush t = true) (G : S1x64.Idx → EReal)
    (hG : ∀ q : Fin 64, G (ix2 (0 : Fin 1) q) = GCN.colSum (biasedArr V c) q) :
    (dat4 V c).flushed 3 t = ((cfg4.win 3).blk t).view.read (Elt Ideal) G := by
  have hN : cfg4.N = 10 := N_4
  have h9 : t.val + 1 = 10 := by have := (flush4_3 t).mp hf; have := t.isLt; omega
  show (cfg4.win 3).cut (grid4.coords t) ((dat4 V c).after 3 t) = _
  rw [after4_3]
  have key : ∀ (y i : S1x64.Idx), (i 1).val = (y 1).val → (outsAt4 V c t.val t.isLt).2.1 y = G i := by
    intro y i h1
    obtain ⟨u, j, rfl⟩ : ∃ (u : Fin 1) (j : Fin 64), y = ix2 u j := ⟨y 0, y 1, eq_ix2 y⟩
    obtain ⟨u', q, rfl⟩ : ∃ (u' : Fin 1) (q : Fin 64), i = ix2 u' q := ⟨i 0, i 1, eq_ix2 i⟩
    obtain rfl : q = j := Fin.ext h1
    obtain rfl : u = 0 := Subsingleton.elim _ _
    obtain rfl : u' = 0 := Subsingleton.elim _ _
    rw [hG, acc3_eq V c t.val t.isLt q, colSum_eq_blocks, h9]
  funext y
  refine key y _ ?_
  show win4_3.index t 1 * 64 + 1 * (y 1).val = (y 1).val
  obtain ⟨-, -, -, -, -, -, e30, e31, e40, e41⟩ := win_idx t
  rw [e31]; omega

/-- An index of the [1, 64] array is in point t's block of window 3 iff each coordinate is in the block's range. -/
theorem mem_blk3 (t : Fin cfg4.N) (i : S1x64.Idx) :
    i ∈ ((cfg4.win 3).blk t).view.set ↔ ∀ a : Fin 2, win4_3.index t a * S1x64.size a ≤ (i a).val
      ∧ (i a).val < win4_3.index t a * S1x64.size a + S1x64.size a := by
  show i ∈ ((View.whole main_v72_1).slice (win4_3.rect t)).set ↔ _
  rw [View.set_slice_whole, Rect.mem_set_unit]
  exact Iff.rfl

/-- After the run the second output array holds, at feature j, the sum over all nodes of the biased entries. -/
theorem _root_.Cert.KernelIdeal.RegionValue.sum4 (c : Dev nD) : (dat4 V c).arrAt 3 cfg4.N
    = fun y => GCN.colSum (GCN.addRow (V c (Pipeline.arrRef spec4 0)) (GCN.row (V c (Pipeline.arrRef spec4 1)))) (y 1) :=
  (dat4 V c).arrAt_eq_of_cover 3 (fun y : GCN.Row.Idx => GCN.colSum (biasedArr V c) (y 1))
    (fun t hf => flushed3_of V c t hf _ (fun q => rfl)) fun i => by
    have hi0 : (i 0).val < 1 := (i 0).isLt
    have hi1 : (i 1).val < 64 := (i 1).isLt
    refine ⟨t4_9, (flush4_3 t4_9).mpr rfl, ?_⟩
    rw [mem_blk3]
    obtain ⟨-, -, -, -, -, -, e30, e31, e40, e41⟩ := win_idx t4_9
    intro a
    match a with
    | ⟨0, _⟩ =>
      show win4_3.index t4_9 0 * 1 ≤ (i 0).val ∧ (i 0).val < win4_3.index t4_9 0 * 1 + 1
      rw [e30]; omega
    | ⟨1, _⟩ =>
      show win4_3.index t4_9 1 * 64 ≤ (i 1).val ∧ (i 1).val < win4_3.index t4_9 1 * 64 + 64
      rw [e31]; omega

/-- What the last point writes back through window 4 is the whole [1, 64] array of column sums of squares: stated for any
    array G that holds them. -/
theorem flushed4_of (c : Dev nD) (t : Fin cfg4.N) (hf : (cfg4.win 4).flush t = true) (G : S1x64.Idx → EReal)
    (hG : ∀ q : Fin 64, G (ix2 (0 : Fin 1) q) = GCN.colSumSq (biasedArr V c) q) :
    (dat4 V c).flushed 4 t = ((cfg4.win 4).blk t).view.read (Elt Ideal) G := by
  have hN : cfg4.N = 10 := N_4
  have h9 : t.val + 1 = 10 := by have := (flush4_4 t).mp hf; have := t.isLt; omega
  show (cfg4.win 4).cut (grid4.coords t) ((dat4 V c).after 4 t) = _
  rw [after4_4]
  have key : ∀ (y i : S1x64.Idx), (i 1).val = (y 1).val → (outsAt4 V c t.val t.isLt).2.2 y = G i := by
    intro y i h1
    obtain ⟨u, j, rfl⟩ : ∃ (u : Fin 1) (j : Fin 64), y = ix2 u j := ⟨y 0, y 1, eq_ix2 y⟩
    obtain ⟨u', q, rfl⟩ : ∃ (u' : Fin 1) (q : Fin 64), i = ix2 u' q := ⟨i 0, i 1, eq_ix2 i⟩
    obtain rfl : q = j := Fin.ext h1
    obtain rfl : u = 0 := Subsingleton.elim _ _
    obtain rfl : u' = 0 := Subsingleton.elim _ _
    rw [hG, acc4_eq V c t.val t.isLt q, colSumSq_eq_blocks, h9]
  funext y
  refine key y _ ?_
  show win4_4.index t 1 * 64 + 1 * (y 1).val = (y 1).val
  obtain ⟨-, -, -, -, -, -, e30, e31, e40, e41⟩ := win_idx t
  rw [e41]; omega

/-- An index of the [1, 64] array is in point t's block of window 4 iff each coordinate is in the block's range. -/
theorem mem_blk4 (t : Fin cfg4.N) (i : S1x64.Idx) :
    i ∈ ((cfg4.win 4).blk t).view.set ↔ ∀ a : Fin 2, win4_4.index t a * S1x64.size a ≤ (i a).val
      ∧ (i a).val < win4_4.index t a * S1x64.size a + S1x64.size a := by
  show i ∈ ((View.whole main_v72_2).slice (win4_4.rect t)).set ↔ _
  rw [View.set_slice_whole, Rect.mem_set_unit]
  exact Iff.rfl

/-- After the run the third output array holds, at feature j, the sum over all nodes of the squares of the biased entries. -/
theorem _root_.Cert.KernelIdeal.RegionValue.sumsq4 (c : Dev nD) : (dat4 V c).arrAt 4 cfg4.N
    = fun y => GCN.colSumSq (GCN.addRow (V c (Pipeline.arrRef spec4 0)) (GCN.row (V c (Pipeline.arrRef spec4 1)))) (y 1) :=
  (dat4 V c).arrAt_eq_of_cover 4 (fun y : GCN.Row.Idx => GCN.colSumSq (biasedArr V c) (y 1))
    (fun t hf => flushed4_of V c t hf _ (fun q => rfl)) fun i => by
    have hi0 : (i 0).val < 1 := (i 0).isLt
    have hi1 : (i 1).val < 64 := (i 1).isLt
    refine ⟨t4_9, (flush4_4 t4_9).mpr rfl, ?_⟩
    rw [mem_blk4]
    obtain ⟨-, -, -, -, -, -, e30, e31, e40, e41⟩ := win_idx t4_9
    intro a
    match a with
    | ⟨0, _⟩ =>
      show win4_4.index t4_9 0 * 1 ≤ (i 0).val ∧ (i 0).val < win4_4.index t4_9 0 * 1 + 1
      rw [e40]; omega
    | ⟨1, _⟩ =>
      show win4_4.index t4_9 1 * 64 ≤ (i 1).val ∧ (i 1).val < win4_4.index t4_9 1 * 64 + 64
      rw [e41]; omega

end Region4

end Stats4

end Cert.KernelIdeal.RegionValue

end
-- ==== Proof.KChain.lean ====
/-
  The kernel program's result as one function of its arguments: the contents of the result buffer at the last boundary of
  the run, read back boundary by boundary — each kernel region's output array as a layer function of the arrays it finds,
  each host stretch's aggregation, mean and variance as functions of the contents before it — is the network `GCN.net`
  over the aggregation `aggOf` of the edge list and the second-moment variance.
-/
import proofs.«134326_j82703890251955_1_alg».proof.Proof.Gen.KernelIdeal.Frame
import proofs.«134326_j82703890251955_1_alg».proof.Proof.KHost
import proofs.«134326_j82703890251955_1_alg».proof.Proof.KRows
import proofs.«134326_j82703890251955_1_alg».proof.Proof.KCarry
import proofs.«134326_j82703890251955_1_alg».proof.Proof.RegionLin
import proofs.«134326_j82703890251955_1_alg».proof.Proof.RegionNorm
import proofs.«134326_j82703890251955_1_alg».proof.Proof.RegionBias
import proofs.«134326_j82703890251955_1_alg».proof.Proof.RegionStats
import proofs.«134326_j82703890251955_1_alg».proof.Proof.RegionStats4
import proofs.«134326_j82703890251955_1_alg».proof.Proof.Spec

set_option maxRecDepth 16384

noncomputable section

namespace Cert.KernelIdeal.Chain

open Cert.KernelIdeal Cert.KernelIdeal.Gen Cert.KernelIdeal.HostValue Cert.KernelIdeal.Carry Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-! ## The edge arrays and the edge weights, found by every aggregation as the first stretch left them -/

theorem src3 : W3 m ρ c (Proc.devRef .tc main_v3) = srcOf (m ((c : Thread nD τ).loc main_arg1)) :=
  (carry_v3_3_1 m ρ c).trans (src0 (W0 m ρ c))

theorem dst3 : W3 m ρ c (Proc.devRef .tc main_v6) = dstOf (m ((c : Thread nD τ).loc main_arg1)) :=
  (carry_v6_3_1 m ρ c).trans (dst0 (W0 m ρ c))

theorem weight3 : W3 m ρ c (Proc.devRef .tc main_v31) = weightFrom (srcOf (m ((c : Thread nD τ).loc main_arg1))) (dstOf (m ((c : Thread nD τ).loc main_arg1))) (dinvOf (m ((c : Thread nD τ).loc main_arg1))) := by
  refine (weight02 (W2 m ρ c)).trans ?_
  rw [carry_v3_2_1 m ρ c, carry_v6_2_1 m ρ c,
    show W2 m ρ c (Proc.devRef .tc main_v16) = dinvOf (m ((c : Thread nD τ).loc main_arg1)) from dinv01 (W0 m ρ c),
    show W1 m ρ c (Proc.devRef .tc main_v3) = srcOf (m ((c : Thread nD τ).loc main_arg1)) from src0 (W0 m ρ c),
    show W1 m ρ c (Proc.devRef .tc main_v6) = dstOf (m ((c : Thread nD τ).loc main_arg1)) from dst0 (W0 m ρ c)]

/-- An aggregation stretch entered from contents that still hold the edge arrays as the first stretch left them. -/
theorem agg_of (W : Valuation τ sig (Elt Ideal)) (h : (⟨S100000x64, .f32⟩ : BufTy).Contents (Elt Ideal))
    (h3 : W (Proc.devRef .tc main_v3) = W3 m ρ c (Proc.devRef .tc main_v3)) (h6 : W (Proc.devRef .tc main_v6) = W3 m ρ c (Proc.devRef .tc main_v6))
    (h31 : W (Proc.devRef .tc main_v31) = W3 m ρ c (Proc.devRef .tc main_v31)) :
    agg (W (Proc.devRef .tc main_v3)) (W (Proc.devRef .tc main_v6)) (W (Proc.devRef .tc main_v31)) h = aggOf (m ((c : Thread nD τ).loc main_arg1)) h := by
  rw [h3, h6, h31, src3, dst3, weight3]; rfl

/-! ## Layer one -/

theorem lin1 : W4 m ρ c (Proc.devRef .tc main_v32) = GCN.lin (m ((c : Thread nD τ).loc main_arg0)) (m ((c : Thread nD τ).loc main_arg2)) :=
  (W4_arr m ρ c 2).trans ((lin0 (V3 m ρ) c).trans (congrArg₂ GCN.lin (carry_arg0_3_0 m ρ c) (carry_arg2_3_0 m ρ c)))

theorem aggd1 : W5 m ρ c (Proc.devRef .tc main_v45) = aggOf (m ((c : Thread nD τ).loc main_arg1)) (GCN.lin (m ((c : Thread nD τ).loc main_arg0)) (m ((c : Thread nD τ).loc main_arg2))) := by
  refine (agg1 (W4 m ρ c)).trans ?_
  rw [lin1 m ρ c]
  exact agg_of m ρ c (W4 m ρ c) _ (carry_v3_4_3 m ρ c) (carry_v6_4_3 m ρ c) (carry_v31_4_3 m ρ c)

theorem brow1 : GCN.row (W5 m ρ c (Proc.devRef .tc main_v46)) = GCN.vec (m ((c : Thread nD τ).loc main_arg3)) := by
  rw [show W5 m ρ c (Proc.devRef .tc main_v46) = _ from bias1 (W4 m ρ c), carry_arg3_4_0 m ρ c]
  exact row_reshape _

/-- The first layer's pre-normalisation activations. -/
abbrev z1 : GCN.Nodes.Idx → EReal :=
  GCN.addRow (aggOf (m ((c : Thread nD τ).loc main_arg1)) (GCN.lin (m ((c : Thread nD τ).loc main_arg0)) (m ((c : Thread nD τ).loc main_arg2)))) (GCN.vec (m ((c : Thread nD τ).loc main_arg3)))

/-- What the statistics region of layer 1 finds in its two input arrays. -/
theorem found1 : GCN.addRow (V5 m ρ c (Pipeline.arrRef spec1 0)) (GCN.row (V5 m ρ c (Pipeline.arrRef spec1 1))) = z1 m c := by
  show GCN.addRow (W5 m ρ c (Proc.devRef .tc main_v45)) (GCN.row (W5 m ρ c (Proc.devRef .tc main_v46))) = _
  rw [aggd1, brow1]

theorem biasd1 : W6 m ρ c (Proc.devRef .tc main_v47_0) = z1 m c :=
  (W6_arr m ρ c 2).trans ((biased1 (V5 m ρ) c).trans (found1 m ρ c))

theorem sumd1 : W6 m ρ c (Proc.devRef .tc main_v47_1) = fun (y : GCN.Row.Idx) => GCN.colSum (z1 m c) (y 1) :=
  (W6_arr m ρ c 3).trans ((sum1 (V5 m ρ) c).trans
    (congrArg (fun (z : GCN.Nodes.Idx → EReal) (y : GCN.Row.Idx) => GCN.colSum z (y 1)) (found1 m ρ c)))

theorem sumsqd1 : W6 m ρ c (Proc.devRef .tc main_v47_2) = fun (y : GCN.Row.Idx) => GCN.colSumSq (z1 m c) (y 1) :=
  (W6_arr m ρ c 4).trans ((sumsq1 (V5 m ρ) c).trans
    (congrArg (fun (z : GCN.Nodes.Idx → EReal) (y : GCN.Row.Idx) => GCN.colSumSq z (y 1)) (found1 m ρ c)))

/-- The first layer's output. -/
abbrev h1 : GCN.Nodes.Idx → EReal :=
  GCN.normRelu (z1 m c) (GCN.meanOf (z1 m c)) (GCN.varMom (z1 m c)) (GCN.vec (m ((c : Thread nD τ).loc main_arg4))) (GCN.vec (m ((c : Thread nD τ).loc main_arg5)))

set_option maxHeartbeats 4000000 in
theorem normd1 : W8 m ρ c (Proc.devRef .tc main_v56) = h1 m c := by
  have e0 : V7 m ρ c (Pipeline.arrRef spec2 0) = z1 m c := (carry_v47_0_7_6 m ρ c).trans (biasd1 m ρ c)
  have e1 : GCN.row (V7 m ρ c (Pipeline.arrRef spec2 1)) = GCN.meanOf (z1 m c) := by
    rw [show V7 m ρ c (Pipeline.arrRef spec2 1) = meanRow (W6 m ρ c (Proc.devRef .tc main_v47_1)) from mean2 (W6 m ρ c), sumd1]
    exact row_mean_of _
  have e2 : GCN.row (V7 m ρ c (Pipeline.arrRef spec2 2)) = GCN.varMom (z1 m c) := by
    rw [show V7 m ρ c (Pipeline.arrRef spec2 2) = varRow (W6 m ρ c (Proc.devRef .tc main_v47_1)) (W6 m ρ c (Proc.devRef .tc main_v47_2)) from var2 (W6 m ρ c), sumd1, sumsqd1]
    exact row_var_of _
  have e3 : GCN.row (V7 m ρ c (Pipeline.arrRef spec2 3)) = GCN.vec (m ((c : Thread nD τ).loc main_arg4)) := by
    rw [show V7 m ρ c (Pipeline.arrRef spec2 3) = shapeCast _ (W6 m ρ c (Proc.devRef .tc main_arg4)) shapeCasts_S64_S1x64 from scale2 (W6 m ρ c), carry_arg4_6_0 m ρ c]
    exact row_reshape _
  have e4 : GCN.row (V7 m ρ c (Pipeline.arrRef spec2 4)) = GCN.vec (m ((c : Thread nD τ).loc main_arg5)) := by
    rw [show V7 m ρ c (Pipeline.arrRef spec2 4) = shapeCast _ (W6 m ρ c (Proc.devRef .tc main_arg5)) shapeCasts_S64_S1x64 from shift2 (W6 m ρ c), carry_arg5_6_0 m ρ c]
    exact row_reshape _
  refine (W8_arr m ρ c 5).trans ((norm2 (V7 m ρ) c).trans ?_)
  rw [e0, e1, e2, e3, e4]

/-! ## Layer two -/

theorem lin2 : W9 m ρ c (Proc.devRef .tc main_v57) = GCN.lin (h1 m c) (m ((c : Thread nD τ).loc main_arg6)) := by
  refine (W9_arr m ρ c 2).trans ((lin3 (V8 m ρ) c).trans ?_)
  show GCN.lin (W8 m ρ c (Proc.devRef .tc main_v56)) (W8 m ρ c (Proc.devRef .tc main_arg6)) = _
  rw [normd1, carry_arg6_8_0 m ρ c]

theorem aggd2 : W10 m ρ c (Proc.devRef .tc main_v70) = aggOf (m ((c : Thread nD τ).loc main_arg1)) (GCN.lin (h1 m c) (m ((c : Thread nD τ).loc main_arg6))) := by
  refine (agg4 (W9 m ρ c)).trans ?_
  rw [lin2 m ρ c]
  exact agg_of m ρ c (W9 m ρ c) _ ((carry_v3_9_4 m ρ c).trans (carry_v3_4_3 m ρ c)) ((carry_v6_9_4 m ρ c).trans (carry_v6_4_3 m ρ c))
    ((carry_v31_9_4 m ρ c).trans (carry_v31_4_3 m ρ c))

theorem brow2 : GCN.row (W10 m ρ c (Proc.devRef .tc main_v71)) = GCN.vec (m ((c : Thread nD τ).loc main_arg7)) := by
  rw [show W10 m ρ c (Proc.devRef .tc main_v71) = _ from bias4 (W9 m ρ c), carry_arg7_9_0 m ρ c]
  exact row_reshape _

/-- The second layer's pre-normalisation activations. -/
abbrev z2 : GCN.Nodes.Idx → EReal :=
  GCN.addRow (aggOf (m ((c : Thread nD τ).loc main_arg1)) (GCN.lin (h1 m c) (m ((c : Thread nD τ).loc main_arg6)))) (GCN.vec (m ((c : Thread nD τ).loc main_arg7)))

/-- What the statistics region of layer 2 finds in its two input arrays. -/
theorem found2 : GCN.addRow (V10 m ρ c (Pipeline.arrRef spec4 0)) (GCN.row (V10 m ρ c (Pipeline.arrRef spec4 1))) = z2 m c := by
  show GCN.addRow (W10 m ρ c (Proc.devRef .tc main_v70)) (GCN.row (W10 m ρ c (Proc.devRef .tc main_v71))) = _
  rw [aggd2, brow2]

theorem biasd2 : W11 m ρ c (Proc.devRef .tc main_v72_0) = z2 m c :=
  (W11_arr m ρ c 2).trans ((biased4 (V10 m ρ) c).trans (found2 m ρ c))

theorem sumd2 : W11 m ρ c (Proc.devRef .tc main_v72_1) = fun (y : GCN.Row.Idx) => GCN.colSum (z2 m c) (y 1) :=
  (W11_arr m ρ c 3).trans ((sum4 (V10 m ρ) c).trans
    (congrArg (fun (z : GCN.Nodes.Idx → EReal) (y : GCN.Row.Idx) => GCN.colSum z (y 1)) (found2 m ρ c)))

theorem sumsqd2 : W11 m ρ c (Proc.devRef .tc main_v72_2) = fun (y : GCN.Row.Idx) => GCN.colSumSq (z2 m c) (y 1) :=
  (W11_arr m ρ c 4).trans ((sumsq4 (V10 m ρ) c).trans
    (congrArg (fun (z : GCN.Nodes.Idx → EReal) (y : GCN.Row.Idx) => GCN.colSumSq z (y 1)) (found2 m ρ c)))

/-- The second layer's output. -/
abbrev h2 : GCN.Nodes.Idx → EReal :=
  GCN.normRelu (z2 m c) (GCN.meanOf (z2 m c)) (GCN.varMom (z2 m c)) (GCN.vec (m ((c : Thread nD τ).loc main_arg8))) (GCN.vec (m ((c : Thread nD τ).loc main_arg9)))

set_option maxHeartbeats 4000000 in
theorem normd2 : W13 m ρ c (Proc.devRef .tc main_v81) = h2 m c := by
  have e0 : V12 m ρ c (Pipeline.arrRef spec5 0) = z2 m c := (carry_v72_0_12_11 m ρ c).trans (biasd2 m ρ c)
  have e1 : GCN.row (V12 m ρ c (Pipeline.arrRef spec5 1)) = GCN.meanOf (z2 m c) := by
    rw [show V12 m ρ c (Pipeline.arrRef spec5 1) = meanRow (W11 m ρ c (Proc.devRef .tc main_v72_1)) from mean5 (W11 m ρ c), sumd2]
    exact row_mean_of _
  have e2 : GCN.row (V12 m ρ c (Pipeline.arrRef spec5 2)) = GCN.varMom (z2 m c) := by
    rw [show V12 m ρ c (Pipeline.arrRef spec5 2) = varRow (W11 m ρ c (Proc.devRef .tc main_v72_1)) (W11 m ρ c (Proc.devRef .tc main_v72_2)) from var5 (W11 m ρ c), sumd2, sumsqd2]
    exact row_var_of _
  have e3 : GCN.row (V12 m ρ c (Pipeline.arrRef spec5 3)) = GCN.vec (m ((c : Thread nD τ).loc main_arg8)) := by
    rw [show V12 m ρ c (Pipeline.arrRef spec5 3) = shapeCast _ (W11 m ρ c (Proc.devRef .tc main_arg8)) shapeCasts_S64_S1x64 from scale5 (W11 m ρ c), carry_arg8_11_0 m ρ c]
    exact row_reshape _
  have e4 : GCN.row (V12 m ρ c (Pipeline.arrRef spec5 4)) = GCN.vec (m ((c : Thread nD τ).loc main_arg9)) := by
    rw [show V12 m ρ c (Pipeline.arrRef spec5 4) = shapeCast _ (W11 m ρ c (Proc.devRef .tc main_arg9)) shapeCasts_S64_S1x64 from shift5 (W11 m ρ c), carry_arg9_11_0 m ρ c]
    exact row_reshape _
  refine (W13_arr m ρ c 5).trans ((norm5 (V12 m ρ) c).trans ?_)
  rw [e0, e1, e2, e3, e4]

/-! ## Layer three -/

theorem lin3' : W14 m ρ c (Proc.devRef .tc main_v82) = GCN.lin (h2 m c) (m ((c : Thread nD τ).loc main_arg10)) := by
  refine (W14_arr m ρ c 2).trans ((lin6 (V13 m ρ) c).trans ?_)
  show GCN.lin (W13 m ρ c (Proc.devRef .tc main_v81)) (W13 m ρ c (Proc.devRef .tc main_arg10)) = _
  rw [normd2, carry_arg10_13_0 m ρ c]

theorem aggd3 : W15 m ρ c (Proc.devRef .tc main_v95) = aggOf (m ((c : Thread nD τ).loc main_arg1)) (GCN.lin (h2 m c) (m ((c : Thread nD τ).loc main_arg10))) := by
  refine (agg7 (W14 m ρ c)).trans ?_
  rw [lin3' m ρ c]
  exact agg_of m ρ c (W14 m ρ c) _ ((carry_v3_14_9 m ρ c).trans ((carry_v3_9_4 m ρ c).trans (carry_v3_4_3 m ρ c)))
    ((carry_v6_14_9 m ρ c).trans ((carry_v6_9_4 m ρ c).trans (carry_v6_4_3 m ρ c)))
    ((carry_v31_14_9 m ρ c).trans ((carry_v31_9_4 m ρ c).trans (carry_v31_4_3 m ρ c)))

theorem brow3 : GCN.row (W15 m ρ c (Proc.devRef .tc main_v96)) = GCN.vec (m ((c : Thread nD τ).loc main_arg11)) := by
  rw [show W15 m ρ c (Proc.devRef .tc main_v96) = _ from bias7 (W14 m ρ c), carry_arg11_14_0 m ρ c]
  exact row_reshape _

/-- The result buffer at the end of the run is the network of the arguments. -/
theorem result : W16 m ρ c (Proc.devRef .tc main_v97)
    = GCN.net (aggOf (m ((c : Thread nD τ).loc main_arg1))) GCN.varMom (m ((c : Thread nD τ).loc main_arg0)) (m ((c : Thread nD τ).loc main_arg2)) (GCN.vec (m ((c : Thread nD τ).loc main_arg3))) (GCN.vec (m ((c : Thread nD τ).loc main_arg4))) (GCN.vec (m ((c : Thread nD τ).loc main_arg5)))
        (m ((c : Thread nD τ).loc main_arg6)) (GCN.vec (m ((c : Thread nD τ).loc main_arg7))) (GCN.vec (m ((c : Thread nD τ).loc main_arg8))) (GCN.vec (m ((c : Thread nD τ).loc main_arg9))) (m ((c : Thread nD τ).loc main_arg10)) (GCN.vec (m ((c : Thread nD τ).loc main_arg11))) := by
  refine (W16_arr m ρ c 2).trans ((RegionValue.bias7 (V15 m ρ) c).trans ?_)
  show GCN.addRow (W15 m ρ c (Proc.devRef .tc main_v95)) (GCN.row (W15 m ρ c (Proc.devRef .tc main_v96))) = _
  rw [aggd3, brow3]
  rfl

end Cert.KernelIdeal.Chain

end
-- ==== Proof.RefValue.lean ====
/-
  The reference program read as the layer functions of the specification.

  The reference is a three-layer graph convolution. Each layer multiplies the node features by a square weight matrix, sends the
  result along the edges (gather the source rows, scale each by its edge weight, add them up at the destination rows) and adds a
  bias row; after the first two layers every feature is normalised over the nodes (mean, variance as the mean of the squared
  deviations, inverse square root of variance plus a stabiliser, scale, shift) and rectified. Here each of these stages is
  read index by index — a row broadcast at (p, q) is the vector at q, a column reduction at q is the sum over the rows p — and
  identified with the specification's function of the same name; the edge stage is kept as one opaque function `agg` of the
  edge array and the features, the same term in all three layers. Chaining the stages gives `value`: the reference's result is
  `GCN.net (agg edges) GCN.varDev` of the argument arrays.
-/
import proofs.«134326_j82703890251955_1_alg».proof.Proof.RefReadPatched
import proofs.«134326_j82703890251955_1_alg».proof.Proof.Spec

noncomputable section

open scoped BigOperators

namespace GCN.Ref

open Cert.ReferenceIdeal Cert.ReferenceIdeal.Gen Cert.ReferenceIdeal.ReadP Idealize.ShloMosaic Idealize.ShloMosaic.ValueIdx Idealize.ShloMosaic.StableHlo

/-- Node features [100000, 64] as the reference's stages type them. -/
abbrev NodeArr : Type := (⟨S100000x64, .f32⟩ : BufTy).Contents (Elt Ideal)
/-- A weight matrix [64, 64]. -/
abbrev SqArr : Type := (⟨S64x64, .f32⟩ : BufTy).Contents (Elt Ideal)
/-- A per-feature vector [64]. -/
abbrev FeatArr : Type := (⟨S64, .f32⟩ : BufTy).Contents (Elt Ideal)
/-- The edge list [2, 1200000] of 32-bit node numbers. -/
abbrev EdgeArr : Type := (⟨S2x1200000, .i32⟩ : BufTy).Contents (Elt Ideal)
/-- A scalar (rank 0). -/
abbrev ScalArr : Type := (⟨S_, .f32⟩ : BufTy).Contents (Elt Ideal)

/-! ## The stages as functions of arbitrary arrays -/

/-- The neighbourhood aggregation of the features `h` along the edges `x1`: row d of the result is the sum, over the edges
    (and self loops) into d, of the source row times the edge's weight. The index arrays, the edge weights and the zero array
    added into are the reference's own stages of `x1`. -/
def agg (x1 : EdgeArr) (h : GCN.Nodes.Idx → EReal) : GCN.Nodes.Idx → EReal :=
  Host.scatterAdd (F := Ideal) (φ := .f32) scatter_S100000x64_S1300000x1_S1300000x64_1_0_0_1 (val_main_v43 (F := Ideal)) (val_main_v44 (F := Ideal) x1)
    (mulf (F := Ideal) (φ := .f32) (Host.gather gather_S100000x64_S1300000x1_S1300000x64_1_0_n_n_0_1_164 h (val_main_v38 (F := Ideal) x1)) (val_main_v41 (F := Ideal) x1))

/-- The column mean: the sum over the nodes, from the zero word, divided by the node count word. -/
def meanS (a : NodeArr) : FeatArr :=
  Host.divf (F := Ideal) (φ := .f32) (Host.reduceAdd (F := Ideal) (φ := .f32) a (val_main_cst_10 (F := Ideal)) reducesTo_S100000x64_S64_d0 h_S_) (val_main_v50 (F := Ideal))

/-- The column mean of the squared deviations from a given row `m`. -/
def varS (a : NodeArr) (m : FeatArr) : FeatArr :=
  Host.divf (F := Ideal) (φ := .f32) (Host.reduceAdd (F := Ideal) (φ := .f32)
    (mulf (F := Ideal) (φ := .f32) (subf (F := Ideal) (φ := .f32) a (val_main_v47 (F := Ideal) m)) (subf (F := Ideal) (φ := .f32) a (val_main_v47 (F := Ideal) m)))
    (val_main_cst_12 (F := Ideal)) reducesTo_S100000x64_S64_d0 h_S_) (val_main_v57 (F := Ideal))

/-- Normalise by mean `m` and variance `v`, scale by `g`, shift by `be`, rectify. -/
def nrS (a : NodeArr) (m v g be : FeatArr) : NodeArr :=
  maximumf (F := Ideal) (φ := .f32) (addf (F := Ideal) (φ := .f32) (mulf (F := Ideal) (φ := .f32) (mulf (F := Ideal) (φ := .f32) (val_main_v47 (F := Ideal) g) (subf (F := Ideal) (φ := .f32) a (val_main_v47 (F := Ideal) m)))
      (val_main_v47 (F := Ideal) (Host.rsqrt (F := Ideal) (φ := .f32) (addf (F := Ideal) (φ := .f32) v (val_main_v65 (F := Ideal))))))
    (val_main_v47 (F := Ideal) be)) (val_main_call1_v0 (F := Ideal))

/-! ## Each stage at an index -/

theorem lidx_eq (i : S100000x64.Idx) (k : Fin 64) : lidx_main_v32 i k = ix2 (i 0) k :=
  funext fun a => Fin.ext (by match a with | ⟨0, _⟩ => rfl | ⟨1, _⟩ => rfl)

theorem ridx_eq (i : S100000x64.Idx) (k : Fin 64) : ridx_main_v32 i k = ix2 k (i 1) :=
  funext fun a => Fin.ext (by match a with | ⟨0, _⟩ => rfl | ⟨1, _⟩ => rfl)

/-- The feature transform is the matrix product. -/
theorem lin_eq (h : NodeArr) (w : SqArr) : val_main_v32 (F := Ideal) h w = GCN.lin h w := by
  funext i
  rw [val_main_v32_apply]
  show _ = ∑ k : Fin 64, h (ix2 (i 0) k) * w (ix2 k (i 1))
  exact Finset.sum_congr rfl fun k _ => congrArg₂ (· * ·) (congrArg h (lidx_eq i k)) (congrArg w (ridx_eq i k))

/-- A vector broadcast over the rows, at (p, q), is the vector at q. -/
theorem row_apply (b : FeatArr) (p : Fin 100000) (q : Fin 64) : val_main_v47 (F := Ideal) b (ix2 p q) = GCN.vec b q := by
  rw [val_main_v47_apply, val_main_v46_apply]
  show b _ = b (ix1 q)
  exact congrArg b (funext fun d => match d with | ⟨0, _⟩ => rfl)

/-- Adding a broadcast vector is adding the bias row. -/
theorem bias_eq (a : NodeArr) (b : FeatArr) : addf (F := Ideal) (φ := .f32) a (val_main_v47 (F := Ideal) b) = GCN.addRow a (GCN.vec b) := by
  funext i
  obtain ⟨p, q, rfl⟩ : ∃ (p : Fin 100000) (q : Fin 64), i = ix2 p q := ⟨i 0, i 1, eq_ix2 i⟩
  show FloatOps.addf (F := Ideal) (φ := .f32) (a (ix2 p q)) (val_main_v47 (F := Ideal) b (ix2 p q)) = a (ix2 p q) + GCN.vec b q
  rw [row_apply, Ideal.addf_def]

/-- The float sum down the columns, at feature q: the initial value plus the sum over the rows. -/
theorem reduce_apply (y0 : NodeArr) (z : ScalArr) (q : Fin 64) :
    Host.reduceAdd (F := Ideal) (φ := .f32) y0 z reducesTo_S100000x64_S64_d0 h_S_ (ix1 q) = z (Shape.Idx.first h_S_) + ∑ k : Fin 100000, y0 (ix2 k q) := by
  simp only [Host.reduceAdd, Ideal.hostReduceAdd_def]
  rw [Ideal.hostReduceAdd_single reducesTo_S100000x64_S64_d0 (by decide)]
  refine congrArg (_ + ·) (Finset.sum_congr rfl fun k _ => ?_)
  exact congrArg y0 (funext fun a => Fin.ext (by match a with | ⟨0, _⟩ => rfl | ⟨1, _⟩ => rfl))

theorem meanS_apply (a : NodeArr) (q : Fin 64) : meanS a (ix1 q) = GCN.meanOf a q := by
  show FloatOps.hostDivf (F := Ideal) (φ := .f32) (Host.reduceAdd (F := Ideal) (φ := .f32) a (val_main_cst_10 (F := Ideal)) reducesTo_S100000x64_S64_d0 h_S_ (ix1 q)) (val_main_v50 (F := Ideal) (ix1 q))
    = Ideal.div (∑ r : Fin 100000, a (ix2 r q)) GCN.count
  rw [reduce_apply, val_main_v50_apply, val_main_cst_11_apply, val_main_cst_10_apply, Ideal.hostDivf_def]
  simp only [Ideal.ofBits_def, Ideal.ofBits_zero_f32, zero_add]

theorem vec_meanS (a : NodeArr) : GCN.vec (meanS a) = GCN.meanOf a := funext fun q => meanS_apply a q

theorem varS_apply (a : NodeArr) (m : FeatArr) (q : Fin 64) :
    varS a m (ix1 q) = Ideal.div (∑ r : Fin 100000, (a (ix2 r q) - GCN.vec m q) * (a (ix2 r q) - GCN.vec m q)) GCN.count := by
  have hs : ∀ r : Fin 100000,
      mulf (F := Ideal) (φ := .f32) (subf (F := Ideal) (φ := .f32) a (val_main_v47 (F := Ideal) m)) (subf (F := Ideal) (φ := .f32) a (val_main_v47 (F := Ideal) m)) (ix2 r q)
        = (a (ix2 r q) - GCN.vec m q) * (a (ix2 r q) - GCN.vec m q) := by
    intro r
    show FloatOps.mulf (F := Ideal) (φ := .f32) (FloatOps.subf (F := Ideal) (φ := .f32) (a (ix2 r q)) (val_main_v47 (F := Ideal) m (ix2 r q)))
      (FloatOps.subf (F := Ideal) (φ := .f32) (a (ix2 r q)) (val_main_v47 (F := Ideal) m (ix2 r q))) = _
    rw [row_apply, Ideal.mulf_def, Ideal.subf_def]
  show FloatOps.hostDivf (F := Ideal) (φ := .f32) (Host.reduceAdd (F := Ideal) (φ := .f32)
      (mulf (F := Ideal) (φ := .f32) (subf (F := Ideal) (φ := .f32) a (val_main_v47 (F := Ideal) m)) (subf (F := Ideal) (φ := .f32) a (val_main_v47 (F := Ideal) m)))
      (val_main_cst_12 (F := Ideal)) reducesTo_S100000x64_S64_d0 h_S_ (ix1 q)) (val_main_v57 (F := Ideal) (ix1 q)) = _
  rw [reduce_apply, val_main_v57_apply, val_main_cst_13_apply, val_main_cst_12_apply, Ideal.hostDivf_def]
  simp only [Ideal.ofBits_def, Ideal.ofBits_zero_f32, zero_add, hs]

/-- With the column mean for `m` this is the variance as the mean of the squared deviations. -/
theorem vec_varS_meanS (a : NodeArr) : GCN.vec (varS a (meanS a)) = GCN.varDev a := by
  funext q
  show varS a (meanS a) (ix1 q) = _
  rw [varS_apply, vec_meanS]
  rfl

theorem rs_apply (v : FeatArr) (q : Fin 64) :
    GCN.vec (Host.rsqrt (F := Ideal) (φ := .f32) (addf (F := Ideal) (φ := .f32) v (val_main_v65 (F := Ideal)))) q = Ideal.rsqrt (GCN.vec v q + GCN.eps) := by
  show FloatOps.hostUnary (F := Ideal) (φ := .f32) .rsqrt (FloatOps.addf (F := Ideal) (φ := .f32) (v (ix1 q)) (val_main_v65 (F := Ideal) (ix1 q))) = Ideal.rsqrt (v (ix1 q) + GCN.eps)
  rw [val_main_v65_apply, val_main_cst_14_apply, Ideal.hostUnary_rsqrt_def, Ideal.addf_def, Ideal.ofBits_def]

/-- The normalise-and-rectify stage is the specification's. -/
theorem nrS_eq (a : NodeArr) (m v g be : FeatArr) : nrS a m v g be = GCN.normRelu a (GCN.vec m) (GCN.vec v) (GCN.vec g) (GCN.vec be) := by
  funext i
  obtain ⟨p, q, rfl⟩ : ∃ (p : Fin 100000) (q : Fin 64), i = ix2 p q := ⟨i 0, i 1, eq_ix2 i⟩
  show FloatOps.maximumf (F := Ideal) (φ := .f32) (FloatOps.addf (F := Ideal) (φ := .f32) (FloatOps.mulf (F := Ideal) (φ := .f32) (FloatOps.mulf (F := Ideal) (φ := .f32) (val_main_v47 (F := Ideal) g (ix2 p q)) (FloatOps.subf (F := Ideal) (φ := .f32) (a (ix2 p q)) (val_main_v47 (F := Ideal) m (ix2 p q))))
        (val_main_v47 (F := Ideal) (Host.rsqrt (F := Ideal) (φ := .f32) (addf (F := Ideal) (φ := .f32) v (val_main_v65 (F := Ideal)))) (ix2 p q)))
      (val_main_v47 (F := Ideal) be (ix2 p q))) (val_main_call1_v0 (F := Ideal) (ix2 p q))
    = max (GCN.vec g q * (a (ix2 p q) - GCN.vec m q) * Ideal.rsqrt (GCN.vec v q + GCN.eps) + GCN.vec be q) GCN.zero
  simp only [row_apply, rs_apply, val_main_call1_v0_apply, val_main_call1_cst_apply, Ideal.maximumf_def, Ideal.addf_def, Ideal.mulf_def,
    Ideal.subf_def, Ideal.ofBits_def]

/-! ## The reference's stages are these functions of the earlier stages

Each equation is by unfolding: the second and third layers recompute the index arrays, the edge weights' broadcast and the zero
array under other names, with the same terms. -/

section Stages
variable (x0 : NodeArr) (x1 : EdgeArr) (x2 : SqArr) (x3 x4 x5 : FeatArr) (x6 : SqArr) (x7 x8 x9 : FeatArr) (x10 : SqArr) (x11 : FeatArr)

theorem v48_eq : val_main_v48 (F := Ideal) x0 x1 x2 x3 = addf (F := Ideal) (φ := .f32) (agg x1 (val_main_v32 (F := Ideal) x0 x2)) (val_main_v47 (F := Ideal) x3) := rfl
theorem v51_eq : val_main_v51 (F := Ideal) x0 x1 x2 x3 = meanS (val_main_v48 (F := Ideal) x0 x1 x2 x3) := rfl
theorem v58_eq : val_main_v58 (F := Ideal) x0 x1 x2 x3 = varS (val_main_v48 (F := Ideal) x0 x1 x2 x3) (val_main_v51 (F := Ideal) x0 x1 x2 x3) := rfl
theorem v74_eq : val_main_v74 (F := Ideal) x0 x1 x2 x3 x4 x5 = nrS (val_main_v48 (F := Ideal) x0 x1 x2 x3) (val_main_v51 (F := Ideal) x0 x1 x2 x3) (val_main_v58 (F := Ideal) x0 x1 x2 x3) x4 x5 := rfl
theorem v91_eq : val_main_v91 (F := Ideal) x0 x1 x2 x3 x4 x5 x6 x7 = addf (F := Ideal) (φ := .f32) (agg x1 (val_main_v32 (F := Ideal) (val_main_v74 (F := Ideal) x0 x1 x2 x3 x4 x5) x6)) (val_main_v47 (F := Ideal) x7) := rfl
theorem v94_eq : val_main_v94 (F := Ideal) x0 x1 x2 x3 x4 x5 x6 x7 = meanS (val_main_v91 (F := Ideal) x0 x1 x2 x3 x4 x5 x6 x7) := rfl
theorem v101_eq : val_main_v101 (F := Ideal) x0 x1 x2 x3 x4 x5 x6 x7 = varS (val_main_v91 (F := Ideal) x0 x1 x2 x3 x4 x5 x6 x7) (val_main_v94 (F := Ideal) x0 x1 x2 x3 x4 x5 x6 x7) := rfl
theorem v117_eq : val_main_v117 (F := Ideal) x0 x1 x2 x3 x4 x5 x6 x7 x8 x9 = nrS (val_main_v91 (F := Ideal) x0 x1 x2 x3 x4 x5 x6 x7) (val_main_v94 (F := Ideal) x0 x1 x2 x3 x4 x5 x6 x7) (val_main_v101 (F := Ideal) x0 x1 x2 x3 x4 x5 x6 x7) x8 x9 := rfl
theorem v134_eq : val_main_v134 (F := Ideal) x0 x1 x2 x3 x4 x5 x6 x7 x8 x9 x10 x11 = addf (F := Ideal) (φ := .f32) (agg x1 (val_main_v32 (F := Ideal) (val_main_v117 (F := Ideal) x0 x1 x2 x3 x4 x5 x6 x7 x8 x9) x10)) (val_main_v47 (F := Ideal) x11) := rfl

/-- A normalise-and-rectify stage whose mean and variance stages are those of its own input. -/
theorem nr_chain (z : NodeArr) (g be : FeatArr) :
    nrS z (meanS z) (varS z (meanS z)) g be = GCN.normRelu z (GCN.meanOf z) (GCN.varDev z) (GCN.vec g) (GCN.vec be) := by
  rw [nrS_eq, vec_meanS, vec_varS_meanS]

/-- The reference's result is the network of the specification, with the reference's own aggregation and the variance as the
    mean of the squared deviations. -/
theorem value : val_main_v134 (F := Ideal) x0 x1 x2 x3 x4 x5 x6 x7 x8 x9 x10 x11
    = GCN.net (agg x1) GCN.varDev x0 x2 (GCN.vec x3) (GCN.vec x4) (GCN.vec x5) x6 (GCN.vec x7) (GCN.vec x8) (GCN.vec x9) x10 (GCN.vec x11) := by
  have e48 : val_main_v48 (F := Ideal) x0 x1 x2 x3 = GCN.addRow (agg x1 (GCN.lin x0 x2)) (GCN.vec x3) := by
    rw [v48_eq, bias_eq, lin_eq]
  have e74 : val_main_v74 (F := Ideal) x0 x1 x2 x3 x4 x5 = GCN.normRelu (val_main_v48 (F := Ideal) x0 x1 x2 x3) (GCN.meanOf (val_main_v48 (F := Ideal) x0 x1 x2 x3)) (GCN.varDev (val_main_v48 (F := Ideal) x0 x1 x2 x3)) (GCN.vec x4) (GCN.vec x5) := by
    rw [v74_eq, v58_eq, v51_eq, nr_chain]
  have e91 : val_main_v91 (F := Ideal) x0 x1 x2 x3 x4 x5 x6 x7 = GCN.addRow (agg x1 (GCN.lin (val_main_v74 (F := Ideal) x0 x1 x2 x3 x4 x5) x6)) (GCN.vec x7) := by
    rw [v91_eq, bias_eq, lin_eq]
  have e117 : val_main_v117 (F := Ideal) x0 x1 x2 x3 x4 x5 x6 x7 x8 x9 = GCN.normRelu (val_main_v91 (F := Ideal) x0 x1 x2 x3 x4 x5 x6 x7) (GCN.meanOf (val_main_v91 (F := Ideal) x0 x1 x2 x3 x4 x5 x6 x7)) (GCN.varDev (val_main_v91 (F := Ideal) x0 x1 x2 x3 x4 x5 x6 x7)) (GCN.vec x8) (GCN.vec x9) := by
    rw [v117_eq, v101_eq, v94_eq, nr_chain]
  rw [v134_eq, bias_eq, lin_eq, e117, e91, e74, e48]
  rfl

end Stages

end GCN.Ref

end
-- ==== Proof.RefRun.lean ====
/-
  The reference program's run, stated with the specification's network.

  Every weakly fair execution of the reference terminates with its result buffer at the composed term of its 169 host operations
  over the launch contents of the twelve arguments, which it leaves unchanged. That composed term is, by unfolding, the last of
  the per-operation stages; and the last stage is the three-layer network of the specification — transform, aggregate along the
  edges, add the bias; normalise over the nodes with the variance as the mean of the squared deviations, rectify — by `value`.
-/
import proofs.«134326_j82703890251955_1_alg».proof.Proof.RefValue
import proofs.«134326_j82703890251955_1_alg».proof.Proof.RefRunPatched

noncomputable section

namespace GCN.Ref

open Cert.ReferenceIdeal Cert.ReferenceIdeal.Gen Cert.ReferenceIdeal.ReadP Idealize.ShloMosaic Idealize.ShloMosaic.TcCoe Idealize.SL.Sem Idealize.ShloMosaic.StableHlo

/-- The run's composed term of the result is the last stage of the arguments' launch contents. -/
theorem res_eq {F : FTy → Type} [FloatOps F] (m : (ℓ : Loc Cert.ReferenceIdeal.nD Cert.ReferenceIdeal.τ Cert.ReferenceIdeal.sig) → Buf (Elt F) ℓ)
    (c : Dev Cert.ReferenceIdeal.nD) :
    Cert.ReferenceIdeal.ValueP.res_main_v134 m c = val_main_v134 (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) := by
  unfold Cert.ReferenceIdeal.ValueP.res_main_v134; rfl

/-- The reference runs, ends with the specification's network of its arguments in its result buffer, and leaves the twelve
    arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v134)
        = GCN.net (GCN.Ref.agg (m ((c.tc : Thread Cert.ReferenceIdeal.nD Cert.ReferenceIdeal.τ).loc Cert.ReferenceIdeal.main_arg1))) GCN.varDev (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (GCN.vec (m ((c.tc : Thread Cert.ReferenceIdeal.nD Cert.ReferenceIdeal.τ).loc Cert.ReferenceIdeal.main_arg3))) (GCN.vec (m ((c.tc : Thread Cert.ReferenceIdeal.nD Cert.ReferenceIdeal.τ).loc Cert.ReferenceIdeal.main_arg4))) (GCN.vec (m ((c.tc : Thread Cert.ReferenceIdeal.nD Cert.ReferenceIdeal.τ).loc Cert.ReferenceIdeal.main_arg5))) (m ((c.tc : Thread Cert.ReferenceIdeal.nD Cert.ReferenceIdeal.τ).loc Cert.ReferenceIdeal.main_arg6)) (GCN.vec (m ((c.tc : Thread Cert.ReferenceIdeal.nD Cert.ReferenceIdeal.τ).loc Cert.ReferenceIdeal.main_arg7))) (GCN.vec (m ((c.tc : Thread Cert.ReferenceIdeal.nD Cert.ReferenceIdeal.τ).loc Cert.ReferenceIdeal.main_arg8))) (GCN.vec (m ((c.tc : Thread Cert.ReferenceIdeal.nD Cert.ReferenceIdeal.τ).loc Cert.ReferenceIdeal.main_arg9))) (m ((c.tc : Thread Cert.ReferenceIdeal.nD Cert.ReferenceIdeal.τ).loc Cert.ReferenceIdeal.main_arg10)) (GCN.vec (m ((c.tc : Thread Cert.ReferenceIdeal.nD Cert.ReferenceIdeal.τ).loc Cert.ReferenceIdeal.main_arg11)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono
    (fun _ h c => ⟨((h c).1.trans (res_eq m c)).trans (value _ _ _ _ _ _ _ _ _ _ _ _), (h c).2⟩)
    (Cert.ReferenceIdeal.ValueP.run (F := Ideal) m ρ)

end GCN.Ref

end
-- ==== Proof.VarLaw.lean ====
/-
  The mathematics on the extended reals behind the three-layer graph convolution: when every entry of an array is
  the coercion of a real, the variance computed as the mean of the squares minus the square of the mean equals the
  variance computed as the mean of the squared deviations; every stage of the network keeps entries real; hence the
  network computed with either variance is the same function.
-/
import proofs.«134326_j82703890251955_1_alg».proof.Proof.Spec
import Mathlib
import Idealize.ShloMosaic.PureOps.Ideal
import Idealize.ShloMosaic.PureOps.Ideal.Laws
import Idealize.ShloMosaic.Lib.ValueIdx

noncomputable section

open scoped BigOperators

namespace GCN

open Idealize.ShloMosaic Idealize.ShloMosaic.ValueIdx

/-- An extended real is finite when it is the coercion of a real. -/
def finite (x : EReal) : Prop := ∃ r : ℝ, x = (r : EReal)

theorem finite_coe (r : ℝ) : finite (r : EReal) := ⟨r, rfl⟩

theorem finite_iff (x : EReal) : finite x ↔ x ≠ ⊤ ∧ x ≠ ⊥ := by
  constructor
  · rintro ⟨r, rfl⟩
    exact ⟨EReal.coe_ne_top r, EReal.coe_ne_bot r⟩
  · rintro ⟨ht, hb⟩
    induction x using EReal.rec with
    | bot => exact absurd rfl hb
    | coe r => exact ⟨r, rfl⟩
    | top => exact absurd rfl ht

theorem finite_of_ne (x : EReal) (ht : x ≠ ⊤) (hb : x ≠ ⊥) : finite x := (finite_iff x).2 ⟨ht, hb⟩

/-! ### Coercions and finite sums -/

/-- The coercion from the reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### The constants -/

/-- The node count is the real 100000. -/
theorem count_eq : count = ((100000 : ℝ) : EReal) := by
  simp [Ideal.ofBits, Ideal.ieee, -EReal.coe_mul]; norm_num

/-- Division by the node count is multiplication by the real 1/100000. -/
theorem div_count (x : EReal) : Ideal.div x count = x * (((1 / 100000 : ℝ)) : EReal) := by
  rw [count_eq, Ideal.div_coe (by norm_num)]

/-! ### The variance law on the reals -/

/-- Over a finite index set with n elements: the mean of the squared deviations from the mean is the mean of the
    squares minus the square of the mean. -/
theorem real_var_law {ι : Type*} (s : Finset ι) (f : ι → ℝ) (n : ℝ) (hn : n ≠ 0) (hN : (s.card : ℝ) = n) :
    (∑ r ∈ s, (f r - (∑ r ∈ s, f r) * (1 / n)) * (f r - (∑ r ∈ s, f r) * (1 / n))) * (1 / n)
      = (∑ r ∈ s, f r * f r) * (1 / n) - ((∑ r ∈ s, f r) * (1 / n)) * ((∑ r ∈ s, f r) * (1 / n)) := by
  set S := ∑ r ∈ s, f r with hS
  have h1 : ∑ r ∈ s, (f r - S * (1 / n)) * (f r - S * (1 / n))
      = (∑ r ∈ s, f r * f r) - 2 * (S * (1 / n)) * S + s.card * ((S * (1 / n)) * (S * (1 / n))) := by
    have h2 : ∀ r, (f r - S * (1 / n)) * (f r - S * (1 / n))
        = f r * f r - 2 * (S * (1 / n)) * f r + (S * (1 / n)) * (S * (1 / n)) := by
      intro r; ring
    simp only [h2]
    rw [Finset.sum_add_distrib, Finset.sum_sub_distrib, ← Finset.mul_sum, Finset.sum_const, nsmul_eq_mul]
  rw [h1, hN]
  field_simp
  ring

/-! ### Means and variances of a real array -/

/-- The mean of a real array, as a real. -/
theorem meanOf_coe (f : Nodes.Idx → ℝ) (j : Fin 64) :
    meanOf (fun i => (f i : EReal)) j = (((∑ r : Fin 100000, f (ix2 r j)) * (1 / 100000) : ℝ) : EReal) := by
  rw [meanOf, div_count, colSum, coe_sum, ← EReal.coe_mul]

/-- The mean-of-squares-minus-square-of-mean variance of a real array, as a real. -/
theorem varMom_coe (f : Nodes.Idx → ℝ) (j : Fin 64) :
    varMom (fun i => (f i : EReal)) j
      = (((∑ r : Fin 100000, f (ix2 r j) * f (ix2 r j)) * (1 / 100000)
          - ((∑ r : Fin 100000, f (ix2 r j)) * (1 / 100000)) * ((∑ r : Fin 100000, f (ix2 r j)) * (1 / 100000)) : ℝ) : EReal) := by
  rw [varMom, meanOf_coe, div_count, colSumSq]
  simp only [← EReal.coe_mul]
  rw [coe_sum, ← EReal.coe_mul, ← EReal.coe_sub]

/-- The mean-of-squared-deviations variance of a real array, as a real. -/
theorem varDev_coe (f : Nodes.Idx → ℝ) (j : Fin 64) :
    varDev (fun i => (f i : EReal)) j
      = (((∑ r : Fin 100000, (f (ix2 r j) - (∑ r : Fin 100000, f (ix2 r j)) * (1 / 100000))
            * (f (ix2 r j) - (∑ r : Fin 100000, f (ix2 r j)) * (1 / 100000))) * (1 / 100000) : ℝ) : EReal) := by
  rw [varDev, meanOf_coe, div_count]
  simp only [← EReal.coe_sub, ← EReal.coe_mul]
  rw [coe_sum, ← EReal.coe_mul]

/-- An array of finite entries is the coercion of a real array. -/
theorem exists_real {ι : Type*} (a : ι → EReal) (h : ∀ i, finite (a i)) : ∃ f : ι → ℝ, a = fun i => (f i : EReal) := by
  choose f hf using h
  exact ⟨f, funext hf⟩

/-- THE VARIANCE LAW: on an array of finite entries the two variances agree. -/
theorem varMom_eq_varDev (a : Nodes.Idx → EReal) (h : ∀ i, finite (a i)) : varMom a = varDev a := by
  obtain ⟨f, rfl⟩ := exists_real a h
  funext j
  rw [varMom_coe, varDev_coe]
  congr 1
  exact (real_var_law Finset.univ (fun r : Fin 100000 => f (ix2 r j)) 100000 (by norm_num) (by simp)).symm

/-! ### Finiteness is preserved by the arithmetic -/

theorem finite_zero : finite (0 : EReal) := ⟨0, EReal.coe_zero.symm⟩

theorem finite_add {x y : EReal} (hx : finite x) (hy : finite y) : finite (x + y) := by
  obtain ⟨a, rfl⟩ := hx
  obtain ⟨b, rfl⟩ := hy
  exact ⟨a + b, (EReal.coe_add a b).symm⟩

theorem finite_sub {x y : EReal} (hx : finite x) (hy : finite y) : finite (x - y) := by
  obtain ⟨a, rfl⟩ := hx
  obtain ⟨b, rfl⟩ := hy
  exact ⟨a - b, (EReal.coe_sub a b).symm⟩

theorem finite_mul {x y : EReal} (hx : finite x) (hy : finite y) : finite (x * y) := by
  obtain ⟨a, rfl⟩ := hx
  obtain ⟨b, rfl⟩ := hy
  exact ⟨a * b, (EReal.coe_mul a b).symm⟩

theorem finite_max {x y : EReal} (hx : finite x) (hy : finite y) : finite (max x y) := by
  rcases max_choice x y with h | h <;> rw [h] <;> assumption

/-- A finite sum of finite extended reals is finite. -/
theorem finite_sum {ι : Type*} (s : Finset ι) (f : ι → EReal) (h : ∀ i ∈ s, finite (f i)) : finite (∑ i ∈ s, f i) := by
  classical
  induction s using Finset.induction_on with
  | empty => rw [Finset.sum_empty]; exact finite_zero
  | insert a s ha ih =>
    rw [Finset.sum_insert ha]
    exact finite_add (h a (Finset.mem_insert_self a s)) (ih fun i hi => h i (Finset.mem_insert_of_mem hi))

/-! ### The stabiliser and the rectifier's zero -/

/-- The stabiliser is a positive real. -/
theorem eps_pos : ∃ e : ℝ, 0 < e ∧ eps = (e : EReal) := by
  refine ⟨10995116 * (2 : ℝ) ^ (-40 : ℤ), by positivity, ?_⟩
  simp [Ideal.ofBits, Ideal.ieee, -EReal.coe_mul]

/-- The rectifier's zero is zero. -/
theorem zero_eq : zero = 0 := Ideal.ofBits_zero_f32

/-- The reciprocal square root of a positive real is a real. -/
theorem rsqrt_coe_pos {r : ℝ} (h : 0 < r) : Ideal.rsqrt (r : EReal) = (((Real.sqrt r)⁻¹ : ℝ) : EReal) := by
  rw [Ideal.rsqrt_coe, if_neg (not_lt.2 h.le), if_neg h.ne']

/-! ### Every stage of the network keeps entries finite -/

theorem lin_finite {x : Nodes.Idx → EReal} {w : Sq.Idx → EReal} (hx : ∀ i, finite (x i)) (hw : ∀ i, finite (w i)) :
    ∀ i, finite (lin x w i) :=
  fun _ => finite_sum _ _ fun _ _ => finite_mul (hx _) (hw _)

theorem addRow_finite {a : Nodes.Idx → EReal} {b : Fin 64 → EReal} (ha : ∀ i, finite (a i)) (hb : ∀ j, finite (b j)) :
    ∀ i, finite (addRow a b i) :=
  fun i => finite_add (ha i) (hb (i 1))

theorem meanOf_finite {a : Nodes.Idx → EReal} (ha : ∀ i, finite (a i)) : ∀ j, finite (meanOf a j) := by
  obtain ⟨f, rfl⟩ := exists_real a ha
  intro j
  rw [meanOf_coe]
  exact finite_coe _

/-- The variance of an array of finite entries is a nonnegative real. -/
theorem varDev_nonneg {a : Nodes.Idx → EReal} (ha : ∀ i, finite (a i)) :
    ∀ j, ∃ r : ℝ, 0 ≤ r ∧ varDev a j = (r : EReal) := by
  obtain ⟨f, rfl⟩ := exists_real a ha
  intro j
  rw [varDev_coe]
  exact ⟨_, mul_nonneg (Finset.sum_nonneg fun r _ => mul_self_nonneg _) (by norm_num), rfl⟩

theorem varDev_finite {a : Nodes.Idx → EReal} (ha : ∀ i, finite (a i)) : ∀ j, finite (varDev a j) := fun j => by
  obtain ⟨r, _, hr⟩ := varDev_nonneg ha j
  exact ⟨r, hr⟩

/-- Normalising and rectifying keeps entries finite when the variance is a nonnegative real. -/
theorem normRelu_finite {x : Nodes.Idx → EReal} {mean var g be : Fin 64 → EReal} (hx : ∀ i, finite (x i))
    (hm : ∀ j, finite (mean j)) (hv : ∀ j, ∃ r : ℝ, 0 ≤ r ∧ var j = (r : EReal)) (hg : ∀ j, finite (g j))
    (hbe : ∀ j, finite (be j)) : ∀ i, finite (normRelu x mean var g be i) := by
  intro i
  obtain ⟨v, hv0, hv⟩ := hv (i 1)
  obtain ⟨e, he0, he⟩ := eps_pos
  have hr : finite (Ideal.rsqrt (var (i 1) + eps)) := by
    rw [hv, he, ← EReal.coe_add, rsqrt_coe_pos (by positivity)]
    exact finite_coe _
  rw [normRelu, zero_eq]
  exact finite_max (finite_add (finite_mul (finite_mul (hg _) (finite_sub (hx i) (hm _))) hr) (hbe _)) finite_zero

/-! ### The network with either variance -/

/-- THE THEOREM: with an aggregation that keeps entries finite, and finite inputs and parameters, the network computed
    with the variance as mean of squares minus square of mean is the network computed with the variance as mean of
    squared deviations. -/
theorem net_var (agg : (Nodes.Idx → EReal) → (Nodes.Idx → EReal))
    (hagg : ∀ h, (∀ i, finite (h i)) → ∀ i, finite (agg h i))
    (x : Nodes.Idx → EReal) (w1 : Sq.Idx → EReal) (b1 g1 be1 : Fin 64 → EReal)
    (w2 : Sq.Idx → EReal) (b2 g2 be2 : Fin 64 → EReal) (w3 : Sq.Idx → EReal) (b3 : Fin 64 → EReal)
    (hx : ∀ i, finite (x i)) (hw1 : ∀ i, finite (w1 i)) (hb1 : ∀ j, finite (b1 j)) (hg1 : ∀ j, finite (g1 j))
    (hbe1 : ∀ j, finite (be1 j)) (hw2 : ∀ i, finite (w2 i)) (hb2 : ∀ j, finite (b2 j)) (hg2 : ∀ j, finite (g2 j))
    (hbe2 : ∀ j, finite (be2 j)) (_hw3 : ∀ i, finite (w3 i)) (_hb3 : ∀ j, finite (b3 j)) :
    net agg varMom x w1 b1 g1 be1 w2 b2 g2 be2 w3 b3 = net agg varDev x w1 b1 g1 be1 w2 b2 g2 be2 w3 b3 := by
  have hz1 : ∀ i, finite (addRow (agg (lin x w1)) b1 i) := addRow_finite (hagg _ (lin_finite hx hw1)) hb1
  have hh1 : ∀ i, finite (normRelu (addRow (agg (lin x w1)) b1) (meanOf (addRow (agg (lin x w1)) b1))
      (varDev (addRow (agg (lin x w1)) b1)) g1 be1 i) :=
    normRelu_finite hz1 (meanOf_finite hz1) (varDev_nonneg hz1) hg1 hbe1
  have hz2 := addRow_finite (hagg _ (lin_finite hh1 hw2)) hb2
  dsimp only [net]
  rw [varMom_eq_varDev _ hz1, varMom_eq_varDev _ hz2]

/-! ### The aggregation's pieces keep entries finite -/

/-- A scatter with an additive body keeps entries finite: each entry is the operand's plus a finite sum of updates. -/
theorem hostScatterAdd_finite {s si su : Shape} (d : ScatterDims s si su) {w : Nat} (x : s.Idx → EReal) (idx : IVec si w)
    (upd : su.Idx → EReal) (hx : ∀ i, finite (x i)) (hu : ∀ j, finite (upd j)) :
    ∀ i, finite (Ideal.hostScatterAdd d x idx upd i) :=
  fun i => finite_add (hx i) (finite_sum _ _ fun j _ => hu j)

/-- The product of two finite extended reals, as the float multiplication, is finite. -/
theorem mulf_finite {φ : FTy} {x y : Ideal φ} (hx : finite x) (hy : finite y) : finite (FloatOps.mulf x y) :=
  finite_mul hx hy

end GCN

end
-- ==== Proof.FiniteIn.lean ====
/-
  From the precondition "every float input has absolute value below +infinity" to "every entry of every float input is
  the coercion of a real".
-/
import proofs.«134326_j82703890251955_1_alg».proof.Pre_finite_inputs
import proofs.«134326_j82703890251955_1_alg».proof.Proof.VarLaw
import Idealize.ShloMosaic.Lib.ReduceAll
import Idealize.ShloMosaic.PureOps.Ideal
import Idealize.ShloMosaic.PureOps.Ideal.Laws

noncomputable section

namespace GCN

open Idealize.ShloMosaic Cert.Pre_finite_inputs

/-- The rank-zero shape has one index. -/
instance subsingleton_S_ : Subsingleton S_.Idx := ⟨fun a b => funext fun d => d.elim0⟩

/-- The word the precondition compares with denotes +infinity. -/
theorem inf_eq : Ideal.ofBits .f32 0x7F800000#32 = (⊤ : EReal) := by
  simp [Ideal.ofBits, Ideal.ieee]

/-- An extended real whose absolute value compares below +infinity is the coercion of a real. -/
theorem finite_of_abs_lt_inf {x : EReal}
    (h : Ideal.cmp .olt (max x (-x)) (Ideal.ofBits .f32 0x7F800000#32) = 1#1) : GCN.finite x := by
  rw [inf_eq] at h
  have h' : max x (-x) < ⊤ := by
    by_contra hn
    simp [Ideal.cmp, hn] at h
  rw [max_lt_iff] at h'
  refine GCN.finite_of_ne x (ne_of_lt h'.1) ?_
  rintro rfl
  simp at h'

variable [Cert.Pre_finite_inputs.Facts]

/-- One conjunct of the precondition: an array whose every entry's absolute value compares below +infinity, all of
    them reduced by "and" to one, has every entry finite. -/
theorem finite_of_all {s : Shape} {axes : List (Fin s.rank)} (x : FVec Ideal s .f32) (c : FVec Ideal s .f32)
    (hc : ∀ i, c i = Ideal.ofBits .f32 0x7F800000#32)
    (init : IVec S_ 1) (hr : s.ReducesTo axes S_) (hu : 0 < S_.numel)
    (e : Host.reduce IntOp.andi (cmpf .olt (Host.absf x) c) init hr hu ValueIdx.ix0 = 1#1) :
    ∀ i, GCN.finite (x i) := by
  intro i
  have h1 := Host.reduce_andi_all _ init hr hu ValueIdx.ix0 e i
  apply finite_of_abs_lt_inf
  rw [← hc i]
  exact h1

theorem finite_of_pre (x0 : FVec Ideal S100000x64 .f32) (x1 : IVec S2x1200000 32) (x2 : FVec Ideal S64x64 .f32)
    (x3 x4 x5 : FVec Ideal S64 .f32) (x6 : FVec Ideal S64x64 .f32) (x7 x8 x9 : FVec Ideal S64 .f32)
    (x10 : FVec Ideal S64x64 .f32) (x11 : FVec Ideal S64 .f32)
    (h : fn (F := Ideal) x0 x1 x2 x3 x4 x5 x6 x7 x8 x9 x10 x11 = fun _ => 1#1) :
    (∀ i, GCN.finite (x0 i)) ∧ (∀ i, GCN.finite (x2 i)) ∧ (∀ i, GCN.finite (x3 i)) ∧ (∀ i, GCN.finite (x4 i)) ∧
    (∀ i, GCN.finite (x5 i)) ∧ (∀ i, GCN.finite (x6 i)) ∧ (∀ i, GCN.finite (x7 i)) ∧ (∀ i, GCN.finite (x8 i)) ∧
    (∀ i, GCN.finite (x9 i)) ∧ (∀ i, GCN.finite (x10 i)) ∧ (∀ i, GCN.finite (x11 i)) := by
  have h0 := congrFun h ValueIdx.ix0
  dsimp only [fn, fn_part1, fn_part2, fn_part3] at h0
  simp only [andi, IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨finite_of_all _ _ (fun _ => rfl) _ _ _ e0, finite_of_all _ _ (fun _ => rfl) _ _ _ e2,
    finite_of_all _ _ (fun _ => rfl) _ _ _ e3, finite_of_all _ _ (fun _ => rfl) _ _ _ e4,
    finite_of_all _ _ (fun _ => rfl) _ _ _ e5, finite_of_all _ _ (fun _ => rfl) _ _ _ e6,
    finite_of_all _ _ (fun _ => rfl) _ _ _ e7, finite_of_all _ _ (fun _ => rfl) _ _ _ e8,
    finite_of_all _ _ (fun _ => rfl) _ _ _ e9, finite_of_all _ _ (fun _ => rfl) _ _ _ e10,
    finite_of_all _ _ (fun _ => rfl) _ _ _ e11⟩

end GCN

end
-- ==== Proof.AggFinite.lean ====
/-
  The neighbourhood aggregation keeps entries real: a gather reads entries of its operand, a broadcast repeats them, the
  degrees are finite sums of ones, the inverse square root of a real that is at least one is a real, a selection returns
  one of its two branches, and a scatter with an additive body adds finitely many products of reals.
-/
import proofs.«134326_j82703890251955_1_alg».proof.Proof.KHost
import proofs.«134326_j82703890251955_1_alg».proof.Proof.VarLaw

noncomputable section

namespace GCN

open Cert.KernelIdeal Cert.KernelIdeal.Gen Cert.KernelIdeal.HostValue Idealize.ShloMosaic

/-! ### The operations, one at a time -/

/-- A gather reads entries of its operand. -/
theorem gather_finite {s si t : Shape} {w : Nat} (d : GatherDims s si t) (x : s.Idx → EReal) (idx : IVec si w)
    (hx : ∀ i, finite (x i)) : ∀ j, finite (Host.gather d x idx j) :=
  fun _ => hx _

/-- A broadcast repeats entries of its operand. -/
theorem broadcastInDim_finite {s t : Shape} (dims : Fin s.rank → Fin t.rank) (h : s.BroadcastsInDim t dims)
    (x : s.Idx → EReal) (hx : ∀ i, finite (x i)) : ∀ j, finite (broadcastInDim t dims h x j) :=
  fun _ => hx _

/-- The word 1.0 denotes the real one. -/
theorem one_eq : Ideal.ofBits .f32 0x3F800000#32 = 1 := by
  simp [Ideal.ofBits, Ideal.ieee, -EReal.coe_mul]; norm_num

theorem finite_one : finite (1 : EReal) := ⟨1, EReal.coe_one.symm⟩

theorem finite_ofBits_zero : finite (Ideal.ofBits .f32 0x00000000#32) := by
  rw [Ideal.ofBits_zero_f32]; exact finite_zero

theorem finite_ofBits_one : finite (Ideal.ofBits .f32 0x3F800000#32) := by
  rw [one_eq]; exact finite_one

/-- The inverse square root of the larger of a real and one is a real. -/
theorem rsqrt_max_one_finite {x : EReal} (hx : finite x) : finite (Ideal.rsqrt (max x 1)) := by
  obtain ⟨r, rfl⟩ := hx
  rcases le_total (r : EReal) 1 with h | h
  · rw [max_eq_right h, ← EReal.coe_one, rsqrt_coe_pos one_pos]
    exact finite_coe _
  · rw [max_eq_left h]
    have h1 : (1 : ℝ) ≤ r := by exact_mod_cast h
    rw [rsqrt_coe_pos (by linarith)]
    exact finite_coe _

/-- A selection returns one of its two branches. -/
theorem select_finite {c : BitVec 1} {a b : EReal} (ha : finite a) (hb : finite b) : finite (Scalar.select c a b) := by
  unfold Scalar.select
  split <;> assumption

/-- A scalar constant repeated over a shape: every entry is the value its word denotes. -/
theorem bcast_const_apply {s0 t : Shape} (dims : Fin s0.rank → Fin t.rank) (h : s0.BroadcastsInDim t dims) (b : BitVec 32)
    (j : t.Idx) : broadcastInDim t dims h (constant (F := Ideal) s0 .f32 b) j = Ideal.ofBits .f32 b := rfl

/-- The same with the constant passed through the identity function. -/
theorem bcast_id_const_apply {s0 t : Shape} (dims : Fin s0.rank → Fin t.rank) (h : s0.BroadcastsInDim t dims) (b : BitVec 32)
    (j : t.Idx) : broadcastInDim t dims h (id (constant (F := Ideal) s0 .f32 b)) j = Ideal.ofBits .f32 b := rfl

theorem bcast_const_finite {s0 t : Shape} (dims : Fin s0.rank → Fin t.rank) (h : s0.BroadcastsInDim t dims) (b : BitVec 32)
    (hb : finite (Ideal.ofBits .f32 b)) : ∀ j, finite (broadcastInDim t dims h (constant (F := Ideal) s0 .f32 b) j) :=
  fun _ => hb

theorem bcast_id_const_finite {s0 t : Shape} (dims : Fin s0.rank → Fin t.rank) (h : s0.BroadcastsInDim t dims) (b : BitVec 32)
    (hb : finite (Ideal.ofBits .f32 b)) : ∀ j, finite (broadcastInDim t dims h (id (constant (F := Ideal) s0 .f32 b)) j) :=
  fun _ => hb

/-- A scatter with an additive body, as the host operation. -/
theorem scatterAdd_finite {s si u : Shape} {w : Nat} (d : ScatterDims s si u) (x : FVec Ideal s .f32) (idx : IVec si w)
    (upd : FVec Ideal u .f32) (hx : ∀ i, finite (x i)) (hu : ∀ j, finite (upd j)) :
    ∀ i, finite (Host.scatterAdd d x idx upd i) :=
  hostScatterAdd_finite d x idx upd hx hu

/-- The entrywise product of two arrays of finite entries. -/
theorem mulf_vec_finite {s : Shape} (a b : FVec Ideal s .f32) (ha : ∀ i, finite (a i)) (hb : ∀ i, finite (b i)) :
    ∀ i, finite (mulf a b i) :=
  fun i => finite_mul (ha i) (hb i)

/-- A gather, as the host operation on float arrays. -/
theorem gatherf_finite {s si t : Shape} {w : Nat} (d : GatherDims s si t) (x : FVec Ideal s .f32) (idx : IVec si w)
    (hx : ∀ i, finite (x i)) : ∀ j, finite ((Host.gather d x idx : FVec Ideal t .f32) j) :=
  fun _ => hx _

/-- A broadcast of a float array. -/
theorem bcastf_finite {s t : Shape} (dims : Fin s.rank → Fin t.rank) (h : s.BroadcastsInDim t dims)
    (x : FVec Ideal s .f32) (hx : ∀ i, finite (x i)) : ∀ j, finite ((broadcastInDim t dims h x : FVec Ideal t .f32) j) :=
  fun _ => hx _

/-- Where the degree is positive its inverse square root (the degree taken at least one), elsewhere a finite filler: finite. -/
theorem dinv_shape_finite {s : Shape} (deg z1 one z2 : FVec Ideal s .f32) (hdeg : ∀ i, finite (deg i))
    (hone : ∀ i, one i = 1) (hz : ∀ i, finite (z2 i)) :
    ∀ i, finite (select (cmpf .ogt deg z1) (Host.rsqrt (maximumf deg one)) z2 i) := by
  intro i
  refine select_finite ?_ (hz i)
  show finite (Ideal.rsqrt (max (deg i) (one i)))
  rw [hone i]
  exact rsqrt_max_one_finite (hdeg i)

/-! ### The aggregation of the network -/

/-- Every in-degree is finite. -/
theorem degOf_finite (e : (⟨S2x1200000, .i32⟩ : BufTy).Contents (Elt Ideal)) : ∀ i, finite (degOf (F := Ideal) e i) :=
  scatterAdd_finite _ _ _ _ (bcast_const_finite _ _ _ finite_ofBits_zero) (bcast_const_finite _ _ _ finite_ofBits_one)

/-- Every inverse square root of a degree is finite. -/
theorem dinvOf_finite (e : (⟨S2x1200000, .i32⟩ : BufTy).Contents (Elt Ideal)) : ∀ i, finite (dinvOf (F := Ideal) e i) :=
  dinv_shape_finite _ _ _ _ (degOf_finite e) (fun i => (bcast_const_apply _ _ _ i).trans one_eq)
    (bcast_id_const_finite _ _ _ finite_ofBits_zero)

/-- Every edge weight is finite when the inverse square roots of the degrees are. -/
theorem weightFrom_finite (src dst : (⟨S1300000, .i32⟩ : BufTy).Contents (Elt Ideal))
    (dinv : (⟨S100000, .f32⟩ : BufTy).Contents (Elt Ideal)) (hd : ∀ i, finite (dinv i)) :
    ∀ i, finite (weightFrom (F := Ideal) src dst dinv i) :=
  mulf_vec_finite _ _ (gatherf_finite _ _ _ hd) (gatherf_finite _ _ _ hd)

/-- The aggregation with finite weights keeps entries finite. -/
theorem agg_finite (src dst : (⟨S1300000, .i32⟩ : BufTy).Contents (Elt Ideal))
    (weight : (⟨S1300000, .f32⟩ : BufTy).Contents (Elt Ideal)) (h : (⟨S100000x64, .f32⟩ : BufTy).Contents (Elt Ideal))
    (hw : ∀ i, finite (weight i)) (hh : ∀ i, finite (h i)) : ∀ i, finite (agg (F := Ideal) src dst weight h i) :=
  scatterAdd_finite _ _ _ _ (bcast_const_finite _ _ _ finite_ofBits_zero)
    (mulf_vec_finite _ _ (gatherf_finite _ _ _ hh) (bcastf_finite _ _ _ (bcastf_finite _ _ _ hw)))

/-- The whole aggregation keeps entries finite. -/
theorem aggOf_finite (e : (⟨S2x1200000, .i32⟩ : BufTy).Contents (Elt Ideal))
    (h : (⟨S100000x64, .f32⟩ : BufTy).Contents (Elt Ideal)) (hh : ∀ i, finite (h i)) :
    ∀ i, finite (aggOf (F := Ideal) e h i) :=
  agg_finite _ _ _ h (weightFrom_finite _ _ _ (dinvOf_finite e)) hh

end GCN

end
-- ==== Proof.AggEq.lean ====
/-
  The two programs aggregate over the edges by the same host operations of the edge list. Stage by stage — the source and
  target nodes with the self-loops appended, the degrees, their inverse square roots, the index normalisation, the edge
  weights — the reference's stages are the kernel program's, so the two aggregations are one function of the edge list and
  the node features.
-/
import proofs.«134326_j82703890251955_1_alg».proof.Proof.RefValue
import proofs.«134326_j82703890251955_1_alg».proof.Proof.KHost

set_option maxRecDepth 16384

noncomputable section

namespace GCN.Ref

open Cert.ReferenceIdeal Cert.ReferenceIdeal.Gen Cert.ReferenceIdeal.ReadP Idealize.ShloMosaic Idealize.ShloMosaic.StableHlo
open Cert.KernelIdeal.HostValue (srcOf dstOf dinvOf degOf weightFrom wrap aggOf)

theorem src_eq (x1 : EdgeArr) : val_main_v3 (F := Ideal) x1 = srcOf (F := Ideal) x1 := by
  unfold val_main_v3 val_main_v2 val_main_v1 val_main_v0 srcOf
  rfl

theorem dst_eq (x1 : EdgeArr) : val_main_v6 (F := Ideal) x1 = dstOf (F := Ideal) x1 := by
  unfold val_main_v6 val_main_v5 val_main_v4 val_main_v0 dstOf
  rfl

theorem deg_eq (x1 : EdgeArr) : val_main_v10 (F := Ideal) x1 = degOf (F := Ideal) x1 := by
  unfold val_main_v10 val_main_v9 val_main_v8 val_main_v7 val_main_cst val_main_cst_0 degOf
  rw [dst_eq]
  rfl

theorem dinv_eq (x1 : EdgeArr) : val_main_v16 (F := Ideal) x1 = dinvOf (F := Ideal) x1 := by
  unfold val_main_v16 val_main_v15 val_main_v14 val_main_v13 val_main_v12 val_main_v11 val_main_cst_1 val_main_cst_2 val_main_call0_v1 val_main_call0_v0 val_main_cst_3 dinvOf
  rw [deg_eq]

theorem wrap_src (x1 : EdgeArr) : val_main_v21 (F := Ideal) x1 = wrap (F := Ideal) (srcOf x1) := by
  unfold val_main_v21 val_main_v20 val_main_v19 val_main_v18 val_main_v17 val_main_c val_main_c_4 wrap
  rw [src_eq]

theorem wrap_dst (x1 : EdgeArr) : val_main_v28 (F := Ideal) x1 = wrap (F := Ideal) (dstOf x1) := by
  unfold val_main_v28 val_main_v27 val_main_v26 val_main_v25 val_main_v24 val_main_c_5 val_main_c_6 wrap
  rw [dst_eq]

theorem weight_eq (x1 : EdgeArr) : val_main_v31 (F := Ideal) x1 = weightFrom (F := Ideal) (srcOf x1) (dstOf x1) (dinvOf x1) := by
  unfold val_main_v31 val_main_v30 val_main_v29 val_main_v23 val_main_v22 weightFrom
  rw [dinv_eq, wrap_src, wrap_dst]
  rfl

theorem wrap_src' (x1 : EdgeArr) : val_main_v37 (F := Ideal) x1 = wrap (F := Ideal) (srcOf x1) := by
  unfold val_main_v37 val_main_v36 val_main_v35 val_main_v34 val_main_v33 val_main_c_7 val_main_c_8 wrap
  rw [src_eq]

/-- The reference's aggregation is the kernel program's. -/
theorem agg_eq (x1 : EdgeArr) : agg x1 = aggOf (F := Ideal) x1 := by
  funext h
  unfold agg aggOf Cert.KernelIdeal.HostValue.agg val_main_v43 val_main_v44 val_main_v38 val_main_v41 val_main_v40 val_main_cst_9
  rw [dst_eq, wrap_src', weight_eq]
  rfl

end GCN.Ref

end
-- ==== Proof.lean ====
/-
  Three graph-convolution layers with batch normalisation, computed two ways. Both programs transform the node features by a
  weight matrix, aggregate over the edges (self-loops added, each edge weighted by the inverse square roots of the degrees of
  its two ends), add a bias; after the first two layers they normalise every feature over the 100000 nodes, scale, shift and
  rectify. One program runs the dense stages as kernels over ten blocks of 10000 rows — the transform as a blockwise matrix
  product, the bias together with the running column sums and sums of squares, the normalisation from a variance computed as
  the mean of the squares minus the square of the mean — the other computes the variance as the mean of the squared
  deviations. On the extended reals the two are one function of the arguments wherever the float arguments are finite: every
  intermediate array is then finite, so the two forms of the variance agree (the sum of (x - μ)² is the sum of x² minus n μ²),
  and every other stage is the same expression on both sides.
-/
import proofs.«134326_j82703890251955_1_alg».proof.Defs
import proofs.«134326_j82703890251955_1_alg».proof.Proof.Gen.Kernel
import proofs.«134326_j82703890251955_1_alg».proof.Proof.Gen.Kernel.Frame
import proofs.«134326_j82703890251955_1_alg».proof.Proof.Gen.KernelIdeal
import proofs.«134326_j82703890251955_1_alg».proof.Proof.Gen.KernelIdeal.Frame
import proofs.«134326_j82703890251955_1_alg».proof.Proof.Gen.ReferenceIdeal
import proofs.«134326_j82703890251955_1_alg».proof.Proof.Gen.Pre_finite_inputs
import proofs.«134326_j82703890251955_1_alg».proof.Proof.KRun
import proofs.«134326_j82703890251955_1_alg».proof.Proof.KChain
import proofs.«134326_j82703890251955_1_alg».proof.Proof.RefValue
import proofs.«134326_j82703890251955_1_alg».proof.Proof.RefRun
import proofs.«134326_j82703890251955_1_alg».proof.Proof.VarLaw
import proofs.«134326_j82703890251955_1_alg».proof.Proof.FiniteIn
import proofs.«134326_j82703890251955_1_alg».proof.Proof.AggFinite
import proofs.«134326_j82703890251955_1_alg».proof.Proof.AggEq
import Idealize.ShloMosaic.Adequacy
import Idealize.ShloMosaic.Init

set_option maxRecDepth 16384

noncomputable section

namespace Cert.Proof

open Idealize.ShloMosaic Idealize.SL.Sem

/-- The word-level kernel program terminates without a fault and leaves its arguments as launched. -/
theorem frame_k [Cert.Kernel.Facts] [Cert.Pre_finite_inputs.Facts] : Cert.frame_Kernel := fun m ρ _ => Cert.Kernel.Gen.frame m ρ

/-- So does its reading on the extended reals. -/
theorem frame_ki [Cert.KernelIdeal.Facts] [Cert.Pre_finite_inputs.Facts] : Cert.frame_KernelIdeal := fun m ρ _ => Cert.KernelIdeal.Gen.frame m ρ

/-- The reference program's run, with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (GCN.Ref.run m ρ)

/-- Both programs end at the network of the arguments, the kernel program's with the second-moment variance, the reference's
    with the variance of the deviations; on finite arguments these are one function. -/
theorem algebraic [Cert.KernelIdeal.Facts] [Cert.ReferenceIdeal.Facts] [hP : Cert.Pre_finite_inputs.Facts] : Cert.algebraic_KernelIdeal_ReferenceIdeal := by
  intro m ρ m' ρ' hpre hagree
  refine ⟨fun c => GCN.net (Cert.KernelIdeal.HostValue.aggOf (m ((c.tc : Thread Cert.KernelIdeal.nD Cert.KernelIdeal.τ).loc Cert.KernelIdeal.main_arg1))) GCN.varMom (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (GCN.vec (m ((c.tc : Thread Cert.KernelIdeal.nD Cert.KernelIdeal.τ).loc Cert.KernelIdeal.main_arg3))) (GCN.vec (m ((c.tc : Thread Cert.KernelIdeal.nD Cert.KernelIdeal.τ).loc Cert.KernelIdeal.main_arg4))) (GCN.vec (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (GCN.vec (m ((c.tc : Thread Cert.KernelIdeal.nD Cert.KernelIdeal.τ).loc Cert.KernelIdeal.main_arg7)))
      (GCN.vec (m ((c.tc : Thread Cert.KernelIdeal.nD Cert.KernelIdeal.τ).loc Cert.KernelIdeal.main_arg8))) (GCN.vec (m ((c.tc : Thread Cert.KernelIdeal.nD Cert.KernelIdeal.τ).loc Cert.KernelIdeal.main_arg9))) (m ((c.tc : Thread Cert.KernelIdeal.nD Cert.KernelIdeal.τ).loc Cert.KernelIdeal.main_arg10)) (GCN.vec (m ((c.tc : Thread Cert.KernelIdeal.nD Cert.KernelIdeal.τ).loc Cert.KernelIdeal.main_arg11))), ?_, ?_⟩
  · exact (θ_run Cert.KernelIdeal.defs _ _).mono (fun r h c => ⟨(h c).1.trans (Cert.KernelIdeal.Chain.result m ρ c), (h c).2⟩)
      (Cert.KernelIdeal.GenP.run_result m ρ)
  · refine (θ_run Cert.ReferenceIdeal.defs _ _).mono (fun r h c => ⟨(h c).1.trans ?_, (h c).2⟩) (GCN.Ref.run m' ρ')
    obtain ⟨a0, a1, a2, a3, a4, a5, a6, a7, a8, a9, a10, a11⟩ := hagree c
    obtain ⟨f0, f2, f3, f4, f5, f6, f7, f8, f9, f10, f11⟩ := GCN.finite_of_pre _ _ _ _ _ _ _ _ _ _ _ _ (hpre c)
    rw [a0, a1, a2, a3, a4, a5, a6, a7, a8, a9, a10, a11, GCN.Ref.agg_eq]
    exact (GCN.net_var _ (fun h hh => GCN.aggOf_finite _ h hh) _ _ _ _ _ _ _ _ _ _ _ f0 f2 (fun j => f3 _) (fun j => f4 _) (fun j => f5 _) f6
      (fun j => f7 _) (fun j => f8 _) (fun j => f9 _) f10 (fun j => f11 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
